-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S4096x4096 : Shape := ⟨2, ![4096, 4096]⟩
abbrev S16x32 : Shape := ⟨2, ![16, 32]⟩
abbrev S32x32 : Shape := ⟨2, ![32, 32]⟩
abbrev S32x16 : Shape := ⟨2, ![32, 16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x32 : S_.BroadcastsInDim S16x32 (![] : Fin 0 → Fin S16x32.rank)
  reducesTo_S16x32_S_d0_1 : S16x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S4096x16 .f32) (main_arg1 : FVec F S4096x4096 .f32) (main_arg2 : FVec F S16x32 .f32) (main_arg3 : FVec F S32x32 .f32) (main_arg4 : FVec F S32x16 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S4096x16 : Shape := ⟨2, ![4096, 16]⟩
abbrev S4096x4096 : Shape := ⟨2, ![4096, 4096]⟩
abbrev S16x32 : Shape := ⟨2, ![16, 32]⟩
abbrev S32x32 : Shape := ⟨2, ![32, 32]⟩
abbrev S32x16 : Shape := ⟨2, ![32, 16]⟩
abbrev S_ : Shape := ⟨0, ![]⟩
abbrev S256x4096 : Shape := ⟨2, ![256, 4096]⟩
abbrev S4096x32 : Shape := ⟨2, ![4096, 32]⟩
abbrev S256x32 : Shape := ⟨2, ![256, 32]⟩
abbrev S256x16 : Shape := ⟨2, ![256, 16]⟩

abbrev nBuf : Space → Nat
  | .hbm => 10
  | .vmem => 13
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S16x32, .f32⟩
  | .hbm, ⟨3, _⟩ => ⟨S32x32, .f32⟩
  | .hbm, ⟨4, _⟩ => ⟨S32x16, .f32⟩
  | .hbm, ⟨5, _⟩ => ⟨S_, .i32⟩
  | .hbm, ⟨6, _⟩ => ⟨S_, .f32⟩
  | .hbm, ⟨7, _⟩ => ⟨S32x32, .f32⟩
  | .hbm, ⟨8, _⟩ => ⟨S4096x16, .f32⟩
  | .hbm, ⟨9, _⟩ => ⟨S4096x4096, .f32⟩
  | .local _ .vmem, ⟨0, _⟩ => ⟨S4096x16, .f32⟩
  | .local _ .vmem, ⟨1, _⟩ => ⟨S256x4096, .f32⟩
  | .local _ .vmem, ⟨2, _⟩ => ⟨S256x4096, .f32⟩
  | .local _ .vmem, ⟨3, _⟩ => ⟨S16x32, .f32⟩
  | .local _ .vmem, ⟨4, _⟩ => ⟨S32x32, .f32⟩
  | .local _ .vmem, ⟨5, _⟩ => ⟨S32x32, .f32⟩
  | .local _ .vmem, ⟨6, _⟩ => ⟨S4096x16, .f32⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | .local _ .vmem, ⟨10, _⟩ => ⟨S4096x32, .bf16⟩
  | .local _ .vmem, ⟨11, _⟩ => ⟨S4096x32, .f32⟩
  | .local _ .vmem, ⟨12, _⟩ => ⟨S4096x16, .bf16⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c256_i32 : BitVec 32 := 256#32
  let v29 : BitVec 32 := Scalar.muli arg1 c256_i32
  let v30 : Index := Scalar.indexCast v29
  let c0_13 : Index := 0#32
  ![v30.toNat, 0]
def k0_off2 (i : grid0.Coords) : Fin 2 → Nat :=
  let arg1 : BitVec 32 := BitVec.ofNat 32 (i 1).val
  let c256_i32_17 : BitVec 32 := 256#32
  let v38 : BitVec 32 := Scalar.muli arg1 c256_i32_17
  let v39 : Index := Scalar.indexCast v38
  let c0_18 : Index := 0#32
  ![v39.toNat, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def k0_off3 (i : grid0.Coords) : Fin 2 → Nat :=
  let arg1 : BitVec 32 := BitVec.ofNat 32 (i 1).val
  let c256_i32 : BitVec 32 := 256#32
  let v27 : BitVec 32 := Scalar.muli arg1 c256_i32
  let v28 : Index := Scalar.indexCast v27
  let c0 : Index := 0#32
  ![v28.toNat, 0]
def k0_off4 (i : grid0.Coords) : Fin 2 → Nat :=
  let arg1 : BitVec 32 := BitVec.ofNat 32 (i 1).val
  let c256_i32_15 : BitVec 32 := 256#32
  let v34 : BitVec 32 := Scalar.muli arg1 c256_i32_15
  let v35 : Index := Scalar.indexCast v34
  let c0_16 : Index := 0#32
  ![v35.toNat, 0]
def k0_cond6 (i : grid0.Coords) : BitVec 1 :=
  let arg0 : BitVec 32 := BitVec.ofNat 32 (i 0).val
  let c2_i32 : BitVec 32 := 2#32
  let v21 : BitVec 1 := Scalar.cmpi .eq arg0 c2_i32
  let v22 : BitVec 32 := Scalar.extui v21
  let c0_i32_10 : BitVec 32 := 0#32
  let v23 : BitVec 1 := Scalar.cmpi .ne v22 c0_i32_10
  v23

def k0_off5 (i : grid0.Coords) : Fin 2 → Nat :=
  let arg1 : BitVec 32 := BitVec.ofNat 32 (i 1).val
  let c256_i32 : BitVec 32 := 256#32
  let v27 : BitVec 32 := Scalar.muli arg1 c256_i32
  let v28 : Index := Scalar.indexCast v27
  let c0 : Index := 0#32
  ![v28.toNat, 0]
def k0_off6 (i : grid0.Coords) : Fin 2 → Nat :=
  let arg1 : BitVec 32 := BitVec.ofNat 32 (i 1).val
  let c256_i32_15 : BitVec 32 := 256#32
  let v35 : BitVec 32 := Scalar.muli arg1 c256_i32_15
  let v36 : Index := Scalar.indexCast v35
  let c0_16 : Index := 0#32
  ![v36.toNat, 0]
def k0_cond7 (i : grid0.Coords) : BitVec 1 :=
  let arg0 : BitVec 32 := BitVec.ofNat 32 (i 0).val
  let c3_i32 : BitVec 32 := 3#32
  let v24 : BitVec 1 := Scalar.cmpi .eq arg0 c3_i32
  let v25 : BitVec 32 := Scalar.extui v24
  let c0_i32_11 : BitVec 32 := 0#32
  let v26 : BitVec 1 := Scalar.cmpi .ne v25 c0_i32_11
  v26

def k0_off7 (i : grid0.Coords) : Fin 2 → Nat :=
  let arg1 : BitVec 32 := BitVec.ofNat 32 (i 1).val
  let c256_i32 : BitVec 32 := 256#32
  let v27 : BitVec 32 := Scalar.muli arg1 c256_i32
  let v28 : Index := Scalar.indexCast v27
  let c0 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S32x16_S32x32_000_0160 : S32x16.Pads (![0, 0] : Fin 2 → Nat) ![0, 16] ![0, 0] S32x32
  h_S_ : 0 < S_.numel
  inb_S4096x16_S4096x16_0_0 : ∀ a, (![0, 0] : Fin 2 → Nat) a + S4096x16.size a ≤ S4096x16.size a
  h_S4096x16 : 0 < S4096x16.numel
  inb_S16x32_S16x32_0_0 : ∀ a, (![0, 0] : Fin 2 → Nat) a + S16x32.size a ≤ S16x32.size a
  h_S16x32 : 0 < S16x32.numel
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  packedbf16_S4096x32_S4096x32_0_0 : (Rect.unit (s := S4096x32) ![0, 0] S4096x32.size inb_S4096x32_S4096x32_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S256x32 : 0 < S256x32.numel
  shapeCasts_S256x32_S256x32 : S256x32.ShapeCasts S256x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S256x32_o0_0_S256x16 : S256x32.Slices ![0, 0] S256x16
  h_S256x16 : 0 < S256x16.numel
  shapeCasts_S256x16_S256x16 : S256x16.ShapeCasts S256x16
  dot_S4096x16_S16x32_S4096x32_1_0_0_1_n_n_wf : DotDims.WF S4096x16 S16x32 S4096x32 [1] [0] [0] [1] [] []
  dot_S256x4096_S4096x32_S256x32_1_0_0_1_n_n_wf : DotDims.WF S256x4096 S4096x32 S256x32 [1] [0] [0] [1] [] []
  dot_S4096x32_S32x32_S4096x32_1_0_0_1_n_n_wf : DotDims.WF S4096x32 S32x32 S4096x32 [1] [0] [0] [1] [] []
  dot_S256x16_S4096x16_S256x4096_1_1_0_0_n_n_wf : DotDims.WF S256x16 S4096x16 S256x4096 [1] [1] [0] [0] [] []
  hrank0 : 0 < grid0.rank
  k0_off1_inb : ∀ i : grid0.Coords, ∀ (k0_h2 : k0_cond2 i = 1#1), ∀ a, (k0_off1 i) a + S256x4096.size a ≤ S4096x4096.size a
  k0_off1_packedbf16 : ∀ i : grid0.Coords, ∀ (k0_h2 : k0_cond2 i = 1#1), (Rect.unit (s := S4096x4096) (k0_off1 i) S256x4096.size (k0_off1_inb i k0_h2)).PackedRows (EltTy.packing .bf16)
  k0_off2_inb : ∀ i : grid0.Coords, ∀ (k0_h2 : k0_cond2 i = 1#1), ∀ a, (k0_off2 i) a + S256x32.size a ≤ S4096x32.size a
  k0_off3_inb : ∀ i : grid0.Coords, ∀ (k0_h4 : k0_cond4 i = 1#1), ∀ a, (k0_off3 i) a + S256x4096.size a ≤ S4096x4096.size a
  k0_off4_inb : ∀ i : grid0.Coords, ∀ (k0_h4 : k0_cond4 i = 1#1), ∀ a, (k0_off4 i) a + S256x32.size a ≤ S4096x32.size a
  k0_off5_inb : ∀ i : grid0.Coords, ∀ (k0_h6 : k0_cond6 i = 1#1), ∀ a, (k0_off5 i) a + S256x4096.size a ≤ S4096x4096.size a
  k0_off6_inb : ∀ i : grid0.Coords, ∀ (k0_h6 : k0_cond6 i = 1#1), ∀ a, (k0_off6 i) a + S256x16.size a ≤ S4096x16.size a
  k0_off6_packedbf16 : ∀ i : grid0.Coords, ∀ (k0_h6 : k0_cond6 i = 1#1), (Rect.unit (s := S4096x16) (k0_off6 i) S256x16.size (k0_off6_inb i k0_h6)).PackedRows (EltTy.packing .bf16)
  k0_off7_inb : ∀ i : grid0.Coords, ∀ (k0_h7 : k0_cond7 i = 1#1), ∀ a, (k0_off7 i) a + S256x16.size a ≤ S4096x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4096x16.size a
  hwx0_0 : ∀ i : grid0.Coords, EltTy.bits .f32 = 32 ∨ (Rect.block (s := S4096x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S4096x16.size a
  hwx0_5 : ∀ i : grid0.Coords, EltTy.bits .f32 = 32 ∨ (Rect.block (s := S4096x16) S4096x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .f32 = 32 ∨ (Rect.block (s := S4096x4096) S256x4096.size (cc0_transform_6 i) (hinb0_6 i)).WholeWords (EltTy.packing .f32)

variable [Facts₀]

def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_arg0) S4096x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S4096x16.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond6 i == 1#1) | 6 => fun i => !(k0_cond7 i == 1#1) | ⟨_ + 7, h⟩ => absurd h (Nat.not_lt.2 (Nat.le_add_left _ _))

class Facts : Prop extends Facts₀ where

variable [Facts]
-- ==== ReferenceIdeal.lean ====
abbrev S4096x16 : Shape := ⟨2, ![4096, 16]⟩
abbrev S4096x4096 : Shape := ⟨2, ![4096, 4096]⟩
abbrev S16x32 : Shape := ⟨2, ![16, 32]⟩
abbrev S32x32 : Shape := ⟨2, ![32, 32]⟩
abbrev S32x16 : Shape := ⟨2, ![32, 16]⟩
abbrev S4096x32 : Shape := ⟨2, ![4096, 32]⟩
abbrev S_ : Shape := ⟨0, ![]⟩
abbrev S16x4096 : Shape := ⟨2, ![16, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S16x32, .f32⟩
  | .hbm, ⟨3, _⟩ => ⟨S32x32, .f32⟩
  | .hbm, ⟨4, _⟩ => ⟨S32x16, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096x32, .f32⟩
  | .hbm, ⟨14, _⟩ => ⟨S4096x32, .f32⟩
  | .hbm, ⟨15, _⟩ => ⟨S4096x16, .f32⟩
  | .hbm, ⟨16, _⟩ => ⟨S4096x16, .f32⟩
  | .hbm, ⟨17, _⟩ => ⟨S_, .f32⟩
  | .hbm, ⟨18, _⟩ => ⟨S4096x16, .f32⟩
  | .hbm, ⟨19, _⟩ => ⟨S4096x16, .f32⟩
  | .hbm, ⟨20, _⟩ => ⟨S16x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S4096x32 : S_.BroadcastsInDim S4096x32 (![] : Fin 0 → Fin S4096x32.rank)
  bcast_S_S4096x16 : S_.BroadcastsInDim S4096x16 (![] : Fin 0 → Fin S4096x16.rank)
  transposes_S4096x16_S16x4096_1_0 : S4096x16.Transposes [1, 0] S16x4096
  bcast_S_S4096x4096 : S_.BroadcastsInDim S4096x4096 (![] : Fin 0 → Fin S4096x4096.rank)
  dot_S4096x16_S16x32_S4096x32_1_0_0_1_n_n_wf : DotDims.WF S4096x16 S16x32 S4096x32 [1] [0] [0] [1] [] []
  dot_S4096x4096_S4096x32_S4096x32_1_0_0_1_n_n_wf : DotDims.WF S4096x4096 S4096x32 S4096x32 [1] [0] [0] [1] [] []
  dot_S4096x32_S32x32_S4096x32_1_0_0_1_n_n_wf : DotDims.WF S4096x32 S32x32 S4096x32 [1] [0] [0] [1] [] []
  dot_S4096x32_S32x16_S4096x16_1_0_0_1_n_n_wf : DotDims.WF S4096x32 S32x16 S4096x16 [1] [0] [0] [1] [] []
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.LibWholeBuffer.lean ====
/-
  Two facts about a whole buffer read through its view: a load through a rectangle reads the logical contents at the
  rectangle's indices, and one unmasked store through a rectangle leaves the logical contents with the rectangle's part
  replaced by the stored values and every other element as it was.
-/
import Idealize.ShloMosaic.Lib.Pipeline.FrameBody

noncomputable section

namespace Cert.SLib

open Idealize.ShloMosaic

variable {sig : RefSig} {Val : EltTy → Type} {κ : Kind} {sp : Space} {s : Shape} {e : EltTy} {m : Memref sig κ sp s e}

/-- One store through `r` over contents reading `x`: `x` with `r`'s part replaced by the payload. -/
theorem read_writes_single (hm : m.IsWhole) (x : s.Idx → Val e) (r : Rect s) (w : r.shape.Idx → Val e) :
    m.view.read Val (m.view.writes Val (hm.unread x) [⟨r, w⟩]) = r.overlay x w := by
  funext y
  by_cases hy : y ∈ r.set
  · obtain ⟨j, rfl⟩ : ∃ j, r.emb j = y := r.exists_idx_of_mem hy
    rw [View.read_writes_cons_emb, Rect.overlay_emb]
  · rw [View.read_writes_apply_of_forall_not_mem _ _ _ _ (fun p hp => by
        rw [List.mem_singleton] at hp; subst hp; exact hy),
      hm.read_unread, Rect.overlay_of_not_mem _ _ _ hy]

/-- A load through `r` of contents reading `x`: `x` at the rectangle's indices. -/
theorem readAt_unread (hm : m.IsWhole) (x : s.Idx → Val e) (r : Rect s) :
    View.readAt Val m.view r (hm.unread x) = View.ld x r := by
  rw [View.readAt_eq_ld, hm.read_unread]

end Cert.SLib

end
-- ==== Proof.Bits.Body.lean ====
/-
  The kernel body, one grid point at a time, on whole buffers at arbitrary contents.

  The body is seven conditionals in sequence, each guarded by a condition on the two grid coordinates (phase, row band).
  Each conditional loads some buffers whole or one 256-row band of them, computes one pure value, and stores it whole or
  into the point's band. Written out here: the seven conditions; the body cut into its conditionals; what each conditional
  leaves in the buffers it stores into, as a pure function of what the buffers held; and the triple of the whole body.
-/
import proofs.«136274_g82781199663863_cont_9to1_m_1005_4_alg».proof.Proof.Gen.Kernel.Launch
import proofs.«136274_g82781199663863_cont_9to1_m_1005_4_alg».proof.Proof.Gen.Kernel.Skeleton
import proofs.«136274_g82781199663863_cont_9to1_m_1005_4_alg».proof.Proof.Gen.Kernel.Points
import proofs.«136274_g82781199663863_cont_9to1_m_1005_4_alg».proof.Proof.Gen.Kernel.Frame
import Idealize.ShloMosaic.Lib.Pipeline.FrameBody
import Idealize.ShloMosaic.Lib.Ring
import Idealize.ShloMosaic.Lib.Tactic
import proofs.«136274_g82781199663863_cont_9to1_m_1005_4_alg».proof.Proof.LibWholeBuffer

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven conditions of the body at a grid point (phase `i 0`, row band `i 1`): first point; first phase; last band of
    the first phase; second phase; last band of the second phase; third phase; fourth phase. -/
abbrev c1 (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev c2 (i : grid0.Coords) : Prop := k0_cond2 i = 1#1
abbrev c3 (i : grid0.Coords) : Prop := Scalar.cmpi .ne (Scalar.extui (Scalar.andi (Scalar.cmpi .eq (BitVec.ofNat 32 (i 0).val) 0#32) (Scalar.cmpi .eq (BitVec.ofNat 32 (i 1).val) 15#32)) : BitVec 32) 0#32 = 1#1
abbrev c4 (i : grid0.Coords) : Prop := k0_cond4 i = 1#1
abbrev c5 (i : grid0.Coords) : Prop := Scalar.cmpi .ne (Scalar.extui (Scalar.andi (Scalar.cmpi .eq (BitVec.ofNat 32 (i 0).val) 1#32) (Scalar.cmpi .eq (BitVec.ofNat 32 (i 1).val) 15#32)) : BitVec 32) 0#32 = 1#1
abbrev c6 (i : grid0.Coords) : Prop := k0_cond6 i = 1#1
abbrev c7 (i : grid0.Coords) : Prop := k0_cond7 i = 1#1
/-- Conditional 1 of the body followed by the rest of the body. -/
noncomputable def blk1 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  let v4 : BitVec 1 := Scalar.cmpi .ne v3 0#32
  if k0_h1 : v4 = 1#1 then do
    let v27 : Vec F S4096x16 .f32 ← Prog.lift (.load arg2 (Rect.unit (s := S4096x16) ![0, 0] S4096x16.size inb_S4096x16_S4096x16_0_0).toLoadRect (View.loadsAt_vmem h_S4096x16))
    let v28 : Vec F S16x32 .f32 ← Prog.lift (.load arg4 (Rect.unit (s := S16x32) ![0, 0] S16x32.size inb_S16x32_S16x32_0_0).toLoadRect (View.loadsAt_vmem h_S16x32))
    let v31 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay1 v27 v28) Finset.univ (View.stores_vmem h_S4096x32 (harg10.storeExact_slice rfl _ packedbf16_S4096x32_S4096x32_0_0) (fun _ => rfl)) (.inl rfl))
    rest
  else do
    rest

/-- Conditional 2 of the body followed by the rest of the body. -/
noncomputable def blk2 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h2 : k0_cond2 i = 1#1 then do
    let v27 : Vec F S256x4096 .f32 ← Prog.lift (.load arg3 (Rect.unit (s := S256x4096) ![0, 0] S256x4096.size inb_S256x4096_S256x4096_0_0).toLoadRect (View.loadsAt_vmem h_S256x4096))
    let v31 : Vec F S256x4096 .bf16 ← Prog.lift (.load arg9 (Rect.unit (s := S4096x4096) (k0_off1 i) S256x4096.size (k0_off1_inb i k0_h2)).toLoadRect (View.loadsAt_vmem h_S256x4096))
    Prog.lift (.store arg9 (Rect.unit (s := S4096x4096) (k0_off1 i) S256x4096.size (k0_off1_inb i k0_h2)) (k0_pay3 v27) Finset.univ (View.stores_vmem h_S256x4096 (harg9.storeExact_slice rfl _ (k0_off1_packedbf16 i k0_h2)) (fun _ => rfl)) (.inl rfl))
    let v34 : Vec F S4096x32 .bf16 ← Prog.lift (.load arg10 (Rect.unit (s := S4096x32) ![0, 0] S4096x32.size inb_S4096x32_S4096x32_0_0).toLoadRect (View.loadsAt_vmem h_S4096x32))
    let v40 : Vec F S256x32 .f32 ← Prog.lift (.load arg11 (Rect.unit (s := S4096x32) (k0_off2 i) S256x32.size (k0_off2_inb i k0_h2)).toLoadRect (View.loadsAt_vmem h_S256x32))
    Prog.lift (.store arg11 (Rect.unit (s := S4096x32) (k0_off2 i) S256x32.size (k0_off2_inb i k0_h2)) (k0_pay4 v27 v34) Finset.univ (View.stores_vmem_bits_univ h_S256x32 rfl) (.inl rfl))
    rest
  else do
    rest

/-- Conditional 3 of the body followed by the rest of the body. -/
noncomputable def blk3 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v8 : BitVec 1 := Scalar.cmpi .eq arg0 0#32
  let v9 : BitVec 1 := Scalar.cmpi .eq arg1 15#32
  let v10 : BitVec 1 := Scalar.andi v8 v9
  let v11 : BitVec 32 := Scalar.extui v10
  let v12 : BitVec 1 := Scalar.cmpi .ne v11 0#32
  if k0_h3 : v12 = 1#1 then do
    let v27 : Vec F S4096x32 .f32 ← Prog.lift (.load arg11 (Rect.unit (s := S4096x32) ![0, 0] S4096x32.size inb_S4096x32_S4096x32_0_0).toLoadRect (View.loadsAt_vmem h_S4096x32))
    let v28 : Vec F S32x32 .f32 ← Prog.lift (.load arg5 (Rect.unit (s := S32x32) ![0, 0] S32x32.size inb_S32x32_S32x32_0_0).toLoadRect (View.loadsAt_vmem h_S32x32))
    let v31 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay5 v27 v28) Finset.univ (View.stores_vmem h_S4096x32 (harg10.storeExact_slice rfl _ packedbf16_S4096x32_S4096x32_0_0) (fun _ => rfl)) (.inl rfl))
    rest
  else do
    rest

/-- Conditional 4 of the body followed by the rest of the body. -/
noncomputable def blk4 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h4 : k0_cond4 i = 1#1 then do
    let v29 : Vec F S256x4096 .bf16 ← Prog.lift (.load arg9 (Rect.unit (s := S4096x4096) (k0_off3 i) S256x4096.size (k0_off3_inb i k0_h4)).toLoadRect (View.loadsAt_vmem h_S256x4096))
    let v30 : Vec F S4096x32 .bf16 ← Prog.lift (.load arg10 (Rect.unit (s := S4096x32) ![0, 0] S4096x32.size inb_S4096x32_S4096x32_0_0).toLoadRect (View.loadsAt_vmem h_S4096x32))
    let v36 : Vec F S256x32 .f32 ← Prog.lift (.load arg11 (Rect.unit (s := S4096x32) (k0_off4 i) S256x32.size (k0_off4_inb i k0_h4)).toLoadRect (View.loadsAt_vmem h_S256x32))
    Prog.lift (.store arg11 (Rect.unit (s := S4096x32) (k0_off4 i) S256x32.size (k0_off4_inb i k0_h4)) (k0_pay6 v29 v30) Finset.univ (View.stores_vmem_bits_univ h_S256x32 rfl) (.inl rfl))
    rest
  else do
    rest

/-- Conditional 5 of the body followed by the rest of the body. -/
noncomputable def blk5 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v16 : BitVec 1 := Scalar.cmpi .eq arg0 1#32
  let v17 : BitVec 1 := Scalar.cmpi .eq arg1 15#32
  let v18 : BitVec 1 := Scalar.andi v16 v17
  let v19 : BitVec 32 := Scalar.extui v18
  let v20 : BitVec 1 := Scalar.cmpi .ne v19 0#32
  if k0_h5 : v20 = 1#1 then do
    let v27 : Vec F S4096x32 .f32 ← Prog.lift (.load arg11 (Rect.unit (s := S4096x32) ![0, 0] S4096x32.size inb_S4096x32_S4096x32_0_0).toLoadRect (View.loadsAt_vmem h_S4096x32))
    let v28 : Vec F S32x32 .f32 ← Prog.lift (.load arg6 (Rect.unit (s := S32x32) ![0, 0] S32x32.size inb_S32x32_S32x32_0_0).toLoadRect (View.loadsAt_vmem h_S32x32))
    let v32 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay7 v27 v28) Finset.univ (View.stores_vmem h_S4096x32 (harg10.storeExact_slice rfl _ packedbf16_S4096x32_S4096x32_0_0) (fun _ => rfl)) (.inl rfl))
    rest
  else do
    rest

/-- Conditional 6 of the body followed by the rest of the body. -/
noncomputable def blk6 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h6 : k0_cond6 i = 1#1 then do
    let v29 : Vec F S256x4096 .bf16 ← Prog.lift (.load arg9 (Rect.unit (s := S4096x4096) (k0_off5 i) S256x4096.size (k0_off5_inb i k0_h6)).toLoadRect (View.loadsAt_vmem h_S256x4096))
    let v30 : Vec F S4096x32 .bf16 ← Prog.lift (.load arg10 (Rect.unit (s := S4096x32) ![0, 0] S4096x32.size inb_S4096x32_S4096x32_0_0).toLoadRect (View.loadsAt_vmem h_S4096x32))
    let v37 : Vec F S256x16 .f32 ← Prog.lift (.load arg7 (Rect.unit (s := S4096x16) (k0_off6 i) S256x16.size (k0_off6_inb i k0_h6)).toLoadRect (View.loadsAt_vmem h_S256x16))
    Prog.lift (.store arg7 (Rect.unit (s := S4096x16) (k0_off6 i) S256x16.size (k0_off6_inb i k0_h6)) (k0_pay8 v29 v30) Finset.univ (View.stores_vmem_bits_univ h_S256x16 rfl) (.inl rfl))
    let v41 : Vec F S256x16 .bf16 ← Prog.lift (.load arg12 (Rect.unit (s := S4096x16) (k0_off6 i) S256x16.size (k0_off6_inb i k0_h6)).toLoadRect (View.loadsAt_vmem h_S256x16))
    Prog.lift (.store arg12 (Rect.unit (s := S4096x16) (k0_off6 i) S256x16.size (k0_off6_inb i k0_h6)) (k0_pay9 v29 v30) Finset.univ (View.stores_vmem h_S256x16 (harg12.storeExact_slice rfl _ (k0_off6_packedbf16 i k0_h6)) (fun _ => rfl)) (.inl rfl))
    rest
  else do
    rest

/-- Conditional 7 of the body followed by the rest of the body. -/
noncomputable def blk7 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h7 : k0_cond7 i = 1#1 then do
    let v29 : Vec F S256x16 .bf16 ← Prog.lift (.load arg12 (Rect.unit (s := S4096x16) (k0_off7 i) S256x16.size (k0_off7_inb i k0_h7)).toLoadRect (View.loadsAt_vmem h_S256x16))
    let v30 : Vec F S4096x16 .bf16 ← Prog.lift (.load arg12 (Rect.unit (s := S4096x16) ![0, 0] S4096x16.size inb_S4096x16_S4096x16_0_0).toLoadRect (View.loadsAt_vmem h_S4096x16))
    let v39 : Vec F S256x4096 .f32 ← Prog.lift (.load arg8 (Rect.unit (s := S256x4096) ![0, 0] S256x4096.size inb_S256x4096_S256x4096_0_0).toLoadRect (View.loadsAt_vmem h_S256x4096))
    Prog.lift (.store arg8 (Rect.unit (s := S256x4096) ![0, 0] S256x4096.size inb_S256x4096_S256x4096_0_0) (k0_pay10 v29 v30) Finset.univ (View.stores_vmem_bits_univ h_S256x4096 rfl) (.inl rfl))
    rest
  else do
    rest

set_option maxRecDepth 65536 in
/-- The body is its seven conditionals, each followed by the rest. -/
theorem skel_eq_blocks (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) :
    cc0__fused_body_skel (F := F) i arg2 harg2 arg3 harg3 arg4 harg4 arg5 harg5 arg6 harg6 arg7 harg7 arg8 harg8 arg9 harg9 arg10 harg10 arg11 harg11 arg12 harg12 = (blk1 i arg2 harg2 arg3 harg3 arg4 harg4 arg5 harg5 arg6 harg6 arg7 harg7 arg8 harg8 arg9 harg9 arg10 harg10 arg11 harg11 arg12 harg12 (blk2 i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))))))) := rfl

/-- The support buffer after conditional 1: at the first grid point the product of the features and the first weight. -/
def p1 (i : grid0.Coords) (x2 : Vec F S4096x16 .f32) (x4 : Vec F S16x32 .f32) (x10 : Vec F S4096x32 .bf16) : Vec F S4096x32 .bf16 :=
  if h : c1 i then (Rect.unit (s := S4096x32) ![0, 0] S4096x32.size inb_S4096x32_S4096x32_0_0).overlay x10 (k0_pay1 (View.ld x2 (Rect.unit (s := S4096x16) ![0, 0] S4096x16.size inb_S4096x16_S4096x16_0_0)) (View.ld x4 (Rect.unit (s := S16x32) ![0, 0] S16x32.size inb_S16x32_S16x32_0_0))) else x10

/-- The resident copy of the adjacency after conditional 2: in the first phase the point's row band replaced by the band just fetched. -/
def p2a (i : grid0.Coords) (x3 : Vec F S256x4096 .f32) (x9 : Vec F S4096x4096 .bf16) : Vec F S4096x4096 .bf16 :=
  if h : c2 i then (Rect.unit (s := S4096x4096) (k0_off1 i) S256x4096.size (k0_off1_inb i h)).overlay x9 (k0_pay3 (View.ld x3 (Rect.unit (s := S256x4096) ![0, 0] S256x4096.size inb_S256x4096_S256x4096_0_0))) else x9

/-- The activations after conditional 2: in the first phase the point's row band replaced by the rectified product of the fetched band and the support. -/
def p2h (i : grid0.Coords) (x3 : Vec F S256x4096 .f32) (x10 : Vec F S4096x32 .bf16) (x11 : Vec F S4096x32 .f32) : Vec F S4096x32 .f32 :=
  if h : c2 i then (Rect.unit (s := S4096x32) (k0_off2 i) S256x32.size (k0_off2_inb i h)).overlay x11 (k0_pay4 (View.ld x3 (Rect.unit (s := S256x4096) ![0, 0] S256x4096.size inb_S256x4096_S256x4096_0_0)) (View.ld x10 (Rect.unit (s := S4096x32) ![0, 0] S4096x32.size inb_S4096x32_S4096x32_0_0))) else x11

/-- The support buffer after conditional 3: at the last point of the first phase the activations times the second weight. -/
def p3 (i : grid0.Coords) (x5 : Vec F S32x32 .f32) (x10 : Vec F S4096x32 .bf16) (x11 : Vec F S4096x32 .f32) : Vec F S4096x32 .bf16 :=
  if h : c3 i then (Rect.unit (s := S4096x32) ![0, 0] S4096x32.size inb_S4096x32_S4096x32_0_0).overlay x10 (k0_pay5 (View.ld x11 (Rect.unit (s := S4096x32) ![0, 0] S4096x32.size inb_S4096x32_S4096x32_0_0)) (View.ld x5 (Rect.unit (s := S32x32) ![0, 0] S32x32.size inb_S32x32_S32x32_0_0))) else x10

/-- The activations after conditional 4: in the second phase the point's row band replaced by the rectified product of the resident band and the support. -/
def p4 (i : grid0.Coords) (x9 : Vec F S4096x4096 .bf16) (x10 : Vec F S4096x32 .bf16) (x11 : Vec F S4096x32 .f32) : Vec F S4096x32 .f32 :=
  if h : c4 i then (Rect.unit (s := S4096x32) (k0_off4 i) S256x32.size (k0_off4_inb i h)).overlay x11 (k0_pay6 (View.ld x9 (Rect.unit (s := S4096x4096) (k0_off3 i) S256x4096.size (k0_off3_inb i h))) (View.ld x10 (Rect.unit (s := S4096x32) ![0, 0] S4096x32.size inb_S4096x32_S4096x32_0_0))) else x11

/-- The support buffer after conditional 5: at the last point of the second phase the activations times the padded third weight. -/
def p5 (i : grid0.Coords) (x6 : Vec F S32x32 .f32) (x10 : Vec F S4096x32 .bf16) (x11 : Vec F S4096x32 .f32) : Vec F S4096x32 .bf16 :=
  if h : c5 i then (Rect.unit (s := S4096x32) ![0, 0] S4096x32.size inb_S4096x32_S4096x32_0_0).overlay x10 (k0_pay7 (View.ld x11 (Rect.unit (s := S4096x32) ![0, 0] S4096x32.size inb_S4096x32_S4096x32_0_0)) (View.ld x6 (Rect.unit (s := S32x32) ![0, 0] S32x32.size inb_S32x32_S32x32_0_0))) else x10

/-- The first result's block after conditional 6: in the third phase the point's row band replaced by the rectified first sixteen columns of the product. -/
def p6o (i : grid0.Coords) (x7 : Vec F S4096x16 .f32) (x9 : Vec F S4096x4096 .bf16) (x10 : Vec F S4096x32 .bf16) : Vec F S4096x16 .f32 :=
  if h : c6 i then (Rect.unit (s := S4096x16) (k0_off6 i) S256x16.size (k0_off6_inb i h)).overlay x7 (k0_pay8 (View.ld x9 (Rect.unit (s := S4096x4096) (k0_off5 i) S256x4096.size (k0_off5_inb i h))) (View.ld x10 (Rect.unit (s := S4096x32) ![0, 0] S4096x32.size inb_S4096x32_S4096x32_0_0))) else x7

/-- The narrow copy of the first result after conditional 6: the same band, in the narrow format. -/
def p6z (i : grid0.Coords) (x9 : Vec F S4096x4096 .bf16) (x10 : Vec F S4096x32 .bf16) (x12 : Vec F S4096x16 .bf16) : Vec F S4096x16 .bf16 :=
  if h : c6 i then (Rect.unit (s := S4096x16) (k0_off6 i) S256x16.size (k0_off6_inb i h)).overlay x12 (k0_pay9 (View.ld x9 (Rect.unit (s := S4096x4096) (k0_off5 i) S256x4096.size (k0_off5_inb i h))) (View.ld x10 (Rect.unit (s := S4096x32) ![0, 0] S4096x32.size inb_S4096x32_S4096x32_0_0))) else x12

/-- The second result's block after conditional 7: in the last phase the logistic form of the band's rows against all rows. -/
def p7 (i : grid0.Coords) (x8 : Vec F S256x4096 .f32) (x12 : Vec F S4096x16 .bf16) : Vec F S256x4096 .f32 :=
  if h : c7 i then (Rect.unit (s := S256x4096) ![0, 0] S256x4096.size inb_S256x4096_S256x4096_0_0).overlay x8 (k0_pay10 (View.ld x12 (Rect.unit (s := S4096x16) (k0_off7 i) S256x16.size (k0_off7_inb i h))) (View.ld x12 (Rect.unit (s := S4096x16) ![0, 0] S4096x16.size inb_S4096x16_S4096x16_0_0))) else x8

set_option maxHeartbeats 4000000 in
/-- Conditional 1 on whole buffers at given contents, then the rest of the body: the buffers it stores into end at the
    contents named above, the others as they were. -/
theorem run_blk1 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x2 : Vec F S4096x16 .f32) (x4 : Vec F S16x32 .f32) (x10 : Vec F S4096x32 .bf16) (E : Set ℕ) (K : PUnit → sProp 𝕄) :
    iprop(owns (c : Thread nD τ) arg2 fullShare x2 ∗ owns (c : Thread nD τ) arg4 fullShare x4 ∗ owns (c : Thread nD τ) arg10 fullShare x10
        ∗ (iprop(owns (c : Thread nD τ) arg2 fullShare (x2) ∗ owns (c : Thread nD τ) arg4 fullShare (x4) ∗ owns (c : Thread nD τ) arg10 fullShare (p1 i x2 x4 x10)) -∗ wp frame (wpE (defs₀ (F := F)) Variants.none c none) E rest K))
      ⊢ wp frame (wpE (defs₀ (F := F)) Variants.none c none) E (blk1 i arg2 harg2 arg3 harg3 arg4 harg4 arg5 harg5 arg6 harg6 arg7 harg7 arg8 harg8 arg9 harg9 arg10 harg10 arg11 harg11 arg12 harg12 rest) K := by
  unfold blk1
  by_cases h : c1 i
  · unfold owns
    iintro ⟨⟨%f2, %hf2, H2⟩, ⟨%f4, %hf4, H4⟩, ⟨%f10, %hf10, H10⟩, Hk⟩
    obtain rfl := harg2.eq_unread hf2; obtain rfl := harg4.eq_unread hf4; obtain rfl := harg10.eq_unread hf10
    sl_exec (disch := first | exact h)
    iapply Hk
    simp only [p1, dif_pos h]
    isplitl [H2]
    · iexists _; isplitr; · ipureintro; exact harg2.read_unread _
      iexact H2
    isplitl [H4]
    · iexists _; isplitr; · ipureintro; exact harg4.read_unread _
      iexact H4
    iexists _; isplitr; swap; · iexact H10
    ipureintro; simp only [Cert.SLib.read_writes_single, Cert.SLib.readAt_unread]
  · unfold owns
    iintro ⟨⟨%f2, %hf2, H2⟩, ⟨%f4, %hf4, H4⟩, ⟨%f10, %hf10, H10⟩, Hk⟩
    obtain rfl := harg2.eq_unread hf2; obtain rfl := harg4.eq_unread hf4; obtain rfl := harg10.eq_unread hf10
    sl_exec (disch := first | exact h)
    iapply Hk
    simp only [p1, dif_neg h]
    isplitl [H2]
    · iexists _; isplitr; · ipureintro; exact harg2.read_unread _
      iexact H2
    isplitl [H4]
    · iexists _; isplitr; · ipureintro; exact harg4.read_unread _
      iexact H4
    iexists _; isplitr; · ipureintro; exact harg10.read_unread _
    iexact H10

set_option maxHeartbeats 4000000 in
/-- Conditional 2 on whole buffers at given contents, then the rest of the body: the buffers it stores into end at the
    contents named above, the others as they were. -/
theorem run_blk2 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x3 : Vec F S256x4096 .f32) (x9 : Vec F S4096x4096 .bf16) (x10 : Vec F S4096x32 .bf16) (x11 : Vec F S4096x32 .f32) (E : Set ℕ) (K : PUnit → sProp 𝕄) :
    iprop(owns (c : Thread nD τ) arg3 fullShare x3 ∗ owns (c : Thread nD τ) arg9 fullShare x9 ∗ owns (c : Thread nD τ) arg10 fullShare x10 ∗ owns (c : Thread nD τ) arg11 fullShare x11
        ∗ (iprop(owns (c : Thread nD τ) arg3 fullShare (x3) ∗ owns (c : Thread nD τ) arg9 fullShare (p2a i x3 x9) ∗ owns (c : Thread nD τ) arg10 fullShare (x10) ∗ owns (c : Thread nD τ) arg11 fullShare (p2h i x3 x10 x11)) -∗ wp frame (wpE (defs₀ (F := F)) Variants.none c none) E rest K))
      ⊢ wp frame (wpE (defs₀ (F := F)) Variants.none c none) E (blk2 i arg2 harg2 arg3 harg3 arg4 harg4 arg5 harg5 arg6 harg6 arg7 harg7 arg8 harg8 arg9 harg9 arg10 harg10 arg11 harg11 arg12 harg12 rest) K := by
  unfold blk2
  by_cases h : c2 i
  · unfold owns
    iintro ⟨⟨%f3, %hf3, H3⟩, ⟨%f9, %hf9, H9⟩, ⟨%f10, %hf10, H10⟩, ⟨%f11, %hf11, H11⟩, Hk⟩
    obtain rfl := harg3.eq_unread hf3; obtain rfl := harg9.eq_unread hf9; obtain rfl := harg10.eq_unread hf10; obtain rfl := harg11.eq_unread hf11
    sl_exec (disch := first | exact h)
    iapply Hk
    simp only [p2a, p2h, dif_pos h]
    isplitl [H3]
    · iexists _; isplitr; · ipureintro; exact harg3.read_unread _
      iexact H3
    isplitl [H9]
    · iexists _; isplitr; swap; · iexact H9
      ipureintro; simp only [Cert.SLib.read_writes_single, Cert.SLib.readAt_unread]
    isplitl [H10]
    · iexists _; isplitr; · ipureintro; exact harg10.read_unread _
      iexact H10
    iexists _; isplitr; swap; · iexact H11
    ipureintro; simp only [Cert.SLib.read_writes_single, Cert.SLib.readAt_unread]
  · unfold owns
    iintro ⟨⟨%f3, %hf3, H3⟩, ⟨%f9, %hf9, H9⟩, ⟨%f10, %hf10, H10⟩, ⟨%f11, %hf11, H11⟩, Hk⟩
    obtain rfl := harg3.eq_unread hf3; obtain rfl := harg9.eq_unread hf9; obtain rfl := harg10.eq_unread hf10; obtain rfl := harg11.eq_unread hf11
    sl_exec (disch := first | exact h)
    iapply Hk
    simp only [p2a, p2h, dif_neg h]
    isplitl [H3]
    · iexists _; isplitr; · ipureintro; exact harg3.read_unread _
      iexact H3
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

set_option maxHeartbeats 4000000 in
/-- Conditional 3 on whole buffers at given contents, then the rest of the body: the buffers it stores into end at the
    contents named above, the others as they were. -/
theorem run_blk3 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x5 : Vec F S32x32 .f32) (x10 : Vec F S4096x32 .bf16) (x11 : Vec F S4096x32 .f32) (E : Set ℕ) (K : PUnit → sProp 𝕄) :
    iprop(owns (c : Thread nD τ) arg5 fullShare x5 ∗ owns (c : Thread nD τ) arg10 fullShare x10 ∗ owns (c : Thread nD τ) arg11 fullShare x11
        ∗ (iprop(owns (c : Thread nD τ) arg5 fullShare (x5) ∗ owns (c : Thread nD τ) arg10 fullShare (p3 i x5 x10 x11) ∗ owns (c : Thread nD τ) arg11 fullShare (x11)) -∗ wp frame (wpE (defs₀ (F := F)) Variants.none c none) E rest K))
      ⊢ wp frame (wpE (defs₀ (F := F)) Variants.none c none) E (blk3 i arg2 harg2 arg3 harg3 arg4 harg4 arg5 harg5 arg6 harg6 arg7 harg7 arg8 harg8 arg9 harg9 arg10 harg10 arg11 harg11 arg12 harg12 rest) K := by
  unfold blk3
  by_cases h : c3 i
  · unfold owns
    iintro ⟨⟨%f5, %hf5, H5⟩, ⟨%f10, %hf10, H10⟩, ⟨%f11, %hf11, H11⟩, Hk⟩
    obtain rfl := harg5.eq_unread hf5; obtain rfl := harg10.eq_unread hf10; obtain rfl := harg11.eq_unread hf11
    sl_exec (disch := first | exact h)
    iapply Hk
    simp only [p3, dif_pos h]
    isplitl [H5]
    · iexists _; isplitr; · ipureintro; exact harg5.read_unread _
      iexact H5
    isplitl [H10]
    · iexists _; isplitr; swap; · iexact H10
      ipureintro; simp only [Cert.SLib.read_writes_single, Cert.SLib.readAt_unread]
    iexists _; isplitr; · ipureintro; exact harg11.read_unread _
    iexact H11
  · unfold owns
    iintro ⟨⟨%f5, %hf5, H5⟩, ⟨%f10, %hf10, H10⟩, ⟨%f11, %hf11, H11⟩, Hk⟩
    obtain rfl := harg5.eq_unread hf5; obtain rfl := harg10.eq_unread hf10; obtain rfl := harg11.eq_unread hf11
    sl_exec (disch := first | exact h)
    iapply Hk
    simp only [p3, dif_neg h]
    isplitl [H5]
    · iexists _; isplitr; · ipureintro; exact harg5.read_unread _
      iexact H5
    isplitl [H10]
    · iexists _; isplitr; · ipureintro; exact harg10.read_unread _
      iexact H10
    iexists _; isplitr; · ipureintro; exact harg11.read_unread _
    iexact H11

set_option maxHeartbeats 4000000 in
/-- Conditional 4 on whole buffers at given contents, then the rest of the body: the buffers it stores into end at the
    contents named above, the others as they were. -/
theorem run_blk4 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x9 : Vec F S4096x4096 .bf16) (x10 : Vec F S4096x32 .bf16) (x11 : Vec F S4096x32 .f32) (E : Set ℕ) (K : PUnit → sProp 𝕄) :
    iprop(owns (c : Thread nD τ) arg9 fullShare x9 ∗ owns (c : Thread nD τ) arg10 fullShare x10 ∗ owns (c : Thread nD τ) arg11 fullShare x11
        ∗ (iprop(owns (c : Thread nD τ) arg9 fullShare (x9) ∗ owns (c : Thread nD τ) arg10 fullShare (x10) ∗ owns (c : Thread nD τ) arg11 fullShare (p4 i x9 x10 x11)) -∗ wp frame (wpE (defs₀ (F := F)) Variants.none c none) E rest K))
      ⊢ wp frame (wpE (defs₀ (F := F)) Variants.none c none) E (blk4 i arg2 harg2 arg3 harg3 arg4 harg4 arg5 harg5 arg6 harg6 arg7 harg7 arg8 harg8 arg9 harg9 arg10 harg10 arg11 harg11 arg12 harg12 rest) K := by
  unfold blk4
  by_cases h : c4 i
  · unfold owns
    iintro ⟨⟨%f9, %hf9, H9⟩, ⟨%f10, %hf10, H10⟩, ⟨%f11, %hf11, H11⟩, Hk⟩
    obtain rfl := harg9.eq_unread hf9; obtain rfl := harg10.eq_unread hf10; obtain rfl := harg11.eq_unread hf11
    sl_exec (disch := first | exact h)
    iapply Hk
    simp only [p4, dif_pos h]
    isplitl [H9]
    · iexists _; isplitr; · ipureintro; exact harg9.read_unread _
      iexact H9
    isplitl [H10]
    · iexists _; isplitr; · ipureintro; exact harg10.read_unread _
      iexact H10
    iexists _; isplitr; swap; · iexact H11
    ipureintro; simp only [Cert.SLib.read_writes_single, Cert.SLib.readAt_unread]
  · unfold owns
    iintro ⟨⟨%f9, %hf9, H9⟩, ⟨%f10, %hf10, H10⟩, ⟨%f11, %hf11, H11⟩, Hk⟩
    obtain rfl := harg9.eq_unread hf9; obtain rfl := harg10.eq_unread hf10; obtain rfl := harg11.eq_unread hf11
    sl_exec (disch := first | exact h)
    iapply Hk
    simp only [p4, dif_neg h]
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

set_option maxHeartbeats 4000000 in
/-- Conditional 5 on whole buffers at given contents, then the rest of the body: the buffers it stores into end at the
    contents named above, the others as they were. -/
theorem run_blk5 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x6 : Vec F S32x32 .f32) (x10 : Vec F S4096x32 .bf16) (x11 : Vec F S4096x32 .f32) (E : Set ℕ) (K : PUnit → sProp 𝕄) :
    iprop(owns (c : Thread nD τ) arg6 fullShare x6 ∗ owns (c : Thread nD τ) arg10 fullShare x10 ∗ owns (c : Thread nD τ) arg11 fullShare x11
        ∗ (iprop(owns (c : Thread nD τ) arg6 fullShare (x6) ∗ owns (c : Thread nD τ) arg10 fullShare (p5 i x6 x10 x11) ∗ owns (c : Thread nD τ) arg11 fullShare (x11)) -∗ wp frame (wpE (defs₀ (F := F)) Variants.none c none) E rest K))
      ⊢ wp frame (wpE (defs₀ (F := F)) Variants.none c none) E (blk5 i arg2 harg2 arg3 harg3 arg4 harg4 arg5 harg5 arg6 harg6 arg7 harg7 arg8 harg8 arg9 harg9 arg10 harg10 arg11 harg11 arg12 harg12 rest) K := by
  unfold blk5
  by_cases h : c5 i
  · unfold owns
    iintro ⟨⟨%f6, %hf6, H6⟩, ⟨%f10, %hf10, H10⟩, ⟨%f11, %hf11, H11⟩, Hk⟩
    obtain rfl := harg6.eq_unread hf6; obtain rfl := harg10.eq_unread hf10; obtain rfl := harg11.eq_unread hf11
    sl_exec (disch := first | exact h)
    iapply Hk
    simp only [p5, dif_pos h]
    isplitl [H6]
    · iexists _; isplitr; · ipureintro; exact harg6.read_unread _
      iexact H6
    isplitl [H10]
    · iexists _; isplitr; swap; · iexact H10
      ipureintro; simp only [Cert.SLib.read_writes_single, Cert.SLib.readAt_unread]
    iexists _; isplitr; · ipureintro; exact harg11.read_unread _
    iexact H11
  · unfold owns
    iintro ⟨⟨%f6, %hf6, H6⟩, ⟨%f10, %hf10, H10⟩, ⟨%f11, %hf11, H11⟩, Hk⟩
    obtain rfl := harg6.eq_unread hf6; obtain rfl := harg10.eq_unread hf10; obtain rfl := harg11.eq_unread hf11
    sl_exec (disch := first | exact h)
    iapply Hk
    simp only [p5, dif_neg h]
    isplitl [H6]
    · iexists _; isplitr; · ipureintro; exact harg6.read_unread _
      iexact H6
    isplitl [H10]
    · iexists _; isplitr; · ipureintro; exact harg10.read_unread _
      iexact H10
    iexists _; isplitr; · ipureintro; exact harg11.read_unread _
    iexact H11

set_option maxHeartbeats 4000000 in
/-- Conditional 6 on whole buffers at given contents, then the rest of the body: the buffers it stores into end at the
    contents named above, the others as they were. -/
theorem run_blk6 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x7 : Vec F S4096x16 .f32) (x9 : Vec F S4096x4096 .bf16) (x10 : Vec F S4096x32 .bf16) (x12 : Vec F S4096x16 .bf16) (E : Set ℕ) (K : PUnit → sProp 𝕄) :
    iprop(owns (c : Thread nD τ) arg7 fullShare x7 ∗ owns (c : Thread nD τ) arg9 fullShare x9 ∗ owns (c : Thread nD τ) arg10 fullShare x10 ∗ owns (c : Thread nD τ) arg12 fullShare x12
        ∗ (iprop(owns (c : Thread nD τ) arg7 fullShare (p6o i x7 x9 x10) ∗ owns (c : Thread nD τ) arg9 fullShare (x9) ∗ owns (c : Thread nD τ) arg10 fullShare (x10) ∗ owns (c : Thread nD τ) arg12 fullShare (p6z i x9 x10 x12)) -∗ wp frame (wpE (defs₀ (F := F)) Variants.none c none) E rest K))
      ⊢ wp frame (wpE (defs₀ (F := F)) Variants.none c none) E (blk6 i arg2 harg2 arg3 harg3 arg4 harg4 arg5 harg5 arg6 harg6 arg7 harg7 arg8 harg8 arg9 harg9 arg10 harg10 arg11 harg11 arg12 harg12 rest) K := by
  unfold blk6
  by_cases h : c6 i
  · unfold owns
    iintro ⟨⟨%f7, %hf7, H7⟩, ⟨%f9, %hf9, H9⟩, ⟨%f10, %hf10, H10⟩, ⟨%f12, %hf12, H12⟩, Hk⟩
    obtain rfl := harg7.eq_unread hf7; obtain rfl := harg9.eq_unread hf9; obtain rfl := harg10.eq_unread hf10; obtain rfl := harg12.eq_unread hf12
    sl_exec (disch := first | exact h)
    iapply Hk
    simp only [p6o, p6z, dif_pos h]
    isplitl [H7]
    · iexists _; isplitr; swap; · iexact H7
      ipureintro; simp only [Cert.SLib.read_writes_single, Cert.SLib.readAt_unread]
    isplitl [H9]
    · iexists _; isplitr; · ipureintro; exact harg9.read_unread _
      iexact H9
    isplitl [H10]
    · iexists _; isplitr; · ipureintro; exact harg10.read_unread _
      iexact H10
    iexists _; isplitr; swap; · iexact H12
    ipureintro; simp only [Cert.SLib.read_writes_single, Cert.SLib.readAt_unread]
  · unfold owns
    iintro ⟨⟨%f7, %hf7, H7⟩, ⟨%f9, %hf9, H9⟩, ⟨%f10, %hf10, H10⟩, ⟨%f12, %hf12, H12⟩, Hk⟩
    obtain rfl := harg7.eq_unread hf7; obtain rfl := harg9.eq_unread hf9; obtain rfl := harg10.eq_unread hf10; obtain rfl := harg12.eq_unread hf12
    sl_exec (disch := first | exact h)
    iapply Hk
    simp only [p6o, p6z, dif_neg h]
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    iexists _; isplitr; · ipureintro; exact harg12.read_unread _
    iexact H12

set_option maxHeartbeats 4000000 in
/-- Conditional 7 on whole buffers at given contents, then the rest of the body: the buffers it stores into end at the
    contents named above, the others as they were. -/
theorem run_blk7 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x8 : Vec F S256x4096 .f32) (x12 : Vec F S4096x16 .bf16) (E : Set ℕ) (K : PUnit → sProp 𝕄) :
    iprop(owns (c : Thread nD τ) arg8 fullShare x8 ∗ owns (c : Thread nD τ) arg12 fullShare x12
        ∗ (iprop(owns (c : Thread nD τ) arg8 fullShare (p7 i x8 x12) ∗ owns (c : Thread nD τ) arg12 fullShare (x12)) -∗ wp frame (wpE (defs₀ (F := F)) Variants.none c none) E rest K))
      ⊢ wp frame (wpE (defs₀ (F := F)) Variants.none c none) E (blk7 i arg2 harg2 arg3 harg3 arg4 harg4 arg5 harg5 arg6 harg6 arg7 harg7 arg8 harg8 arg9 harg9 arg10 harg10 arg11 harg11 arg12 harg12 rest) K := by
  unfold blk7
  by_cases h : c7 i
  · unfold owns
    iintro ⟨⟨%f8, %hf8, H8⟩, ⟨%f12, %hf12, H12⟩, Hk⟩
    obtain rfl := harg8.eq_unread hf8; obtain rfl := harg12.eq_unread hf12
    sl_exec (disch := first | exact h)
    iapply Hk
    simp only [p7, dif_pos h]
    isplitl [H8]
    · iexists _; isplitr; swap; · iexact H8
      ipureintro; simp only [Cert.SLib.read_writes_single, Cert.SLib.readAt_unread]
    iexists _; isplitr; · ipureintro; exact harg12.read_unread _
    iexact H12
  · unfold owns
    iintro ⟨⟨%f8, %hf8, H8⟩, ⟨%f12, %hf12, H12⟩, Hk⟩
    obtain rfl := harg8.eq_unread hf8; obtain rfl := harg12.eq_unread hf12
    sl_exec (disch := first | exact h)
    iapply Hk
    simp only [p7, dif_neg h]
    isplitl [H8]
    · iexists _; isplitr; · ipureintro; exact harg8.read_unread _
      iexact H8
    iexists _; isplitr; · ipureintro; exact harg12.read_unread _
    iexact H12

set_option maxHeartbeats 4000000 in
/-- THE BODY at any grid point on whole buffers at any contents: every buffer ends at the contents the seven conditionals
    leave one after the other, the five inputs as they were. -/
theorem sound_body (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole)
    (x2 : Vec F S4096x16 .f32) (x3 : Vec F S256x4096 .f32) (x4 : Vec F S16x32 .f32) (x5 : Vec F S32x32 .f32) (x6 : Vec F S32x32 .f32) (x7 : Vec F S4096x16 .f32) (x8 : Vec F S256x4096 .f32) (x9 : Vec F S4096x4096 .bf16) (x10 : Vec F S4096x32 .bf16) (x11 : Vec F S4096x32 .f32) (x12 : Vec F S4096x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (p6o i (x7) (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))))
          ∗ owns (c : Thread nD τ) arg8 fullShare (p7 i (x8) (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12)))
          ∗ owns (c : Thread nD τ) arg9 fullShare (p2a i (x3) (x9))
          ∗ owns (c : Thread nD τ) arg10 fullShare (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11))))
          ∗ owns (c : Thread nD τ) arg11 fullShare (p4 i (p2a i (x3) (x9)) (p3 i (x5) (p1 i (x2) (x4) (x10)) (p2h i (x3) (p1 i (x2) (x4) (x10)) (x11))) (p2h i (x3) (p1 i (x2) (x4) (x10)) (x11)))
          ∗ owns (c : Thread nD τ) arg12 fullShare (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  rw [cc0__fused_body_eq_skeleton, skel_eq_blocks]
  iintro ⟨H2, H3, H4, H5, H6, H7, H8, H9, H10, H11, H12, Hk⟩
  iapply (run_blk1 c i arg2 harg2 arg3 harg3 arg4 harg4 arg5 harg5 arg6 harg6 arg7 harg7 arg8 harg8 arg9 harg9 arg10 harg10 arg11 harg11 arg12 harg12 (blk2 i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))))))) (x2) (x4) (x10) E K)
  isplitl [H2]; · iexact H2
  isplitl [H4]; · iexact H4
  isplitl [H10]; · iexact H10
  iintro ⟨H2, H4, H10⟩
  iapply (run_blk2 c i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))))) (x3) (x9) (p1 i (x2) (x4) (x10)) (x11) E K)
  isplitl [H3]; · iexact H3
  isplitl [H9]; · iexact H9
  isplitl [H10]; · iexact H10
  isplitl [H11]; · iexact H11
  iintro ⟨H3, H9, H10, H11⟩
  iapply (run_blk3 c i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))))) (x5) (p1 i (x2) (x4) (x10)) (p2h i (x3) (p1 i (x2) (x4) (x10)) (x11)) E K)
  isplitl [H5]; · iexact H5
  isplitl [H10]; · iexact H10
  isplitl [H11]; · iexact H11
  iintro ⟨H5, H10, H11⟩
  iapply (run_blk4 c i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))) (p2a i (x3) (x9)) (p3 i (x5) (p1 i (x2) (x4) (x10)) (p2h i (x3) (p1 i (x2) (x4) (x10)) (x11))) (p2h i (x3) (p1 i (x2) (x4) (x10)) (x11)) E K)
  isplitl [H9]; · iexact H9
  isplitl [H10]; · iexact H10
  isplitl [H11]; · iexact H11
  iintro ⟨H9, H10, H11⟩
  iapply (run_blk5 c i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))) (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11))) E K)
  isplitl [H6]; · iexact H6
  isplitl [H10]; · iexact H10
  isplitl [H11]; · iexact H11
  iintro ⟨H6, H10, H11⟩
  iapply (run_blk6 c i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)) (x7) (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12) E K)
  isplitl [H7]; · iexact H7
  isplitl [H9]; · iexact H9
  isplitl [H10]; · iexact H10
  isplitl [H12]; · iexact H12
  iintro ⟨H7, H9, H10, H12⟩
  iapply (run_blk7 c i arg2 harg2 arg3 harg3 arg4 harg4 arg5 harg5 arg6 harg6 arg7 harg7 arg8 harg8 arg9 harg9 arg10 harg10 arg11 harg11 arg12 harg12 (pure ⟨⟩) (x8) (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12)) E K)
  isplitl [H8]; · iexact H8
  isplitl [H12]; · iexact H12
  iintro ⟨H8, H12⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Body

end
-- ==== Proof.LibRowBands.lean ====
/-
  Row bands of a tall array, read and written.

  An array of 4096 rows and `n` columns is cut into sixteen bands of 256 consecutive rows; band `b` holds rows
  256·b … 256·b + 255. `band n b` is that rectangle, and `asm n B` is the array whose band `b` is the 256 × n block `B b`:
  row `r` of it is row `r mod 256` of block `r div 256`. The array is the disjoint union of its bands: replacing one band
  changes what is read through that band to the replacement and leaves what is read through every other band alone; the
  assembled array reads, through band `b`, block `b`; and an array is determined by what its sixteen bands read.
-/
import Idealize.ShloMosaic.Lib.Pipeline.FrameBody
import Idealize.ShloMosaic.Lib.ValueIdx
import Idealize.ShloMosaic.Lib.Memref

noncomputable section

namespace Cert.Bands

open Idealize.ShloMosaic Idealize.ShloMosaic.ValueIdx

/-- The shape of a matrix of `a` rows and `b` columns. -/
abbrev Sh (a b : ℕ) : Shape := ⟨2, ![a, b]⟩

theorem band_inb (n : ℕ) (b : Fin 16) : ∀ a, (![256 * b.val, 0] : Fin 2 → ℕ) a + (![256, n] : Fin 2 → ℕ) a ≤ (Sh 4096 n).size a :=
  Rect.inb₂ (d := ![4096, n]) (by have := b.isLt; simp only [Matrix.cons_val_zero]; omega) (by simp)

/-- Band `b` of a 4096 × n array: rows 256·b … 256·b + 255, all columns. -/
def band (n : ℕ) (b : Fin 16) : Rect (Sh 4096 n) :=
  Rect.unit (s := Sh 4096 n) ![256 * b.val, 0] ![256, n] (band_inb n b)

/-- The 4096 × n array assembled from sixteen 256 × n blocks. -/
def asm {α : Type} (n : ℕ) (B : Fin 16 → (Sh 256 n).Idx → α) : (Sh 4096 n).Idx → α :=
  fun y => B ⟨(y 0).val / 256, by have := (y 0).isLt; simp only [Sh, Matrix.cons_val_zero] at this; omega⟩
    (ix2 ⟨(y 0).val % 256, Nat.mod_lt _ (by decide)⟩ (y 1))

variable {Val : EltTy → Type} {e : EltTy} {α : Type}

/-! ## One band replaced -/

/-- What is read through a band that was just replaced is the replacement. -/
theorem ld_overlay_same (n : ℕ) (b : Fin 16) (x : (Sh 4096 n).Idx → Val e) (w : (band n b).shape.Idx → Val e) :
    View.ld ((band n b).overlay x w) (band n b) = w := by
  funext j
  exact Rect.overlay_emb (band n b) x w j

/-- Two different bands share no row. -/
theorem band_disjoint (n : ℕ) (b b' : Fin 16) (hb : b' ≠ b) : Disjoint (band n b').set (band n b).set := by
  unfold band
  refine Rect.unit_disjoint (0 : Fin (Sh 4096 n).rank) ?_
  have hne : b'.val ≠ b.val := fun h => hb (Fin.ext h)
  simp only [Matrix.cons_val_zero]
  omega

/-- What is read through any other band is what was there before. -/
theorem ld_overlay_other (n : ℕ) (b b' : Fin 16) (hb : b' ≠ b) (x : (Sh 4096 n).Idx → Val e)
    (w : (band n b).shape.Idx → Val e) :
    View.ld ((band n b).overlay x w) (band n b') = View.ld x (band n b') := by
  funext j
  exact Rect.overlay_of_not_mem (band n b) x w
    (Finset.disjoint_left.mp (band_disjoint n b b' hb) ((band n b').idx_mem j))

/-- Replacing the whole of an array (the rectangle at zero offsets of the array's own sizes) leaves the replacement. -/
theorem overlay_whole {S : Shape} {off : Fin S.rank → ℕ} (h : off = fun _ => 0) (inb : ∀ a, off a + S.size a ≤ S.size a)
    (x w : S.Idx → α) : (Rect.unit off S.size inb).overlay x w = w := by
  subst h
  funext y
  have e := Rect.overlay_emb (Rect.whole S) x w y
  rw [Rect.emb_whole_apply] at e
  exact e

/-! ## Coordinates -/

/-- Row `p`, column `q` of band `b` is row 256·b + p, column `q` of the array. -/
theorem band_idx (n : ℕ) (b : Fin 16) (p : Fin 256) (q : Fin n) :
    (band n b).idx (ix2 p q) = ix2 (⟨256 * b.val + p.val, by have := b.isLt; have := p.isLt; omega⟩ : Fin 4096) q := by
  funext a
  apply Fin.ext
  match a with
  | ⟨0, _⟩ => show 256 * b.val + 1 * p.val = 256 * b.val + p.val; omega
  | ⟨1, _⟩ => show 0 + 1 * q.val = q.val; omega

/-- Entry (r, q) of the assembled array is row `r mod 256`, column `q` of block `r div 256`. -/
theorem asm_apply (n : ℕ) (B : Fin 16 → (Sh 256 n).Idx → α) (r : Fin 4096) (q : Fin n) :
    asm n B (ix2 r q)
      = B ⟨r.val / 256, by have := r.isLt; omega⟩ (ix2 (⟨r.val % 256, Nat.mod_lt _ (by decide)⟩ : Fin 256) q) := rfl

/-! ## The assembled array -/

/-- Through band `b` the assembled array reads block `b`. -/
theorem ld_asm (n : ℕ) (B : Fin 16 → (Sh 256 n).Idx → Val e) (b : Fin 16) :
    View.ld (asm n B) (band n b) = B b := by
  funext j
  obtain ⟨p, q, rfl⟩ : ∃ (p : Fin 256) (q : Fin n), j = ix2 p q := ⟨j 0, j 1, eq_ix2 j⟩
  show asm n B ((band n b).idx (ix2 p q)) = B b (ix2 p q)
  rw [band_idx, asm_apply]
  have key : ∀ (c c' : Fin 16) (i i' : (Sh 256 n).Idx), c = c' → i = i' → B c i = B c' i' := by
    rintro _ _ _ _ rfl rfl; rfl
  refine key _ _ _ _ (Fin.ext ?_) ?_
  · show (256 * b.val + p.val) / 256 = b.val
    have := p.isLt; omega
  · have hp : (⟨(256 * b.val + p.val) % 256, Nat.mod_lt _ (by decide)⟩ : Fin 256) = p :=
      Fin.ext (by show (256 * b.val + p.val) % 256 = p.val; have := p.isLt; omega)
    rw [hp]

/-- An array whose sixteen bands read the sixteen blocks is the assembled array. -/
theorem eq_asm_of_bands (n : ℕ) (x : (Sh 4096 n).Idx → Val e) (B : Fin 16 → (Sh 256 n).Idx → Val e)
    (h : ∀ b, View.ld x (band n b) = B b) : x = asm n B := by
  funext y
  have hy0 : (y 0).val < 4096 := (y 0).isLt
  have hy : y = (band n ⟨(y 0).val / 256, by omega⟩).idx
      (ix2 (⟨(y 0).val % 256, Nat.mod_lt _ (by decide)⟩ : Fin 256) (y 1)) := by
    funext a
    apply Fin.ext
    match a with
    | ⟨0, _⟩ => show (y 0).val = 256 * ((y 0).val / 256) + 1 * ((y 0).val % 256); omega
    | ⟨1, _⟩ => show (y 1).val = 0 + 1 * (y 1).val; omega
  exact (congrArg x hy).trans (congrFun (h ⟨(y 0).val / 256, by omega⟩)
    (ix2 (⟨(y 0).val % 256, Nat.mod_lt _ (by decide)⟩ : Fin 256) (y 1)))

end Cert.Bands

end
-- ==== Proof.Bits.Traj.lean ====
/-
  What the kernel's four carried buffers and two results hold, phase by phase, as functions of the argument arrays alone.

  Grid point `t = 16·phase + band`. Phase 0 streams the adjacency in sixteen 256-row bands: band `b` is kept in narrow format
  (`AB b`) and its rectified product with the first support `S1` (the features times the first weight, computed at point 0)
  gives band `b` of the first activations (`H1B b`); at point 15 the second support `S2` is the assembled activations times
  the second weight. Phase 1 repeats this from the resident bands (`H2B b`, then `S3` at point 31 with the padded third weight).
  Phase 2 gives band `b` of the first result (`ZHB b`: the first sixteen columns, rectified) and its narrow copy (`ZBB b`).
  Phase 3 gives band `b` of the second result (`OUTB b`) from band `b` of the narrow copy against the whole narrow copy.
-/
import proofs.«136274_g82781199663863_cont_9to1_m_1005_4_alg».proof.Proof.Bits.Body
import proofs.«136274_g82781199663863_cont_9to1_m_1005_4_alg».proof.Proof.LibRowBands

set_option maxRecDepth 16384

noncomputable section

namespace Cert.Kernel.Traj

open Cert.Kernel Cert.Kernel.Gen Cert.Bands
open Idealize.ShloMosaic Idealize.ShloMosaic.TcCoe
open Idealize.SL Idealize.SL.Sem

variable {F : FTy → Type} [FloatOps F]
variable (m : (ℓ : Loc nD τ sig) → Buf (Elt F) ℓ) (c : Dev nD)

/-- Grid point number `n`. -/
def pt (n : ℕ) (h : n < 64) : Fin cfg0.N := ⟨n, lt_of_lt_of_eq h N_0.symm⟩

/-- The features, the weights and the adjacency band as the body finds them staged at a point. -/
def zAt (t : Fin cfg0.N) : Vec F S4096x16 .f32 := iblk m c 0 t
def adjAt (t : Fin cfg0.N) : Vec F S256x4096 .f32 := iblk m c 1 t
def w4At (t : Fin cfg0.N) : Vec F S16x32 .f32 := iblk m c 2 t
def w5At (t : Fin cfg0.N) : Vec F S32x32 .f32 := iblk m c 3 t
def w6At (t : Fin cfg0.N) : Vec F S32x32 .f32 := iblk m c 4 t

/-- The point of phase 0 that streams band `b`. -/
def ptB (b : Fin 16) : Fin cfg0.N := pt b.val (by have := b.isLt; omega)

/-- The first support: features times first weight (point 0). -/
def S1 : Vec F S4096x32 .bf16 := k0_pay1 (zAt m c (pt 0 (by decide))) (w4At m c (pt 0 (by decide)))
/-- Band `b` of the adjacency in the narrow format. -/
def AB (b : Fin 16) : Vec F S256x4096 .bf16 := k0_pay3 (adjAt m c (ptB b))
/-- Band `b` of the first activations. -/
def H1B (b : Fin 16) : Vec F S256x32 .f32 := k0_pay4 (adjAt m c (ptB b)) (S1 m c)
/-- The second support (point 15). -/
def S2 : Vec F S4096x32 .bf16 := k0_pay5 (asm 32 (H1B m c)) (w5At m c (pt 15 (by decide)))
/-- Band `b` of the second activations. -/
def H2B (b : Fin 16) : Vec F S256x32 .f32 := k0_pay6 (AB m c b) (S2 m c)
/-- The third support (point 31), over the padded third weight. -/
def S3 : Vec F S4096x32 .bf16 := k0_pay7 (asm 32 (H2B m c)) (w6At m c (pt 31 (by decide)))
/-- Band `b` of the first result, -/
def ZHB (b : Fin 16) : Vec F S256x16 .f32 := k0_pay8 (AB m c b) (S3 m c)
/-- and of its narrow copy. -/
def ZBB (b : Fin 16) : Vec F S256x16 .bf16 := k0_pay9 (AB m c b) (S3 m c)
/-- Band `b` of the second result. -/
def OUTB (b : Fin 16) : Vec F S256x4096 .f32 := k0_pay10 (ZBB m c b) (asm 16 (ZBB m c))

/-- The first result, whole. -/
def ZH : Vec F S4096x16 .f32 := asm 16 (ZHB m c)
/-- The second result, whole. -/
def OUT : (Sh 4096 4096).Idx → Elt F .f32 := asm 4096 (OUTB m c)

end Cert.Kernel.Traj

end
-- ==== Proof.Bits.Inv.lean ====
/-
  The invariant the body keeps between grid points, and that every point preserves it.

  Before point `n` the resident adjacency holds its first `min n 16` bands; the support buffer holds the first, second or
  third support according to the phase; the activation buffer holds the bands of the first activations stored so far in
  phase 0 and those of the second activations in phase 1; the narrow copy of the first result holds the bands stored so far
  in phase 2. Bands not yet stored hold whatever they held. One point stores one band (and, at the last band of phases 0 and
  1, the next support), so the invariant moves from `n` to `n + 1`; the two result blocks are written by the pure values
  named in the trajectory.
-/
import proofs.«136274_g82781199663863_cont_9to1_m_1005_4_alg».proof.Proof.Bits.Traj
import proofs.«136274_g82781199663863_cont_9to1_m_1005_4_alg».proof.Proof.LibRowBands
import Idealize.ShloMosaic.Lib.Pipeline.Value

set_option maxRecDepth 16384

noncomputable section

namespace Cert.Kernel.Inv

open Cert.Kernel Cert.Kernel.Gen Cert.Kernel.Body Cert.Kernel.Traj Cert.Bands
open Idealize.ShloMosaic Idealize.ShloMosaic.TcCoe
open Idealize.SL Idealize.SL.Sem

variable {F : FTy → Type} [FloatOps F]
variable (m : (ℓ : Loc nD τ sig) → Buf (Elt F) ℓ) (c : Dev nD)

/-! ## The conditions and the offsets, over the sixty-four points -/

/-- Each condition as arithmetic on the point's number. -/
theorem conds : ∀ t : Fin cfg0.N,
    (c1 (grid0.coords t) ↔ t.val = 0) ∧ (c2 (grid0.coords t) ↔ t.val < 16) ∧ (c3 (grid0.coords t) ↔ t.val = 15) ∧
    (c4 (grid0.coords t) ↔ (16 ≤ t.val ∧ t.val < 32)) ∧ (c5 (grid0.coords t) ↔ t.val = 31) ∧
    (c6 (grid0.coords t) ↔ (32 ≤ t.val ∧ t.val < 48)) ∧ (c7 (grid0.coords t) ↔ 48 ≤ t.val) :=
  (by decide +kernel : ∀ t : Fin grid0.N, _)

/-- The band coordinate of a point is its number modulo sixteen. -/
theorem coord1 : ∀ t : Fin cfg0.N, ((grid0.coords t) 1).val = t.val % 16 :=
  (by decide +kernel : ∀ t : Fin grid0.N, _)

/-- The band a point works on. -/
def bnd (t : Fin cfg0.N) : Fin 16 := ⟨t.val % 16, Nat.mod_lt _ (by decide)⟩

theorem hz : (![0, 0] : Fin 2 → ℕ) = fun _ => 0 := funext fun a => by fin_cases a <;> rfl

/-- A rectangle of 256 rows at a computed row offset is the band, once the offset is known. -/
theorem overlay_off {n : ℕ} {α : Type} (b : Fin 16) (off : Fin 2 → ℕ)
    (pf : ∀ a, off a + (![256, n] : Fin 2 → ℕ) a ≤ (Sh 4096 n).size a) (e : off = ![256 * b.val, 0])
    (x : (Sh 4096 n).Idx → α) (w : (Sh 256 n).Idx → α) :
    (Rect.unit (s := Sh 4096 n) off ![256, n] pf).overlay x w = (band n b).overlay x w := by
  subst e; rfl

theorem ld_off {n : ℕ} {Val : EltTy → Type} {e' : EltTy} (b : Fin 16) (off : Fin 2 → ℕ)
    (pf : ∀ a, off a + (![256, n] : Fin 2 → ℕ) a ≤ (Sh 4096 n).size a) (e : off = ![256 * b.val, 0])
    (x : (Sh 4096 n).Idx → Val e') :
    View.ld x (Rect.unit (s := Sh 4096 n) off ![256, n] pf) = View.ld x (band n b) := by
  subst e; rfl

theorem off_eq (t : Fin cfg0.N) : (![256 * ((grid0.coords t) 1).val, 0] : Fin 2 → ℕ) = ![256 * (bnd t).val, 0] := by
  rw [coord1 t]; rfl

/-! ## What each conditional leaves, by the point's number -/

theorem p1_eq (t : Fin cfg0.N) (x2 : Vec F S4096x16 .f32) (x4 : Vec F S16x32 .f32) (x10 : Vec F S4096x32 .bf16) :
    p1 (grid0.coords t) x2 x4 x10 = if t.val = 0 then k0_pay1 x2 x4 else x10 := by
  unfold p1
  by_cases h : c1 (grid0.coords t)
  · rw [dif_pos h, if_pos ((conds t).1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).1.mpr e))]

theorem p2a_eq (t : Fin cfg0.N) (x3 : Vec F S256x4096 .f32) (x9 : Vec F S4096x4096 .bf16) :
    p2a (grid0.coords t) x3 x9 = if t.val < 16 then (band 4096 (bnd t)).overlay x9 (k0_pay3 x3) else x9 := by
  unfold p2a
  by_cases h : c2 (grid0.coords t)
  · rw [dif_pos h, if_pos ((conds t).2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    exact overlay_off (bnd t) _ _ ((k0_off1_eq _).trans (off_eq t)) _ _
  · rw [dif_neg h, if_neg (fun e => h ((conds t).2.1.mpr e))]

theorem p2h_eq (t : Fin cfg0.N) (x3 : Vec F S256x4096 .f32) (x10 : Vec F S4096x32 .bf16) (x11 : Vec F S4096x32 .f32) :
    p2h (grid0.coords t) x3 x10 x11 = if t.val < 16 then (band 32 (bnd t)).overlay x11 (k0_pay4 x3 x10) else x11 := by
  unfold p2h
  by_cases h : c2 (grid0.coords t)
  · rw [dif_pos h, if_pos ((conds t).2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    exact overlay_off (bnd t) _ _ ((k0_off2_eq _).trans (off_eq t)) _ _
  · rw [dif_neg h, if_neg (fun e => h ((conds t).2.1.mpr e))]

theorem p3_eq (t : Fin cfg0.N) (x5 : Vec F S32x32 .f32) (x10 : Vec F S4096x32 .bf16) (x11 : Vec F S4096x32 .f32) :
    p3 (grid0.coords t) x5 x10 x11 = if t.val = 15 then k0_pay5 x11 x5 else x10 := by
  unfold p3
  by_cases h : c3 (grid0.coords t)
  · rw [dif_pos h, if_pos ((conds t).2.2.1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).2.2.1.mpr e))]

theorem p4_eq (t : Fin cfg0.N) (x9 : Vec F S4096x4096 .bf16) (x10 : Vec F S4096x32 .bf16) (x11 : Vec F S4096x32 .f32) :
    p4 (grid0.coords t) x9 x10 x11
      = if 16 ≤ t.val ∧ t.val < 32 then (band 32 (bnd t)).overlay x11 (k0_pay6 (View.ld x9 (band 4096 (bnd t))) x10) else x11 := by
  unfold p4
  by_cases h : c4 (grid0.coords t)
  · rw [dif_pos h, if_pos ((conds t).2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off3_eq _).trans (off_eq t))]
    exact overlay_off (bnd t) _ _ ((k0_off4_eq _).trans (off_eq t)) _ _
  · rw [dif_neg h, if_neg (fun e => h ((conds t).2.2.2.1.mpr e))]

theorem p5_eq (t : Fin cfg0.N) (x6 : Vec F S32x32 .f32) (x10 : Vec F S4096x32 .bf16) (x11 : Vec F S4096x32 .f32) :
    p5 (grid0.coords t) x6 x10 x11 = if t.val = 31 then k0_pay7 x11 x6 else x10 := by
  unfold p5
  by_cases h : c5 (grid0.coords t)
  · rw [dif_pos h, if_pos ((conds t).2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).2.2.2.2.1.mpr e))]

theorem p6o_eq (t : Fin cfg0.N) (x7 : Vec F S4096x16 .f32) (x9 : Vec F S4096x4096 .bf16) (x10 : Vec F S4096x32 .bf16) :
    p6o (grid0.coords t) x7 x9 x10
      = if 32 ≤ t.val ∧ t.val < 48 then (band 16 (bnd t)).overlay x7 (k0_pay8 (View.ld x9 (band 4096 (bnd t))) x10) else x7 := by
  unfold p6o
  by_cases h : c6 (grid0.coords t)
  · rw [dif_pos h, if_pos ((conds t).2.2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off5_eq _).trans (off_eq t))]
    exact overlay_off (bnd t) _ _ ((k0_off6_eq _).trans (off_eq t)) _ _
  · rw [dif_neg h, if_neg (fun e => h ((conds t).2.2.2.2.2.1.mpr e))]

theorem p6z_eq (t : Fin cfg0.N) (x9 : Vec F S4096x4096 .bf16) (x10 : Vec F S4096x32 .bf16) (x12 : Vec F S4096x16 .bf16) :
    p6z (grid0.coords t) x9 x10 x12
      = if 32 ≤ t.val ∧ t.val < 48 then (band 16 (bnd t)).overlay x12 (k0_pay9 (View.ld x9 (band 4096 (bnd t))) x10) else x12 := by
  unfold p6z
  by_cases h : c6 (grid0.coords t)
  · rw [dif_pos h, if_pos ((conds t).2.2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off5_eq _).trans (off_eq t))]
    exact overlay_off (bnd t) _ _ ((k0_off6_eq _).trans (off_eq t)) _ _
  · rw [dif_neg h, if_neg (fun e => h ((conds t).2.2.2.2.2.1.mpr e))]

theorem p7_eq (t : Fin cfg0.N) (x8 : Vec F S256x4096 .f32) (x12 : Vec F S4096x16 .bf16) :
    p7 (grid0.coords t) x8 x12 = if 48 ≤ t.val then k0_pay10 (View.ld x12 (band 16 (bnd t))) x12 else x8 := by
  unfold p7
  by_cases h : c7 (grid0.coords t)
  · rw [dif_pos h, if_pos ((conds t).2.2.2.2.2.2.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
    rw [ld_off (bnd t) _ _ ((k0_off7_eq _).trans (off_eq t))]
  · rw [dif_neg h, if_neg (fun e => h ((conds t).2.2.2.2.2.2.mpr e))]

/-! ## The invariant -/

/-- What the four carried buffers hold before point `n`. -/
def Inv (n : ℕ) (C0 : Vec F S4096x4096 .bf16) (C1 : Vec F S4096x32 .bf16) (C2 : Vec F S4096x32 .f32)
    (C3 : Vec F S4096x16 .bf16) : Prop :=
  (∀ b : Fin 16, b.val + 0 < n → View.ld C0 (band 4096 b) = AB m c b) ∧
  (1 ≤ n → n ≤ 15 → C1 = S1 m c) ∧ (16 ≤ n → n ≤ 31 → C1 = S2 m c) ∧ (32 ≤ n → C1 = S3 m c) ∧
  (∀ b : Fin 16, b.val + 0 < n → n ≤ 16 → View.ld C2 (band 32 b) = H1B m c b) ∧
  (∀ b : Fin 16, b.val + 16 < n → n ≤ 32 → View.ld C2 (band 32 b) = H2B m c b) ∧
  (∀ b : Fin 16, b.val + 32 < n → View.ld C3 (band 16 b) = ZBB m c b)

/-- Storing band `b` extends "the bands below `b` hold their values" by one. -/
theorem band_step {Val : EltTy → Type} {e : EltTy} (n : ℕ) (b : Fin 16) (x : (Sh 4096 n).Idx → Val e) (w : (Sh 256 n).Idx → Val e)
    (B : Fin 16 → (Sh 256 n).Idx → Val e) (s k : ℕ) (hb : b.val + s = k)
    (hold : ∀ b' : Fin 16, b'.val + s < k → View.ld x (band n b') = B b') (hw : w = B b) :
    ∀ b' : Fin 16, b'.val + s < k + 1 → View.ld ((band n b).overlay x w) (band n b') = B b' := by
  intro b' h
  by_cases e' : b' = b
  · subst e'; exact (ld_overlay_same n b' x w).trans hw
  · exact (ld_overlay_other n b b' e' x w).trans (hold b' (by have := Fin.val_ne_of_ne e'; omega))

/-- A point of phase 0 is the point that streams its own band. -/
theorem ptB_bnd (t : Fin cfg0.N) (h : t.val < 16) : ptB (bnd t) = t :=
  Fin.ext (Nat.mod_eq_of_lt h)

set_option maxHeartbeats 1600000 in
/-- ONE POINT: from the invariant before point `t`, with the five inputs at their staged blocks, the contents the body leaves
    satisfy the invariant before point `t + 1`, the first result's block gets band `t mod 16` of the first result in phase 2
    and is untouched elsewhere, and the second result's block is band `t mod 16` of the second result in phase 3. -/
theorem inv_step (t : Fin cfg0.N) (x2 : Vec F S4096x16 .f32) (x3 : Vec F S256x4096 .f32) (x4 : Vec F S16x32 .f32)
    (x5 x6 : Vec F S32x32 .f32) (e2 : x2 = zAt m c t) (e3 : x3 = adjAt m c t) (e4 : x4 = w4At m c t) (e5 : x5 = w5At m c t)
    (e6 : x6 = w6At m c t) (C0 : Vec F S4096x4096 .bf16) (C1 : Vec F S4096x32 .bf16) (C2 : Vec F S4096x32 .f32)
    (C3 : Vec F S4096x16 .bf16) (hI : Inv m c t.val C0 C1 C2 C3) :
    Inv m c (t.val + 1) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2))) (p6z (grid0.coords t) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (C3))
    ∧ (∀ x7 : Vec F S4096x16 .f32, (p6o (grid0.coords t) (x7) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2))))) = if 32 ≤ t.val ∧ t.val < 48 then (band 16 (bnd t)).overlay x7 (ZHB m c (bnd t)) else x7)
    ∧ (∀ x8 : Vec F S256x4096 .f32, (p7 (grid0.coords t) (x8) (p6z (grid0.coords t) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (C3))) = if 48 ≤ t.val then OUTB m c (bnd t) else x8) := by
  subst e2 e3 e4 e5 e6
  simp only [p1_eq, p2a_eq, p2h_eq, p3_eq, p4_eq, p5_eq, p6o_eq, p6z_eq, p7_eq]
  obtain ⟨i0, i1a, i1b, i1c, i2, i3, i4⟩ := hI
  have hN : t.val < 64 := lt_of_lt_of_eq t.isLt N_0
  have hbv : (bnd t).val = t.val % 16 := rfl
  by_cases hA : t.val = 0
  · -- the first point: the first support, band 0 of the adjacency and of the first activations
    have f2 : t.val < 16 := by omega
    have f3 : ¬ t.val = 15 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_pos hA, if_pos f2, if_neg f3, if_neg f4, if_neg f5, if_neg f6, if_neg f7]
    have et : pt 0 (by decide) = t := Fin.ext hA.symm
    have eS : k0_pay1 (zAt m c t) (w4At m c t) = S1 m c := by unfold S1; rw [et]
    have eB : ptB (bnd t) = t := ptB_bnd t f2
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ _; exact eS
    · intro h; omega
    · intro h; omega
    · intro b' h _
      exact band_step 32 (bnd t) C2 _ (H1B m c) 0 t.val (by omega) (fun b'' h'' => i2 b'' h'' (by omega))
        (by unfold H1B; rw [eB, eS]) b' h
    · intro b' h; omega
    · intro b' h; omega
  by_cases hB : t.val < 15
  · -- phase 0, not its last band
    have f2 : t.val < 16 := by omega
    have f3 : ¬ t.val = 15 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_neg hA, if_pos f2, if_neg f3, if_neg f4, if_neg f5, if_neg f6, if_neg f7]
    have eC : C1 = S1 m c := i1a (by omega) (by omega)
    have eB : ptB (bnd t) = t := ptB_bnd t f2
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ _; exact eC
    · intro h; omega
    · intro h; omega
    · intro b' h _
      exact band_step 32 (bnd t) C2 _ (H1B m c) 0 t.val (by omega) (fun b'' h'' => i2 b'' h'' (by omega))
        (by unfold H1B; rw [eB, eC]) b' h
    · intro b' h; omega
    · intro b' h; omega
  by_cases hC : t.val = 15
  · -- the last band of phase 0: the activations are complete and give the second support
    have f2 : t.val < 16 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_neg hA, if_pos f2, if_pos hC, if_neg f4, if_neg f5, if_neg f6, if_neg f7]
    have eC : C1 = S1 m c := i1a (by omega) (by omega)
    have eB : ptB (bnd t) = t := ptB_bnd t f2
    have et : pt 15 (by decide) = t := Fin.ext hC.symm
    have hH : ∀ b' : Fin 16, b'.val + 0 < t.val + 1 →
        View.ld ((band 32 (bnd t)).overlay C2 (k0_pay4 (adjAt m c t) C1)) (band 32 b') = H1B m c b' :=
      band_step 32 (bnd t) C2 _ (H1B m c) 0 t.val (by omega) (fun b'' h'' => i2 b'' h'' (by omega))
        (by unfold H1B; rw [eB, eC])
    have eH : (band 32 (bnd t)).overlay C2 (k0_pay4 (adjAt m c t) C1) = asm 32 (H1B m c) :=
      eq_asm_of_bands 32 _ _ (fun b' => hH b' (by have := b'.isLt; omega))
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ h; omega
    · intro _ _; rw [eH]; unfold S2; rw [et]
    · intro h; omega
    · intro b' h _; exact hH b' h
    · intro b' h; omega
    · intro b' h; omega
  by_cases hD : t.val < 31
  · -- phase 1, not its last band
    have f2 : ¬ t.val < 16 := by omega
    have f4 : 16 ≤ t.val ∧ t.val < 32 := by omega
    have f5 : ¬ t.val = 31 := by omega
    have f6 : ¬ (32 ≤ t.val ∧ t.val < 48) := by omega
    have f7 : ¬ 48 ≤ t.val := by omega
    simp only [if_neg hA, if_neg f2, if_neg hC, if_pos f4, if_neg f5, if_neg f6, if_neg f7]
    have eC : C1 = S2 m c := i1b (by omega) (by omega)
    have eA : View.ld C0 (band 4096 (bnd t)) = AB m c (bnd t) := i0 _ (by omega)
    refine ⟨⟨?_, ?_, ?_, ?_, ?_, ?_, ?_⟩, by first | trivial | (intro _; trivial) | (intro _; rfl), by first | trivial | (intro _; trivial) | (intro _; rfl)⟩
    · intro b' _; exact i0 b' (by have := b'.isLt; omega)
    · intro _ h; omega
    · intro _ _; exact eC
    · intro h; omega
    · intro b' _ h; omega
    · intro b' h _
      exact band_step 32 (bnd t) C2 _ (H2B m c) 16 t.val (by omega) (fun b'' h'' => i3 b'' h'' (by omega))
        (by unfold H2B; rw [eA, eC]) b' h
    · intro b' h; omega
  by_cases hE : t.val = 31
  · -- the last band of phase 1: the second activations are complete and give the third support
    have f2 : ¬ t.val < 16 := by omega
    have f4 : 16 ≤ t.val ∧ t.val < 32 := by omega
    have f6 : ¬ (32 ≤ t.val ∧ t.val < 48) := by omega
    have f7 : ¬ 48 ≤ t.val := by omega
    simp only [if_neg hA, if_neg f2, if_neg hC, if_pos f4, if_pos hE, if_neg f6, if_neg f7]
    have eC : C1 = S2 m c := i1b (by omega) (by omega)
    have eA : View.ld C0 (band 4096 (bnd t)) = AB m c (bnd t) := i0 _ (by omega)
    have et : pt 31 (by decide) = t := Fin.ext hE.symm
    have hH : ∀ b' : Fin 16, b'.val + 16 < t.val + 1 →
        View.ld ((band 32 (bnd t)).overlay C2 (k0_pay6 (View.ld C0 (band 4096 (bnd t))) C1)) (band 32 b') = H2B m c b' :=
      band_step 32 (bnd t) C2 _ (H2B m c) 16 t.val (by omega) (fun b'' h'' => i3 b'' h'' (by omega))
        (by unfold H2B; rw [eA, eC])
    have eH : (band 32 (bnd t)).overlay C2 (k0_pay6 (View.ld C0 (band 4096 (bnd t))) C1) = asm 32 (H2B m c) :=
      eq_asm_of_bands 32 _ _ (fun b' => hH b' (by have := b'.isLt; omega))
    refine ⟨⟨?_, ?_, ?_, ?_, ?_, ?_, ?_⟩, by first | trivial | (intro _; trivial) | (intro _; rfl), by first | trivial | (intro _; trivial) | (intro _; rfl)⟩
    · intro b' _; exact i0 b' (by have := b'.isLt; omega)
    · intro _ h; omega
    · intro _ h; omega
    · intro _; rw [eH]; unfold S3; rw [et]
    · intro b' _ h; omega
    · intro b' h _; exact hH b' h
    · intro b' h; omega
  by_cases hF : t.val < 48
  · -- phase 2: one band of the first result and of its narrow copy
    have f2 : ¬ t.val < 16 := by omega
    have f4 : ¬ (16 ≤ t.val ∧ t.val < 32) := by omega
    have f6 : 32 ≤ t.val ∧ t.val < 48 := by omega
    have f7 : ¬ 48 ≤ t.val := by omega
    simp only [if_neg hA, if_neg f2, if_neg hC, if_neg f4, if_neg hE, if_pos f6, if_neg f7]
    have eC : C1 = S3 m c := i1c (by omega)
    have eA : View.ld C0 (band 4096 (bnd t)) = AB m c (bnd t) := i0 _ (by have := (bnd t).isLt; omega)
    refine ⟨⟨?_, ?_, ?_, ?_, ?_, ?_, ?_⟩, ?_, by first | trivial | (intro _; trivial) | (intro _; rfl)⟩
    · intro b' _; exact i0 b' (by have := b'.isLt; omega)
    · intro _ h; omega
    · intro _ h; omega
    · intro _; exact eC
    · intro b' _ h; omega
    · intro b' _ h; omega
    · exact band_step 16 (bnd t) C3 _ (ZBB m c) 32 t.val (by omega) i4 (by unfold ZBB; rw [eA, eC])
    · intro x7; rw [eA, eC]; rfl
  · -- phase 3: one band of the second result
    have f2 : ¬ t.val < 16 := by omega
    have f4 : ¬ (16 ≤ t.val ∧ t.val < 32) := by omega
    have f6 : ¬ (32 ≤ t.val ∧ t.val < 48) := by omega
    have f7 : 48 ≤ t.val := by omega
    simp only [if_neg hA, if_neg f2, if_neg hC, if_neg f4, if_neg hE, if_neg f6, if_pos f7]
    have eZ : C3 = asm 16 (ZBB m c) := eq_asm_of_bands 16 _ _ (fun b' => i4 b' (by have := b'.isLt; omega))
    refine ⟨⟨?_, ?_, ?_, ?_, ?_, ?_, ?_⟩, by first | trivial | (intro _; trivial) | (intro _; rfl), ?_⟩
    · intro b' _; exact i0 b' (by have := b'.isLt; omega)
    · intro _ h; omega
    · intro _ h; omega
    · intro _; exact i1c (by omega)
    · intro b' _ h; omega
    · intro b' _ h; omega
    · intro b' _; exact i4 b' (by have := b'.isLt; omega)
    · intro x8; rw [i4 (bnd t) (by have := (bnd t).isLt; omega)]; unfold OUTB; rw [← eZ]

end Cert.Kernel.Inv

end
-- ==== Proof.Bits.Run.lean ====
/-
  The proof data of the pipelined call, the body's obligation at every grid point, and the run.

  Between points the four carried buffers hold contents satisfying the invariant; the five inputs' staging buffers hold
  their blocks and are left as found; the first result's staging buffer gets one row band per point of phase 2 and is
  otherwise left as found; the second result's gets its whole block at every point of phase 3 and is otherwise left as
  found. From these the launch theorem gives the run, and with it what each array may hold at the end.
-/
import proofs.«136274_g82781199663863_cont_9to1_m_1005_4_alg».proof.Proof.Bits.Inv
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Run

open Cert.Kernel Cert.Kernel.Gen Cert.Kernel.Body Cert.Kernel.Traj Cert.Kernel.Inv Cert.Bands
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four carried buffers, whole. -/
abbrev scM0 : Memref sig .tc .vmem S4096x4096 .bf16 := Memref.whole cc0_scratch0
abbrev scM1 : Memref sig .tc .vmem S4096x32 .bf16 := Memref.whole cc0_scratch1
abbrev scM2 : Memref sig .tc .vmem S4096x32 .f32 := Memref.whole cc0_scratch2
abbrev scM3 : Memref sig .tc .vmem S4096x16 .bf16 := Memref.whole cc0_scratch3

/-- What the launch hands the region besides the windows: the four carried buffers at some contents each, and the
    generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The region invariant before point `n`: the carried buffers at contents satisfying `Inv`. -/
def Phi (c : Dev nD) (n : ℕ) : sProp 𝕄 :=
  iprop(∃ C0 : Vec F S4096x4096 .bf16, ∃ C1 : Vec F S4096x32 .bf16, ∃ C2 : Vec F S4096x32 .f32, ∃ C3 : Vec F S4096x16 .bf16,
    ⌜Inv m c n C0 C1 C2 C3⌝ ∗ owns (c : Thread nD τ) scM0 fullShare C0 ∗ owns (c : Thread nD τ) scM1 fullShare C1
      ∗ owns (c : Thread nD τ) scM2 fullShare C2 ∗ owns (c : Thread nD τ) scM3 fullShare C3 ∗ (∃ r, prngReg c r))

/-- The proof data: the arrays as the region finds them; every input left as found; the first result's buffer given band
    `t mod 16` of the first result at the points of phase 2; the second result's buffer given band `t mod 16` of the second
    result at the points of phase 3. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = (if 32 ≤ t.val ∧ t.val < 48 then (band 16 (bnd t)).overlay Y (ZHB m c (bnd t)) else Y)
    | ⟨6, _⟩ => X = (if 48 ≤ t.val then OUTB m c (bnd t) else Y)
  Φ t := Phi m c t.val
  q _ := fullShare
  owed _ := 0

theorem A_eq (c : Dev nD) (w : Fin cfg0.W) : (rdat m c).A w = V m c (Pipeline.arrRef spec0 w) := by
  dsimp only [rdat]

/-! ## The inputs' staging buffers hold their blocks -/

theorem finds0 (c : Dev nD) (t : Fin cfg0.N) (Y) (h : (rdat m c).Finds 0 t Y) : Y = zAt m c t := by
  obtain ⟨d, hd⟩ := RDat.finds_in_eq_fetched (rdat m c) 0 rfl (fun _ _ _ => rfl) (fun _ _ _ h => by dsimp only [rdat] at h; exact h) t Y h
  rw [hd]; unfold RDat.fetched RDat.blockOf zAt iblk; rw [A_eq]; try rfl
theorem finds1 (c : Dev nD) (t : Fin cfg0.N) (Y) (h : (rdat m c).Finds 1 t Y) : Y = adjAt m c t := by
  obtain ⟨d, hd⟩ := RDat.finds_in_eq_fetched (rdat m c) 1 rfl (fun _ _ _ => rfl) (fun _ _ _ h => by dsimp only [rdat] at h; exact h) t Y h
  rw [hd]; unfold RDat.fetched RDat.blockOf adjAt iblk; rw [A_eq]; try rfl
theorem finds2 (c : Dev nD) (t : Fin cfg0.N) (Y) (h : (rdat m c).Finds 2 t Y) : Y = w4At m c t := by
  obtain ⟨d, hd⟩ := RDat.finds_in_eq_fetched (rdat m c) 2 rfl (fun _ _ _ => rfl) (fun _ _ _ h => by dsimp only [rdat] at h; exact h) t Y h
  rw [hd]; unfold RDat.fetched RDat.blockOf w4At iblk; rw [A_eq]; try rfl
theorem finds3 (c : Dev nD) (t : Fin cfg0.N) (Y) (h : (rdat m c).Finds 3 t Y) : Y = w5At m c t := by
  obtain ⟨d, hd⟩ := RDat.finds_in_eq_fetched (rdat m c) 3 rfl (fun _ _ _ => rfl) (fun _ _ _ h => by dsimp only [rdat] at h; exact h) t Y h
  rw [hd]; unfold RDat.fetched RDat.blockOf w5At iblk; rw [A_eq]; try rfl
theorem finds4 (c : Dev nD) (t : Fin cfg0.N) (Y) (h : (rdat m c).Finds 4 t Y) : Y = w6At m c t := by
  obtain ⟨d, hd⟩ := RDat.finds_in_eq_fetched (rdat m c) 4 rfl (fun _ _ _ => rfl) (fun _ _ _ h => by dsimp only [rdat] at h; exact h) t Y h
  rw [hd]; unfold RDat.fetched RDat.blockOf w6At iblk; rw [A_eq]; try rfl

/-! ## The body's obligation at a point -/

set_option maxHeartbeats 4000000 in
/-- At every point: from the invariant, what the core owes and the seven staging buffers at anything they may hold, the
    body runs to the invariant at the next point, the same owed, and each staging buffer at contents in its relation to
    what it was handed. -/
theorem sound_pt (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X)
            ∗ (∃ X, ⌜(rdat m c).after 5 t (Y 5) X⌝ ∗ owns (c : Thread nD τ) (st0_5 t) fullShare X)
            ∗ (∃ X, ⌜(rdat m c).after 6 t (Y 6) X⌝ ∗ owns (c : Thread nD τ) (st0_6 t) fullShare X))) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [show (rdat m c).owesAt () t.succ = (rdat m c).owesAt () t.castSucc from rfl]
  rw [show (rdat m c).Φ t.succ = Phi m c (t.val + 1) from rfl, show (rdat m c).Φ t.castSucc = Phi m c t.val from rfl]
  unfold Phi bodyAt0
  iintro ⟨⟨%C0, %C1, %C2, %C3, %hI, HS0, HS1, HS2, HS3, Hg⟩, Ho, H0, H1, H2, H3, H4, H5, H6⟩
  obtain ⟨hInv, h5, h6⟩ := inv_step m c t (Y 0) (Y 1) (Y 2) (Y 3) (Y 4) e0 e1 e2 e3 e4 C0 C1 C2 C3 hI
  iapply (sound_body c (grid0.coords t) _ _ _ _ _ _ _ _ _ _ _ _ _ _ _ _ _ _ _ _ _ _ (Y 0) (Y 1) (Y 2) (Y 3) (Y 4) (Y 5) (Y 6) C0 C1 C2 C3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · iexists _; iexists _; iexists _; iexists _
    isplitr; · ipureintro; exact hInv
    isplitl [HS0]; · iexact HS0
    isplitl [HS1]; · iexact HS1
    isplitl [HS2]; · iexact HS2
    isplitl [HS3]; · iexact HS3
    iexact Hg
  isplitl [Ho]; · iexact Ho
  isplitl [H0]
  · iexists _; isplitr; swap; · iexact H0
    ipureintro; dsimp only [rdat]
  isplitl [H1]
  · iexists _; isplitr; swap; · iexact H1
    ipureintro; dsimp only [rdat]
  isplitl [H2]
  · iexists _; isplitr; swap; · iexact H2
    ipureintro; dsimp only [rdat]
  isplitl [H3]
  · iexists _; isplitr; swap; · iexact H3
    ipureintro; dsimp only [rdat]
  isplitl [H4]
  · iexists _; isplitr; swap; · iexact H4
    ipureintro; dsimp only [rdat]
  isplitl [H5]
  · iexists _; isplitr; swap; · iexact H5
    ipureintro; dsimp only [rdat]; exact h5 (Y 5)
  · iexists _; isplitr; swap; · iexact H6
    ipureintro; dsimp only [rdat]; exact h6 (Y 6)

/-- The library's body obligation. -/
theorem body_obligation (c : Dev nD) : (rdat m c).BodyObligation (defs₀ (F := F)) Variants.none () Set.univ := fun t Y hY => by
  rw [bigSep_W0, bigSep_W0]
  exact sound_pt m c t Y hY

/-- Before the first point the invariant asks nothing of the carried buffers. -/
theorem hin (c : Dev nD) : Pipeline.ΦA spec0 c ⊢ (rdat m c).Φ 0 := by
  rw [show (rdat m c).Φ 0 = Phi m c 0 from rfl, PhiA0_eq]
  unfold Phi
  iintro ⟨⟨⟨%d0, H0⟩, ⟨%d1, H1⟩, ⟨%d2, H2⟩, ⟨%d3, H3⟩⟩, Hg⟩
  iexists d0; iexists d1; iexists d2; iexists d3
  isplitr
  · ipureintro
    exact ⟨fun b h => by omega, fun h => by omega, fun h => by omega, fun h => by omega, fun b h => by omega,
      fun b h => by omega, fun b h => by omega⟩
  isplitl [H0]; · iexact H0
  isplitl [H1]; · iexact H1
  isplitl [H2]; · iexact H2
  isplitl [H3]; · iexact H3
  iexact Hg

/-- After the last point what the carried buffers hold is forgotten. -/
theorem hout (c : Dev nD) : (rdat m c).Φ (Fin.last cfg0.N) ⊢ Pipeline.ΦA spec0 c := by
  rw [show (rdat m c).Φ (Fin.last cfg0.N) = Phi m c (Fin.last cfg0.N).val from rfl, PhiA0_eq]
  unfold Phi
  iintro ⟨%C0, %C1, %C2, %C3, -, H0, H1, H2, H3, Hg⟩
  isplitl [H0 H1 H2 H3]
  · isplitl [H0]; · iexists _; iexact H0
    isplitl [H1]; · iexists _; iexact H1
    isplitl [H2]; · iexists _; iexact H2
    iexists _; iexact H3
  iexact Hg

-- the launch theorem's implicit arguments are found by unifying its conclusion with this one
set_option backward.isDefEq.respectTransparency.types false in
/-- THE RUN: at the compiled mesh, for any values, from any memory with zero counters, every weakly fair execution of @main
    terminates, and at the end every array of the call holds contents the proof data allow and every other unscoped
    buffer what the region found. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

end Cert.Kernel.Run

end
-- ==== Proof.Bits.Frame.lean ====
/-
  The frame: the five argument arrays end as they were. Four of them are arrays of input windows, which the pipeline never
  writes back; the fifth bypasses the region (its padded copy is what the region stages).
-/
import proofs.«136274_g82781199663863_cont_9to1_m_1005_4_alg».proof.Proof.Bits.Run

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (RDat)

variable {F : FTy → Type} [FloatOps F]
variable (m : (ℓ : Loc nD τ sig) → Buf (Elt F) ℓ) (ρ : Dev nD → PrngReg)

/-- An input window's array ends at what the region found, which is what was launched. -/
theorem kept0 (r : PUnit × MemSt nD τ sig (Elt F)) (h : Pipeline.RDat.FramePost cfg0 (rdat m) (V m) r) (c : Dev nD) :
    r.2.mem ((c.tc : Thread nD τ).loc main_arg0) = m ((c.tc : Thread nD τ).loc main_arg0) := by
  have h0 := (h c).1 0
  rw [RDat.ArrAt_in (rdat m c) 0 rfl] at h0
  exact h0.trans ((A_eq m c 0).trans (V_main_arg0 m c))
theorem kept1 (r : PUnit × MemSt nD τ sig (Elt F)) (h : Pipeline.RDat.FramePost cfg0 (rdat m) (V m) r) (c : Dev nD) :
    r.2.mem ((c.tc : Thread nD τ).loc main_arg1) = m ((c.tc : Thread nD τ).loc main_arg1) := by
  have h0 := (h c).1 1
  rw [RDat.ArrAt_in (rdat m c) 1 rfl] at h0
  exact h0.trans ((A_eq m c 1).trans (V_main_arg1 m c))
theorem kept2 (r : PUnit × MemSt nD τ sig (Elt F)) (h : Pipeline.RDat.FramePost cfg0 (rdat m) (V m) r) (c : Dev nD) :
    r.2.mem ((c.tc : Thread nD τ).loc main_arg2) = m ((c.tc : Thread nD τ).loc main_arg2) := by
  have h0 := (h c).1 2
  rw [RDat.ArrAt_in (rdat m c) 2 rfl] at h0
  exact h0.trans ((A_eq m c 2).trans (V_main_arg2 m c))
theorem kept3 (r : PUnit × MemSt nD τ sig (Elt F)) (h : Pipeline.RDat.FramePost cfg0 (rdat m) (V m) r) (c : Dev nD) :
    r.2.mem ((c.tc : Thread nD τ).loc main_arg3) = m ((c.tc : Thread nD τ).loc main_arg3) := by
  have h0 := (h c).1 3
  rw [RDat.ArrAt_in (rdat m c) 3 rfl] at h0
  exact h0.trans ((A_eq m c 3).trans (V_main_arg3 m c))
/-- The third weight bypasses the region. -/
theorem kept4 (r : PUnit × MemSt nD τ sig (Elt F)) (h : Pipeline.RDat.FramePost cfg0 (rdat m) (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- THE FRAME at any instance: every weakly fair execution terminates, faults nowhere, and the argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨kept0 m r h c, kept1 m r h c, kept2 m r h c, kept3 m r h c, kept4 m r h c⟩)
    (run_main m ρ)

end Cert.Kernel.Run

end
-- ==== Proof.Ideal.Body.lean ====
/-
  The kernel body, one grid point at a time, on whole buffers at arbitrary contents.

  The body is seven conditionals in sequence, each guarded by a condition on the two grid coordinates (phase, row band).
  Each conditional loads some buffers whole or one 256-row band of them, computes one pure value, and stores it whole or
  into the point's band. Written out here: the seven conditions; the body cut into its conditionals; what each conditional
  leaves in the buffers it stores into, as a pure function of what the buffers held; and the triple of the whole body.
-/
import proofs.«136274_g82781199663863_cont_9to1_m_1005_4_alg».proof.Proof.Gen.KernelIdeal.Launch
import proofs.«136274_g82781199663863_cont_9to1_m_1005_4_alg».proof.Proof.Gen.KernelIdeal.Skeleton
import proofs.«136274_g82781199663863_cont_9to1_m_1005_4_alg».proof.Proof.Gen.KernelIdeal.Points
import proofs.«136274_g82781199663863_cont_9to1_m_1005_4_alg».proof.Proof.Gen.KernelIdeal.Frame
import Idealize.ShloMosaic.Lib.Pipeline.FrameBody
import Idealize.ShloMosaic.Lib.Ring
import Idealize.ShloMosaic.Lib.Tactic
import proofs.«136274_g82781199663863_cont_9to1_m_1005_4_alg».proof.Proof.LibWholeBuffer

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven conditions of the body at a grid point (phase `i 0`, row band `i 1`): first point; first phase; last band of
    the first phase; second phase; last band of the second phase; third phase; fourth phase. -/
abbrev c1 (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev c2 (i : grid0.Coords) : Prop := k0_cond2 i = 1#1
abbrev c3 (i : grid0.Coords) : Prop := Scalar.cmpi .ne (Scalar.extui (Scalar.andi (Scalar.cmpi .eq (BitVec.ofNat 32 (i 0).val) 0#32) (Scalar.cmpi .eq (BitVec.ofNat 32 (i 1).val) 15#32)) : BitVec 32) 0#32 = 1#1
abbrev c4 (i : grid0.Coords) : Prop := k0_cond4 i = 1#1
abbrev c5 (i : grid0.Coords) : Prop := Scalar.cmpi .ne (Scalar.extui (Scalar.andi (Scalar.cmpi .eq (BitVec.ofNat 32 (i 0).val) 1#32) (Scalar.cmpi .eq (BitVec.ofNat 32 (i 1).val) 15#32)) : BitVec 32) 0#32 = 1#1
abbrev c6 (i : grid0.Coords) : Prop := k0_cond6 i = 1#1
abbrev c7 (i : grid0.Coords) : Prop := k0_cond7 i = 1#1
/-- Conditional 1 of the body followed by the rest of the body. -/
noncomputable def blk1 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  let v4 : BitVec 1 := Scalar.cmpi .ne v3 0#32
  if k0_h1 : v4 = 1#1 then do
    let v27 : Vec F S4096x16 .f32 ← Prog.lift (.load arg2 (Rect.unit (s := S4096x16) ![0, 0] S4096x16.size inb_S4096x16_S4096x16_0_0).toLoadRect (View.loadsAt_vmem h_S4096x16))
    let v28 : Vec F S16x32 .f32 ← Prog.lift (.load arg4 (Rect.unit (s := S16x32) ![0, 0] S16x32.size inb_S16x32_S16x32_0_0).toLoadRect (View.loadsAt_vmem h_S16x32))
    let v31 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay1 v27 v28) Finset.univ (View.stores_vmem h_S4096x32 (harg10.storeExact_slice rfl _ packedbf16_S4096x32_S4096x32_0_0) (fun _ => rfl)) (.inl rfl))
    rest
  else do
    rest

/-- Conditional 2 of the body followed by the rest of the body. -/
noncomputable def blk2 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h2 : k0_cond2 i = 1#1 then do
    let v27 : Vec F S256x4096 .f32 ← Prog.lift (.load arg3 (Rect.unit (s := S256x4096) ![0, 0] S256x4096.size inb_S256x4096_S256x4096_0_0).toLoadRect (View.loadsAt_vmem h_S256x4096))
    let v31 : Vec F S256x4096 .bf16 ← Prog.lift (.load arg9 (Rect.unit (s := S4096x4096) (k0_off1 i) S256x4096.size (k0_off1_inb i k0_h2)).toLoadRect (View.loadsAt_vmem h_S256x4096))
    Prog.lift (.store arg9 (Rect.unit (s := S4096x4096) (k0_off1 i) S256x4096.size (k0_off1_inb i k0_h2)) (k0_pay3 v27) Finset.univ (View.stores_vmem h_S256x4096 (harg9.storeExact_slice rfl _ (k0_off1_packedbf16 i k0_h2)) (fun _ => rfl)) (.inl rfl))
    let v34 : Vec F S4096x32 .bf16 ← Prog.lift (.load arg10 (Rect.unit (s := S4096x32) ![0, 0] S4096x32.size inb_S4096x32_S4096x32_0_0).toLoadRect (View.loadsAt_vmem h_S4096x32))
    let v40 : Vec F S256x32 .f32 ← Prog.lift (.load arg11 (Rect.unit (s := S4096x32) (k0_off2 i) S256x32.size (k0_off2_inb i k0_h2)).toLoadRect (View.loadsAt_vmem h_S256x32))
    Prog.lift (.store arg11 (Rect.unit (s := S4096x32) (k0_off2 i) S256x32.size (k0_off2_inb i k0_h2)) (k0_pay4 v27 v34) Finset.univ (View.stores_vmem_bits_univ h_S256x32 rfl) (.inl rfl))
    rest
  else do
    rest

/-- Conditional 3 of the body followed by the rest of the body. -/
noncomputable def blk3 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v8 : BitVec 1 := Scalar.cmpi .eq arg0 0#32
  let v9 : BitVec 1 := Scalar.cmpi .eq arg1 15#32
  let v10 : BitVec 1 := Scalar.andi v8 v9
  let v11 : BitVec 32 := Scalar.extui v10
  let v12 : BitVec 1 := Scalar.cmpi .ne v11 0#32
  if k0_h3 : v12 = 1#1 then do
    let v27 : Vec F S4096x32 .f32 ← Prog.lift (.load arg11 (Rect.unit (s := S4096x32) ![0, 0] S4096x32.size inb_S4096x32_S4096x32_0_0).toLoadRect (View.loadsAt_vmem h_S4096x32))
    let v28 : Vec F S32x32 .f32 ← Prog.lift (.load arg5 (Rect.unit (s := S32x32) ![0, 0] S32x32.size inb_S32x32_S32x32_0_0).toLoadRect (View.loadsAt_vmem h_S32x32))
    let v31 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay5 v27 v28) Finset.univ (View.stores_vmem h_S4096x32 (harg10.storeExact_slice rfl _ packedbf16_S4096x32_S4096x32_0_0) (fun _ => rfl)) (.inl rfl))
    rest
  else do
    rest

/-- Conditional 4 of the body followed by the rest of the body. -/
noncomputable def blk4 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h4 : k0_cond4 i = 1#1 then do
    let v29 : Vec F S256x4096 .bf16 ← Prog.lift (.load arg9 (Rect.unit (s := S4096x4096) (k0_off3 i) S256x4096.size (k0_off3_inb i k0_h4)).toLoadRect (View.loadsAt_vmem h_S256x4096))
    let v30 : Vec F S4096x32 .bf16 ← Prog.lift (.load arg10 (Rect.unit (s := S4096x32) ![0, 0] S4096x32.size inb_S4096x32_S4096x32_0_0).toLoadRect (View.loadsAt_vmem h_S4096x32))
    let v36 : Vec F S256x32 .f32 ← Prog.lift (.load arg11 (Rect.unit (s := S4096x32) (k0_off4 i) S256x32.size (k0_off4_inb i k0_h4)).toLoadRect (View.loadsAt_vmem h_S256x32))
    Prog.lift (.store arg11 (Rect.unit (s := S4096x32) (k0_off4 i) S256x32.size (k0_off4_inb i k0_h4)) (k0_pay6 v29 v30) Finset.univ (View.stores_vmem_bits_univ h_S256x32 rfl) (.inl rfl))
    rest
  else do
    rest

/-- Conditional 5 of the body followed by the rest of the body. -/
noncomputable def blk5 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let v16 : BitVec 1 := Scalar.cmpi .eq arg0 1#32
  let v17 : BitVec 1 := Scalar.cmpi .eq arg1 15#32
  let v18 : BitVec 1 := Scalar.andi v16 v17
  let v19 : BitVec 32 := Scalar.extui v18
  let v20 : BitVec 1 := Scalar.cmpi .ne v19 0#32
  if k0_h5 : v20 = 1#1 then do
    let v27 : Vec F S4096x32 .f32 ← Prog.lift (.load arg11 (Rect.unit (s := S4096x32) ![0, 0] S4096x32.size inb_S4096x32_S4096x32_0_0).toLoadRect (View.loadsAt_vmem h_S4096x32))
    let v28 : Vec F S32x32 .f32 ← Prog.lift (.load arg6 (Rect.unit (s := S32x32) ![0, 0] S32x32.size inb_S32x32_S32x32_0_0).toLoadRect (View.loadsAt_vmem h_S32x32))
    let v32 : Vec F S4096x32 .bf16 ← Prog.lift (.load arg10 (Rect.unit (s := S4096x32) ![0, 0] S4096x32.size inb_S4096x32_S4096x32_0_0).toLoadRect (View.loadsAt_vmem h_S4096x32))
    Prog.lift (.store arg10 (Rect.unit (s := S4096x32) ![0, 0] S4096x32.size inb_S4096x32_S4096x32_0_0) (k0_pay7 v27 v28) Finset.univ (View.stores_vmem h_S4096x32 (harg10.storeExact_slice rfl _ packedbf16_S4096x32_S4096x32_0_0) (fun _ => rfl)) (.inl rfl))
    rest
  else do
    rest

/-- Conditional 6 of the body followed by the rest of the body. -/
noncomputable def blk6 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h6 : k0_cond6 i = 1#1 then do
    let v29 : Vec F S256x4096 .bf16 ← Prog.lift (.load arg9 (Rect.unit (s := S4096x4096) (k0_off5 i) S256x4096.size (k0_off5_inb i k0_h6)).toLoadRect (View.loadsAt_vmem h_S256x4096))
    let v30 : Vec F S4096x32 .bf16 ← Prog.lift (.load arg10 (Rect.unit (s := S4096x32) ![0, 0] S4096x32.size inb_S4096x32_S4096x32_0_0).toLoadRect (View.loadsAt_vmem h_S4096x32))
    let v37 : Vec F S256x16 .f32 ← Prog.lift (.load arg7 (Rect.unit (s := S4096x16) (k0_off6 i) S256x16.size (k0_off6_inb i k0_h6)).toLoadRect (View.loadsAt_vmem h_S256x16))
    Prog.lift (.store arg7 (Rect.unit (s := S4096x16) (k0_off6 i) S256x16.size (k0_off6_inb i k0_h6)) (k0_pay8 v29 v30) Finset.univ (View.stores_vmem_bits_univ h_S256x16 rfl) (.inl rfl))
    let v41 : Vec F S256x16 .bf16 ← Prog.lift (.load arg12 (Rect.unit (s := S4096x16) (k0_off6 i) S256x16.size (k0_off6_inb i k0_h6)).toLoadRect (View.loadsAt_vmem h_S256x16))
    Prog.lift (.store arg12 (Rect.unit (s := S4096x16) (k0_off6 i) S256x16.size (k0_off6_inb i k0_h6)) (k0_pay9 v29 v30) Finset.univ (View.stores_vmem h_S256x16 (harg12.storeExact_slice rfl _ (k0_off6_packedbf16 i k0_h6)) (fun _ => rfl)) (.inl rfl))
    rest
  else do
    rest

/-- Conditional 7 of the body followed by the rest of the body. -/
noncomputable def blk7 (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit) :
    Prog (TpuEff nD τ sig (Elt F) Λ₀ .tc) PUnit := do
  if k0_h7 : k0_cond7 i = 1#1 then do
    let v29 : Vec F S256x16 .bf16 ← Prog.lift (.load arg12 (Rect.unit (s := S4096x16) (k0_off7 i) S256x16.size (k0_off7_inb i k0_h7)).toLoadRect (View.loadsAt_vmem h_S256x16))
    let v30 : Vec F S4096x16 .bf16 ← Prog.lift (.load arg12 (Rect.unit (s := S4096x16) ![0, 0] S4096x16.size inb_S4096x16_S4096x16_0_0).toLoadRect (View.loadsAt_vmem h_S4096x16))
    let v39 : Vec F S256x4096 .f32 ← Prog.lift (.load arg8 (Rect.unit (s := S256x4096) ![0, 0] S256x4096.size inb_S256x4096_S256x4096_0_0).toLoadRect (View.loadsAt_vmem h_S256x4096))
    Prog.lift (.store arg8 (Rect.unit (s := S256x4096) ![0, 0] S256x4096.size inb_S256x4096_S256x4096_0_0) (k0_pay10 v29 v30) Finset.univ (View.stores_vmem_bits_univ h_S256x4096 rfl) (.inl rfl))
    rest
  else do
    rest

set_option maxRecDepth 65536 in
/-- The body is its seven conditionals, each followed by the rest. -/
theorem skel_eq_blocks (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) :
    cc0__fused_body_skel (F := F) i arg2 harg2 arg3 harg3 arg4 harg4 arg5 harg5 arg6 harg6 arg7 harg7 arg8 harg8 arg9 harg9 arg10 harg10 arg11 harg11 arg12 harg12 = (blk1 i arg2 harg2 arg3 harg3 arg4 harg4 arg5 harg5 arg6 harg6 arg7 harg7 arg8 harg8 arg9 harg9 arg10 harg10 arg11 harg11 arg12 harg12 (blk2 i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))))))) := rfl

/-- The support buffer after conditional 1: at the first grid point the product of the features and the first weight. -/
def p1 (i : grid0.Coords) (x2 : Vec F S4096x16 .f32) (x4 : Vec F S16x32 .f32) (x10 : Vec F S4096x32 .bf16) : Vec F S4096x32 .bf16 :=
  if h : c1 i then (Rect.unit (s := S4096x32) ![0, 0] S4096x32.size inb_S4096x32_S4096x32_0_0).overlay x10 (k0_pay1 (View.ld x2 (Rect.unit (s := S4096x16) ![0, 0] S4096x16.size inb_S4096x16_S4096x16_0_0)) (View.ld x4 (Rect.unit (s := S16x32) ![0, 0] S16x32.size inb_S16x32_S16x32_0_0))) else x10

/-- The resident copy of the adjacency after conditional 2: in the first phase the point's row band replaced by the band just fetched. -/
def p2a (i : grid0.Coords) (x3 : Vec F S256x4096 .f32) (x9 : Vec F S4096x4096 .bf16) : Vec F S4096x4096 .bf16 :=
  if h : c2 i then (Rect.unit (s := S4096x4096) (k0_off1 i) S256x4096.size (k0_off1_inb i h)).overlay x9 (k0_pay3 (View.ld x3 (Rect.unit (s := S256x4096) ![0, 0] S256x4096.size inb_S256x4096_S256x4096_0_0))) else x9

/-- The activations after conditional 2: in the first phase the point's row band replaced by the rectified product of the fetched band and the support. -/
def p2h (i : grid0.Coords) (x3 : Vec F S256x4096 .f32) (x10 : Vec F S4096x32 .bf16) (x11 : Vec F S4096x32 .f32) : Vec F S4096x32 .f32 :=
  if h : c2 i then (Rect.unit (s := S4096x32) (k0_off2 i) S256x32.size (k0_off2_inb i h)).overlay x11 (k0_pay4 (View.ld x3 (Rect.unit (s := S256x4096) ![0, 0] S256x4096.size inb_S256x4096_S256x4096_0_0)) (View.ld x10 (Rect.unit (s := S4096x32) ![0, 0] S4096x32.size inb_S4096x32_S4096x32_0_0))) else x11

/-- The support buffer after conditional 3: at the last point of the first phase the activations times the second weight. -/
def p3 (i : grid0.Coords) (x5 : Vec F S32x32 .f32) (x10 : Vec F S4096x32 .bf16) (x11 : Vec F S4096x32 .f32) : Vec F S4096x32 .bf16 :=
  if h : c3 i then (Rect.unit (s := S4096x32) ![0, 0] S4096x32.size inb_S4096x32_S4096x32_0_0).overlay x10 (k0_pay5 (View.ld x11 (Rect.unit (s := S4096x32) ![0, 0] S4096x32.size inb_S4096x32_S4096x32_0_0)) (View.ld x5 (Rect.unit (s := S32x32) ![0, 0] S32x32.size inb_S32x32_S32x32_0_0))) else x10

/-- The activations after conditional 4: in the second phase the point's row band replaced by the rectified product of the resident band and the support. -/
def p4 (i : grid0.Coords) (x9 : Vec F S4096x4096 .bf16) (x10 : Vec F S4096x32 .bf16) (x11 : Vec F S4096x32 .f32) : Vec F S4096x32 .f32 :=
  if h : c4 i then (Rect.unit (s := S4096x32) (k0_off4 i) S256x32.size (k0_off4_inb i h)).overlay x11 (k0_pay6 (View.ld x9 (Rect.unit (s := S4096x4096) (k0_off3 i) S256x4096.size (k0_off3_inb i h))) (View.ld x10 (Rect.unit (s := S4096x32) ![0, 0] S4096x32.size inb_S4096x32_S4096x32_0_0))) else x11

/-- The support buffer after conditional 5: at the last point of the second phase the activations times the padded third weight. -/
def p5 (i : grid0.Coords) (x6 : Vec F S32x32 .f32) (x10 : Vec F S4096x32 .bf16) (x11 : Vec F S4096x32 .f32) : Vec F S4096x32 .bf16 :=
  if h : c5 i then (Rect.unit (s := S4096x32) ![0, 0] S4096x32.size inb_S4096x32_S4096x32_0_0).overlay x10 (k0_pay7 (View.ld x11 (Rect.unit (s := S4096x32) ![0, 0] S4096x32.size inb_S4096x32_S4096x32_0_0)) (View.ld x6 (Rect.unit (s := S32x32) ![0, 0] S32x32.size inb_S32x32_S32x32_0_0))) else x10

/-- The first result's block after conditional 6: in the third phase the point's row band replaced by the rectified first sixteen columns of the product. -/
def p6o (i : grid0.Coords) (x7 : Vec F S4096x16 .f32) (x9 : Vec F S4096x4096 .bf16) (x10 : Vec F S4096x32 .bf16) : Vec F S4096x16 .f32 :=
  if h : c6 i then (Rect.unit (s := S4096x16) (k0_off6 i) S256x16.size (k0_off6_inb i h)).overlay x7 (k0_pay8 (View.ld x9 (Rect.unit (s := S4096x4096) (k0_off5 i) S256x4096.size (k0_off5_inb i h))) (View.ld x10 (Rect.unit (s := S4096x32) ![0, 0] S4096x32.size inb_S4096x32_S4096x32_0_0))) else x7

/-- The narrow copy of the first result after conditional 6: the same band, in the narrow format. -/
def p6z (i : grid0.Coords) (x9 : Vec F S4096x4096 .bf16) (x10 : Vec F S4096x32 .bf16) (x12 : Vec F S4096x16 .bf16) : Vec F S4096x16 .bf16 :=
  if h : c6 i then (Rect.unit (s := S4096x16) (k0_off6 i) S256x16.size (k0_off6_inb i h)).overlay x12 (k0_pay9 (View.ld x9 (Rect.unit (s := S4096x4096) (k0_off5 i) S256x4096.size (k0_off5_inb i h))) (View.ld x10 (Rect.unit (s := S4096x32) ![0, 0] S4096x32.size inb_S4096x32_S4096x32_0_0))) else x12

/-- The second result's block after conditional 7: in the last phase the logistic form of the band's rows against all rows. -/
def p7 (i : grid0.Coords) (x8 : Vec F S256x4096 .f32) (x12 : Vec F S4096x16 .bf16) : Vec F S256x4096 .f32 :=
  if h : c7 i then (Rect.unit (s := S256x4096) ![0, 0] S256x4096.size inb_S256x4096_S256x4096_0_0).overlay x8 (k0_pay10 (View.ld x12 (Rect.unit (s := S4096x16) (k0_off7 i) S256x16.size (k0_off7_inb i h))) (View.ld x12 (Rect.unit (s := S4096x16) ![0, 0] S4096x16.size inb_S4096x16_S4096x16_0_0))) else x8

set_option maxHeartbeats 4000000 in
/-- Conditional 1 on whole buffers at given contents, then the rest of the body: the buffers it stores into end at the
    contents named above, the others as they were. -/
theorem run_blk1 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x2 : Vec F S4096x16 .f32) (x4 : Vec F S16x32 .f32) (x10 : Vec F S4096x32 .bf16) (E : Set ℕ) (K : PUnit → sProp 𝕄) :
    iprop(owns (c : Thread nD τ) arg2 fullShare x2 ∗ owns (c : Thread nD τ) arg4 fullShare x4 ∗ owns (c : Thread nD τ) arg10 fullShare x10
        ∗ (iprop(owns (c : Thread nD τ) arg2 fullShare (x2) ∗ owns (c : Thread nD τ) arg4 fullShare (x4) ∗ owns (c : Thread nD τ) arg10 fullShare (p1 i x2 x4 x10)) -∗ wp frame (wpE (defs₀ (F := F)) Variants.none c none) E rest K))
      ⊢ wp frame (wpE (defs₀ (F := F)) Variants.none c none) E (blk1 i arg2 harg2 arg3 harg3 arg4 harg4 arg5 harg5 arg6 harg6 arg7 harg7 arg8 harg8 arg9 harg9 arg10 harg10 arg11 harg11 arg12 harg12 rest) K := by
  unfold blk1
  by_cases h : c1 i
  · unfold owns
    iintro ⟨⟨%f2, %hf2, H2⟩, ⟨%f4, %hf4, H4⟩, ⟨%f10, %hf10, H10⟩, Hk⟩
    obtain rfl := harg2.eq_unread hf2; obtain rfl := harg4.eq_unread hf4; obtain rfl := harg10.eq_unread hf10
    sl_exec (disch := first | exact h)
    iapply Hk
    simp only [p1, dif_pos h]
    isplitl [H2]
    · iexists _; isplitr; · ipureintro; exact harg2.read_unread _
      iexact H2
    isplitl [H4]
    · iexists _; isplitr; · ipureintro; exact harg4.read_unread _
      iexact H4
    iexists _; isplitr; swap; · iexact H10
    ipureintro; simp only [Cert.SLib.read_writes_single, Cert.SLib.readAt_unread]
  · unfold owns
    iintro ⟨⟨%f2, %hf2, H2⟩, ⟨%f4, %hf4, H4⟩, ⟨%f10, %hf10, H10⟩, Hk⟩
    obtain rfl := harg2.eq_unread hf2; obtain rfl := harg4.eq_unread hf4; obtain rfl := harg10.eq_unread hf10
    sl_exec (disch := first | exact h)
    iapply Hk
    simp only [p1, dif_neg h]
    isplitl [H2]
    · iexists _; isplitr; · ipureintro; exact harg2.read_unread _
      iexact H2
    isplitl [H4]
    · iexists _; isplitr; · ipureintro; exact harg4.read_unread _
      iexact H4
    iexists _; isplitr; · ipureintro; exact harg10.read_unread _
    iexact H10

set_option maxHeartbeats 4000000 in
/-- Conditional 2 on whole buffers at given contents, then the rest of the body: the buffers it stores into end at the
    contents named above, the others as they were. -/
theorem run_blk2 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x3 : Vec F S256x4096 .f32) (x9 : Vec F S4096x4096 .bf16) (x10 : Vec F S4096x32 .bf16) (x11 : Vec F S4096x32 .f32) (E : Set ℕ) (K : PUnit → sProp 𝕄) :
    iprop(owns (c : Thread nD τ) arg3 fullShare x3 ∗ owns (c : Thread nD τ) arg9 fullShare x9 ∗ owns (c : Thread nD τ) arg10 fullShare x10 ∗ owns (c : Thread nD τ) arg11 fullShare x11
        ∗ (iprop(owns (c : Thread nD τ) arg3 fullShare (x3) ∗ owns (c : Thread nD τ) arg9 fullShare (p2a i x3 x9) ∗ owns (c : Thread nD τ) arg10 fullShare (x10) ∗ owns (c : Thread nD τ) arg11 fullShare (p2h i x3 x10 x11)) -∗ wp frame (wpE (defs₀ (F := F)) Variants.none c none) E rest K))
      ⊢ wp frame (wpE (defs₀ (F := F)) Variants.none c none) E (blk2 i arg2 harg2 arg3 harg3 arg4 harg4 arg5 harg5 arg6 harg6 arg7 harg7 arg8 harg8 arg9 harg9 arg10 harg10 arg11 harg11 arg12 harg12 rest) K := by
  unfold blk2
  by_cases h : c2 i
  · unfold owns
    iintro ⟨⟨%f3, %hf3, H3⟩, ⟨%f9, %hf9, H9⟩, ⟨%f10, %hf10, H10⟩, ⟨%f11, %hf11, H11⟩, Hk⟩
    obtain rfl := harg3.eq_unread hf3; obtain rfl := harg9.eq_unread hf9; obtain rfl := harg10.eq_unread hf10; obtain rfl := harg11.eq_unread hf11
    sl_exec (disch := first | exact h)
    iapply Hk
    simp only [p2a, p2h, dif_pos h]
    isplitl [H3]
    · iexists _; isplitr; · ipureintro; exact harg3.read_unread _
      iexact H3
    isplitl [H9]
    · iexists _; isplitr; swap; · iexact H9
      ipureintro; simp only [Cert.SLib.read_writes_single, Cert.SLib.readAt_unread]
    isplitl [H10]
    · iexists _; isplitr; · ipureintro; exact harg10.read_unread _
      iexact H10
    iexists _; isplitr; swap; · iexact H11
    ipureintro; simp only [Cert.SLib.read_writes_single, Cert.SLib.readAt_unread]
  · unfold owns
    iintro ⟨⟨%f3, %hf3, H3⟩, ⟨%f9, %hf9, H9⟩, ⟨%f10, %hf10, H10⟩, ⟨%f11, %hf11, H11⟩, Hk⟩
    obtain rfl := harg3.eq_unread hf3; obtain rfl := harg9.eq_unread hf9; obtain rfl := harg10.eq_unread hf10; obtain rfl := harg11.eq_unread hf11
    sl_exec (disch := first | exact h)
    iapply Hk
    simp only [p2a, p2h, dif_neg h]
    isplitl [H3]
    · iexists _; isplitr; · ipureintro; exact harg3.read_unread _
      iexact H3
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

set_option maxHeartbeats 4000000 in
/-- Conditional 3 on whole buffers at given contents, then the rest of the body: the buffers it stores into end at the
    contents named above, the others as they were. -/
theorem run_blk3 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x5 : Vec F S32x32 .f32) (x10 : Vec F S4096x32 .bf16) (x11 : Vec F S4096x32 .f32) (E : Set ℕ) (K : PUnit → sProp 𝕄) :
    iprop(owns (c : Thread nD τ) arg5 fullShare x5 ∗ owns (c : Thread nD τ) arg10 fullShare x10 ∗ owns (c : Thread nD τ) arg11 fullShare x11
        ∗ (iprop(owns (c : Thread nD τ) arg5 fullShare (x5) ∗ owns (c : Thread nD τ) arg10 fullShare (p3 i x5 x10 x11) ∗ owns (c : Thread nD τ) arg11 fullShare (x11)) -∗ wp frame (wpE (defs₀ (F := F)) Variants.none c none) E rest K))
      ⊢ wp frame (wpE (defs₀ (F := F)) Variants.none c none) E (blk3 i arg2 harg2 arg3 harg3 arg4 harg4 arg5 harg5 arg6 harg6 arg7 harg7 arg8 harg8 arg9 harg9 arg10 harg10 arg11 harg11 arg12 harg12 rest) K := by
  unfold blk3
  by_cases h : c3 i
  · unfold owns
    iintro ⟨⟨%f5, %hf5, H5⟩, ⟨%f10, %hf10, H10⟩, ⟨%f11, %hf11, H11⟩, Hk⟩
    obtain rfl := harg5.eq_unread hf5; obtain rfl := harg10.eq_unread hf10; obtain rfl := harg11.eq_unread hf11
    sl_exec (disch := first | exact h)
    iapply Hk
    simp only [p3, dif_pos h]
    isplitl [H5]
    · iexists _; isplitr; · ipureintro; exact harg5.read_unread _
      iexact H5
    isplitl [H10]
    · iexists _; isplitr; swap; · iexact H10
      ipureintro; simp only [Cert.SLib.read_writes_single, Cert.SLib.readAt_unread]
    iexists _; isplitr; · ipureintro; exact harg11.read_unread _
    iexact H11
  · unfold owns
    iintro ⟨⟨%f5, %hf5, H5⟩, ⟨%f10, %hf10, H10⟩, ⟨%f11, %hf11, H11⟩, Hk⟩
    obtain rfl := harg5.eq_unread hf5; obtain rfl := harg10.eq_unread hf10; obtain rfl := harg11.eq_unread hf11
    sl_exec (disch := first | exact h)
    iapply Hk
    simp only [p3, dif_neg h]
    isplitl [H5]
    · iexists _; isplitr; · ipureintro; exact harg5.read_unread _
      iexact H5
    isplitl [H10]
    · iexists _; isplitr; · ipureintro; exact harg10.read_unread _
      iexact H10
    iexists _; isplitr; · ipureintro; exact harg11.read_unread _
    iexact H11

set_option maxHeartbeats 4000000 in
/-- Conditional 4 on whole buffers at given contents, then the rest of the body: the buffers it stores into end at the
    contents named above, the others as they were. -/
theorem run_blk4 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x9 : Vec F S4096x4096 .bf16) (x10 : Vec F S4096x32 .bf16) (x11 : Vec F S4096x32 .f32) (E : Set ℕ) (K : PUnit → sProp 𝕄) :
    iprop(owns (c : Thread nD τ) arg9 fullShare x9 ∗ owns (c : Thread nD τ) arg10 fullShare x10 ∗ owns (c : Thread nD τ) arg11 fullShare x11
        ∗ (iprop(owns (c : Thread nD τ) arg9 fullShare (x9) ∗ owns (c : Thread nD τ) arg10 fullShare (x10) ∗ owns (c : Thread nD τ) arg11 fullShare (p4 i x9 x10 x11)) -∗ wp frame (wpE (defs₀ (F := F)) Variants.none c none) E rest K))
      ⊢ wp frame (wpE (defs₀ (F := F)) Variants.none c none) E (blk4 i arg2 harg2 arg3 harg3 arg4 harg4 arg5 harg5 arg6 harg6 arg7 harg7 arg8 harg8 arg9 harg9 arg10 harg10 arg11 harg11 arg12 harg12 rest) K := by
  unfold blk4
  by_cases h : c4 i
  · unfold owns
    iintro ⟨⟨%f9, %hf9, H9⟩, ⟨%f10, %hf10, H10⟩, ⟨%f11, %hf11, H11⟩, Hk⟩
    obtain rfl := harg9.eq_unread hf9; obtain rfl := harg10.eq_unread hf10; obtain rfl := harg11.eq_unread hf11
    sl_exec (disch := first | exact h)
    iapply Hk
    simp only [p4, dif_pos h]
    isplitl [H9]
    · iexists _; isplitr; · ipureintro; exact harg9.read_unread _
      iexact H9
    isplitl [H10]
    · iexists _; isplitr; · ipureintro; exact harg10.read_unread _
      iexact H10
    iexists _; isplitr; swap; · iexact H11
    ipureintro; simp only [Cert.SLib.read_writes_single, Cert.SLib.readAt_unread]
  · unfold owns
    iintro ⟨⟨%f9, %hf9, H9⟩, ⟨%f10, %hf10, H10⟩, ⟨%f11, %hf11, H11⟩, Hk⟩
    obtain rfl := harg9.eq_unread hf9; obtain rfl := harg10.eq_unread hf10; obtain rfl := harg11.eq_unread hf11
    sl_exec (disch := first | exact h)
    iapply Hk
    simp only [p4, dif_neg h]
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11

set_option maxHeartbeats 4000000 in
/-- Conditional 5 on whole buffers at given contents, then the rest of the body: the buffers it stores into end at the
    contents named above, the others as they were. -/
theorem run_blk5 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x6 : Vec F S32x32 .f32) (x10 : Vec F S4096x32 .bf16) (x11 : Vec F S4096x32 .f32) (E : Set ℕ) (K : PUnit → sProp 𝕄) :
    iprop(owns (c : Thread nD τ) arg6 fullShare x6 ∗ owns (c : Thread nD τ) arg10 fullShare x10 ∗ owns (c : Thread nD τ) arg11 fullShare x11
        ∗ (iprop(owns (c : Thread nD τ) arg6 fullShare (x6) ∗ owns (c : Thread nD τ) arg10 fullShare (p5 i x6 x10 x11) ∗ owns (c : Thread nD τ) arg11 fullShare (x11)) -∗ wp frame (wpE (defs₀ (F := F)) Variants.none c none) E rest K))
      ⊢ wp frame (wpE (defs₀ (F := F)) Variants.none c none) E (blk5 i arg2 harg2 arg3 harg3 arg4 harg4 arg5 harg5 arg6 harg6 arg7 harg7 arg8 harg8 arg9 harg9 arg10 harg10 arg11 harg11 arg12 harg12 rest) K := by
  unfold blk5
  by_cases h : c5 i
  · unfold owns
    iintro ⟨⟨%f6, %hf6, H6⟩, ⟨%f10, %hf10, H10⟩, ⟨%f11, %hf11, H11⟩, Hk⟩
    obtain rfl := harg6.eq_unread hf6; obtain rfl := harg10.eq_unread hf10; obtain rfl := harg11.eq_unread hf11
    sl_exec (disch := first | exact h)
    iapply Hk
    simp only [p5, dif_pos h]
    isplitl [H6]
    · iexists _; isplitr; · ipureintro; exact harg6.read_unread _
      iexact H6
    isplitl [H10]
    · iexists _; isplitr; swap; · iexact H10
      ipureintro; simp only [Cert.SLib.read_writes_single, Cert.SLib.readAt_unread]
    iexists _; isplitr; · ipureintro; exact harg11.read_unread _
    iexact H11
  · unfold owns
    iintro ⟨⟨%f6, %hf6, H6⟩, ⟨%f10, %hf10, H10⟩, ⟨%f11, %hf11, H11⟩, Hk⟩
    obtain rfl := harg6.eq_unread hf6; obtain rfl := harg10.eq_unread hf10; obtain rfl := harg11.eq_unread hf11
    sl_exec (disch := first | exact h)
    iapply Hk
    simp only [p5, dif_neg h]
    isplitl [H6]
    · iexists _; isplitr; · ipureintro; exact harg6.read_unread _
      iexact H6
    isplitl [H10]
    · iexists _; isplitr; · ipureintro; exact harg10.read_unread _
      iexact H10
    iexists _; isplitr; · ipureintro; exact harg11.read_unread _
    iexact H11

set_option maxHeartbeats 4000000 in
/-- Conditional 6 on whole buffers at given contents, then the rest of the body: the buffers it stores into end at the
    contents named above, the others as they were. -/
theorem run_blk6 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x7 : Vec F S4096x16 .f32) (x9 : Vec F S4096x4096 .bf16) (x10 : Vec F S4096x32 .bf16) (x12 : Vec F S4096x16 .bf16) (E : Set ℕ) (K : PUnit → sProp 𝕄) :
    iprop(owns (c : Thread nD τ) arg7 fullShare x7 ∗ owns (c : Thread nD τ) arg9 fullShare x9 ∗ owns (c : Thread nD τ) arg10 fullShare x10 ∗ owns (c : Thread nD τ) arg12 fullShare x12
        ∗ (iprop(owns (c : Thread nD τ) arg7 fullShare (p6o i x7 x9 x10) ∗ owns (c : Thread nD τ) arg9 fullShare (x9) ∗ owns (c : Thread nD τ) arg10 fullShare (x10) ∗ owns (c : Thread nD τ) arg12 fullShare (p6z i x9 x10 x12)) -∗ wp frame (wpE (defs₀ (F := F)) Variants.none c none) E rest K))
      ⊢ wp frame (wpE (defs₀ (F := F)) Variants.none c none) E (blk6 i arg2 harg2 arg3 harg3 arg4 harg4 arg5 harg5 arg6 harg6 arg7 harg7 arg8 harg8 arg9 harg9 arg10 harg10 arg11 harg11 arg12 harg12 rest) K := by
  unfold blk6
  by_cases h : c6 i
  · unfold owns
    iintro ⟨⟨%f7, %hf7, H7⟩, ⟨%f9, %hf9, H9⟩, ⟨%f10, %hf10, H10⟩, ⟨%f12, %hf12, H12⟩, Hk⟩
    obtain rfl := harg7.eq_unread hf7; obtain rfl := harg9.eq_unread hf9; obtain rfl := harg10.eq_unread hf10; obtain rfl := harg12.eq_unread hf12
    sl_exec (disch := first | exact h)
    iapply Hk
    simp only [p6o, p6z, dif_pos h]
    isplitl [H7]
    · iexists _; isplitr; swap; · iexact H7
      ipureintro; simp only [Cert.SLib.read_writes_single, Cert.SLib.readAt_unread]
    isplitl [H9]
    · iexists _; isplitr; · ipureintro; exact harg9.read_unread _
      iexact H9
    isplitl [H10]
    · iexists _; isplitr; · ipureintro; exact harg10.read_unread _
      iexact H10
    iexists _; isplitr; swap; · iexact H12
    ipureintro; simp only [Cert.SLib.read_writes_single, Cert.SLib.readAt_unread]
  · unfold owns
    iintro ⟨⟨%f7, %hf7, H7⟩, ⟨%f9, %hf9, H9⟩, ⟨%f10, %hf10, H10⟩, ⟨%f12, %hf12, H12⟩, Hk⟩
    obtain rfl := harg7.eq_unread hf7; obtain rfl := harg9.eq_unread hf9; obtain rfl := harg10.eq_unread hf10; obtain rfl := harg12.eq_unread hf12
    sl_exec (disch := first | exact h)
    iapply Hk
    simp only [p6o, p6z, dif_neg h]
    isplitl [H7]
    · iexists _; isplitr; · ipureintro; exact harg7.read_unread _
      iexact H7
    isplitl [H9]
    · iexists _; isplitr; · ipureintro; exact harg9.read_unread _
      iexact H9
    isplitl [H10]
    · iexists _; isplitr; · ipureintro; exact harg10.read_unread _
      iexact H10
    iexists _; isplitr; · ipureintro; exact harg12.read_unread _
    iexact H12

set_option maxHeartbeats 4000000 in
/-- Conditional 7 on whole buffers at given contents, then the rest of the body: the buffers it stores into end at the
    contents named above, the others as they were. -/
theorem run_blk7 (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole) (rest : Prog (TpuEff nD τ sig (Elt F) Λ₀ .tc) PUnit)
    (x8 : Vec F S256x4096 .f32) (x12 : Vec F S4096x16 .bf16) (E : Set ℕ) (K : PUnit → sProp 𝕄) :
    iprop(owns (c : Thread nD τ) arg8 fullShare x8 ∗ owns (c : Thread nD τ) arg12 fullShare x12
        ∗ (iprop(owns (c : Thread nD τ) arg8 fullShare (p7 i x8 x12) ∗ owns (c : Thread nD τ) arg12 fullShare (x12)) -∗ wp frame (wpE (defs₀ (F := F)) Variants.none c none) E rest K))
      ⊢ wp frame (wpE (defs₀ (F := F)) Variants.none c none) E (blk7 i arg2 harg2 arg3 harg3 arg4 harg4 arg5 harg5 arg6 harg6 arg7 harg7 arg8 harg8 arg9 harg9 arg10 harg10 arg11 harg11 arg12 harg12 rest) K := by
  unfold blk7
  by_cases h : c7 i
  · unfold owns
    iintro ⟨⟨%f8, %hf8, H8⟩, ⟨%f12, %hf12, H12⟩, Hk⟩
    obtain rfl := harg8.eq_unread hf8; obtain rfl := harg12.eq_unread hf12
    sl_exec (disch := first | exact h)
    iapply Hk
    simp only [p7, dif_pos h]
    isplitl [H8]
    · iexists _; isplitr; swap; · iexact H8
      ipureintro; simp only [Cert.SLib.read_writes_single, Cert.SLib.readAt_unread]
    iexists _; isplitr; · ipureintro; exact harg12.read_unread _
    iexact H12
  · unfold owns
    iintro ⟨⟨%f8, %hf8, H8⟩, ⟨%f12, %hf12, H12⟩, Hk⟩
    obtain rfl := harg8.eq_unread hf8; obtain rfl := harg12.eq_unread hf12
    sl_exec (disch := first | exact h)
    iapply Hk
    simp only [p7, dif_neg h]
    isplitl [H8]
    · iexists _; isplitr; · ipureintro; exact harg8.read_unread _
      iexact H8
    iexists _; isplitr; · ipureintro; exact harg12.read_unread _
    iexact H12

set_option maxHeartbeats 4000000 in
/-- THE BODY at any grid point on whole buffers at any contents: every buffer ends at the contents the seven conditionals
    leave one after the other, the five inputs as they were. -/
theorem sound_body (c : Dev nD) (i : grid0.Coords) (arg2 : Memref sig .tc .vmem S4096x16 .f32) (harg2 : arg2.IsWhole) (arg3 : Memref sig .tc .vmem S256x4096 .f32) (harg3 : arg3.IsWhole) (arg4 : Memref sig .tc .vmem S16x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S4096x16 .f32) (harg7 : arg7.IsWhole) (arg8 : Memref sig .tc .vmem S256x4096 .f32) (harg8 : arg8.IsWhole) (arg9 : Memref sig .tc .vmem S4096x4096 .bf16) (harg9 : arg9.IsWhole) (arg10 : Memref sig .tc .vmem S4096x32 .bf16) (harg10 : arg10.IsWhole) (arg11 : Memref sig .tc .vmem S4096x32 .f32) (harg11 : arg11.IsWhole) (arg12 : Memref sig .tc .vmem S4096x16 .bf16) (harg12 : arg12.IsWhole)
    (x2 : Vec F S4096x16 .f32) (x3 : Vec F S256x4096 .f32) (x4 : Vec F S16x32 .f32) (x5 : Vec F S32x32 .f32) (x6 : Vec F S32x32 .f32) (x7 : Vec F S4096x16 .f32) (x8 : Vec F S256x4096 .f32) (x9 : Vec F S4096x4096 .bf16) (x10 : Vec F S4096x32 .bf16) (x11 : Vec F S4096x32 .f32) (x12 : Vec F S4096x16 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (p6o i (x7) (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))))
          ∗ owns (c : Thread nD τ) arg8 fullShare (p7 i (x8) (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12)))
          ∗ owns (c : Thread nD τ) arg9 fullShare (p2a i (x3) (x9))
          ∗ owns (c : Thread nD τ) arg10 fullShare (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11))))
          ∗ owns (c : Thread nD τ) arg11 fullShare (p4 i (p2a i (x3) (x9)) (p3 i (x5) (p1 i (x2) (x4) (x10)) (p2h i (x3) (p1 i (x2) (x4) (x10)) (x11))) (p2h i (x3) (p1 i (x2) (x4) (x10)) (x11)))
          ∗ owns (c : Thread nD τ) arg12 fullShare (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12) K := by
  rw [cc0__fused_body_eq_skeleton, skel_eq_blocks]
  iintro ⟨H2, H3, H4, H5, H6, H7, H8, H9, H10, H11, H12, Hk⟩
  iapply (run_blk1 c i arg2 harg2 arg3 harg3 arg4 harg4 arg5 harg5 arg6 harg6 arg7 harg7 arg8 harg8 arg9 harg9 arg10 harg10 arg11 harg11 arg12 harg12 (blk2 i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))))))) (x2) (x4) (x10) E K)
  isplitl [H2]; · iexact H2
  isplitl [H4]; · iexact H4
  isplitl [H10]; · iexact H10
  iintro ⟨H2, H4, H10⟩
  iapply (run_blk2 c i arg2 harg2 arg3 harg3 arg4 harg4 arg5 harg5 arg6 harg6 arg7 harg7 arg8 harg8 arg9 harg9 arg10 harg10 arg11 harg11 arg12 harg12 (blk3 i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))))) (x3) (x9) (p1 i (x2) (x4) (x10)) (x11) E K)
  isplitl [H3]; · iexact H3
  isplitl [H9]; · iexact H9
  isplitl [H10]; · iexact H10
  isplitl [H11]; · iexact H11
  iintro ⟨H3, H9, H10, H11⟩
  iapply (run_blk3 c i arg2 harg2 arg3 harg3 arg4 harg4 arg5 harg5 arg6 harg6 arg7 harg7 arg8 harg8 arg9 harg9 arg10 harg10 arg11 harg11 arg12 harg12 (blk4 i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))))) (x5) (p1 i (x2) (x4) (x10)) (p2h i (x3) (p1 i (x2) (x4) (x10)) (x11)) E K)
  isplitl [H5]; · iexact H5
  isplitl [H10]; · iexact H10
  isplitl [H11]; · iexact H11
  iintro ⟨H5, H10, H11⟩
  iapply (run_blk4 c i arg2 harg2 arg3 harg3 arg4 harg4 arg5 harg5 arg6 harg6 arg7 harg7 arg8 harg8 arg9 harg9 arg10 harg10 arg11 harg11 arg12 harg12 (blk5 i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)))) (p2a i (x3) (x9)) (p3 i (x5) (p1 i (x2) (x4) (x10)) (p2h i (x3) (p1 i (x2) (x4) (x10)) (x11))) (p2h i (x3) (p1 i (x2) (x4) (x10)) (x11)) E K)
  isplitl [H9]; · iexact H9
  isplitl [H10]; · iexact H10
  isplitl [H11]; · iexact H11
  iintro ⟨H9, H10, H11⟩
  iapply (run_blk5 c i arg2 harg2 arg3 harg3 arg4 harg4 arg5 harg5 arg6 harg6 arg7 harg7 arg8 harg8 arg9 harg9 arg10 harg10 arg11 harg11 arg12 harg12 (blk6 i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩))) (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11))) E K)
  isplitl [H6]; · iexact H6
  isplitl [H10]; · iexact H10
  isplitl [H11]; · iexact H11
  iintro ⟨H6, H10, H11⟩
  iapply (run_blk6 c i arg2 harg2 arg3 harg3 arg4 harg4 arg5 harg5 arg6 harg6 arg7 harg7 arg8 harg8 arg9 harg9 arg10 harg10 arg11 harg11 arg12 harg12 (blk7 i arg2 harg2 arg3 harg3 arg4 harg4 arg5 harg5 arg6 harg6 arg7 harg7 arg8 harg8 arg9 harg9 arg10 harg10 arg11 harg11 arg12 harg12 (pure ⟨⟩)) (x7) (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12) E K)
  isplitl [H7]; · iexact H7
  isplitl [H9]; · iexact H9
  isplitl [H10]; · iexact H10
  isplitl [H12]; · iexact H12
  iintro ⟨H7, H9, H10, H12⟩
  iapply (run_blk7 c i arg2 harg2 arg3 harg3 arg4 harg4 arg5 harg5 arg6 harg6 arg7 harg7 arg8 harg8 arg9 harg9 arg10 harg10 arg11 harg11 arg12 harg12 (pure ⟨⟩) (x8) (p6z i (p2a i (x3) (x9)) (p5 i (x6) (p3 i (x5) (p1 i (x2) (x4) (x10)) (p2h i (x3) (p1 i (x2) (x4) (x10)) (x11))) (p4 i (p2a i (x3) (x9)) (p3 i (x5) (p1 i (x2) (x4) (x10)) (p2h i (x3) (p1 i (x2) (x4) (x10)) (x11))) (p2h i (x3) (p1 i (x2) (x4) (x10)) (x11)))) (x12)) E K)
  isplitl [H8]; · iexact H8
  isplitl [H12]; · iexact H12
  iintro ⟨H8, H12⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Body

end
-- ==== Proof.Ideal.Traj.lean ====
/-
  What the kernel's four carried buffers and two results hold, phase by phase, as functions of the argument arrays alone.

  Grid point `t = 16·phase + band`. Phase 0 streams the adjacency in sixteen 256-row bands: band `b` is kept in narrow format
  (`AB b`) and its rectified product with the first support `S1` (the features times the first weight, computed at point 0)
  gives band `b` of the first activations (`H1B b`); at point 15 the second support `S2` is the assembled activations times
  the second weight. Phase 1 repeats this from the resident bands (`H2B b`, then `S3` at point 31 with the padded third weight).
  Phase 2 gives band `b` of the first result (`ZHB b`: the first sixteen columns, rectified) and its narrow copy (`ZBB b`).
  Phase 3 gives band `b` of the second result (`OUTB b`) from band `b` of the narrow copy against the whole narrow copy.
-/
import proofs.«136274_g82781199663863_cont_9to1_m_1005_4_alg».proof.Proof.Ideal.Body
import proofs.«136274_g82781199663863_cont_9to1_m_1005_4_alg».proof.Proof.LibRowBands

set_option maxRecDepth 16384

noncomputable section

namespace Cert.KernelIdeal.Traj

open Cert.KernelIdeal Cert.KernelIdeal.Gen Cert.Bands
open Idealize.ShloMosaic Idealize.ShloMosaic.TcCoe
open Idealize.SL Idealize.SL.Sem

variable {F : FTy → Type} [FloatOps F]
variable (m : (ℓ : Loc nD τ sig) → Buf (Elt F) ℓ) (c : Dev nD)

/-- Grid point number `n`. -/
def pt (n : ℕ) (h : n < 64) : Fin cfg0.N := ⟨n, lt_of_lt_of_eq h N_0.symm⟩

/-- The features, the weights and the adjacency band as the body finds them staged at a point. -/
def zAt (t : Fin cfg0.N) : Vec F S4096x16 .f32 := iblk m c 0 t
def adjAt (t : Fin cfg0.N) : Vec F S256x4096 .f32 := iblk m c 1 t
def w4At (t : Fin cfg0.N) : Vec F S16x32 .f32 := iblk m c 2 t
def w5At (t : Fin cfg0.N) : Vec F S32x32 .f32 := iblk m c 3 t
def w6At (t : Fin cfg0.N) : Vec F S32x32 .f32 := iblk m c 4 t

/-- The point of phase 0 that streams band `b`. -/
def ptB (b : Fin 16) : Fin cfg0.N := pt b.val (by have := b.isLt; omega)

/-- The first support: features times first weight (point 0). -/
def S1 : Vec F S4096x32 .bf16 := k0_pay1 (zAt m c (pt 0 (by decide))) (w4At m c (pt 0 (by decide)))
/-- Band `b` of the adjacency in the narrow format. -/
def AB (b : Fin 16) : Vec F S256x4096 .bf16 := k0_pay3 (adjAt m c (ptB b))
/-- Band `b` of the first activations. -/
def H1B (b : Fin 16) : Vec F S256x32 .f32 := k0_pay4 (adjAt m c (ptB b)) (S1 m c)
/-- The second support (point 15). -/
def S2 : Vec F S4096x32 .bf16 := k0_pay5 (asm 32 (H1B m c)) (w5At m c (pt 15 (by decide)))
/-- Band `b` of the second activations. -/
def H2B (b : Fin 16) : Vec F S256x32 .f32 := k0_pay6 (AB m c b) (S2 m c)
/-- The third support (point 31), over the padded third weight. -/
def S3 : Vec F S4096x32 .bf16 := k0_pay7 (asm 32 (H2B m c)) (w6At m c (pt 31 (by decide)))
/-- Band `b` of the first result, -/
def ZHB (b : Fin 16) : Vec F S256x16 .f32 := k0_pay8 (AB m c b) (S3 m c)
/-- and of its narrow copy. -/
def ZBB (b : Fin 16) : Vec F S256x16 .bf16 := k0_pay9 (AB m c b) (S3 m c)
/-- Band `b` of the second result. -/
def OUTB (b : Fin 16) : Vec F S256x4096 .f32 := k0_pay10 (ZBB m c b) (asm 16 (ZBB m c))

/-- The first result, whole. -/
def ZH : Vec F S4096x16 .f32 := asm 16 (ZHB m c)
/-- The second result, whole. -/
def OUT : (Sh 4096 4096).Idx → Elt F .f32 := asm 4096 (OUTB m c)

end Cert.KernelIdeal.Traj

end
-- ==== Proof.Ideal.Inv.lean ====
/-
  The invariant the body keeps between grid points, and that every point preserves it.

  Before point `n` the resident adjacency holds its first `min n 16` bands; the support buffer holds the first, second or
  third support according to the phase; the activation buffer holds the bands of the first activations stored so far in
  phase 0 and those of the second activations in phase 1; the narrow copy of the first result holds the bands stored so far
  in phase 2. Bands not yet stored hold whatever they held. One point stores one band (and, at the last band of phases 0 and
  1, the next support), so the invariant moves from `n` to `n + 1`; the two result blocks are written by the pure values
  named in the trajectory.
-/
import proofs.«136274_g82781199663863_cont_9to1_m_1005_4_alg».proof.Proof.Ideal.Traj
import proofs.«136274_g82781199663863_cont_9to1_m_1005_4_alg».proof.Proof.LibRowBands
import Idealize.ShloMosaic.Lib.Pipeline.Value

set_option maxRecDepth 16384

noncomputable section

namespace Cert.KernelIdeal.Inv

open Cert.KernelIdeal Cert.KernelIdeal.Gen Cert.KernelIdeal.Body Cert.KernelIdeal.Traj Cert.Bands
open Idealize.ShloMosaic Idealize.ShloMosaic.TcCoe
open Idealize.SL Idealize.SL.Sem

variable {F : FTy → Type} [FloatOps F]
variable (m : (ℓ : Loc nD τ sig) → Buf (Elt F) ℓ) (c : Dev nD)

/-! ## The conditions and the offsets, over the sixty-four points -/

/-- Each condition as arithmetic on the point's number. -/
theorem conds : ∀ t : Fin cfg0.N,
    (c1 (grid0.coords t) ↔ t.val = 0) ∧ (c2 (grid0.coords t) ↔ t.val < 16) ∧ (c3 (grid0.coords t) ↔ t.val = 15) ∧
    (c4 (grid0.coords t) ↔ (16 ≤ t.val ∧ t.val < 32)) ∧ (c5 (grid0.coords t) ↔ t.val = 31) ∧
    (c6 (grid0.coords t) ↔ (32 ≤ t.val ∧ t.val < 48)) ∧ (c7 (grid0.coords t) ↔ 48 ≤ t.val) :=
  (by decide +kernel : ∀ t : Fin grid0.N, _)

/-- The band coordinate of a point is its number modulo sixteen. -/
theorem coord1 : ∀ t : Fin cfg0.N, ((grid0.coords t) 1).val = t.val % 16 :=
  (by decide +kernel : ∀ t : Fin grid0.N, _)

/-- The band a point works on. -/
def bnd (t : Fin cfg0.N) : Fin 16 := ⟨t.val % 16, Nat.mod_lt _ (by decide)⟩

theorem hz : (![0, 0] : Fin 2 → ℕ) = fun _ => 0 := funext fun a => by fin_cases a <;> rfl

/-- A rectangle of 256 rows at a computed row offset is the band, once the offset is known. -/
theorem overlay_off {n : ℕ} {α : Type} (b : Fin 16) (off : Fin 2 → ℕ)
    (pf : ∀ a, off a + (![256, n] : Fin 2 → ℕ) a ≤ (Sh 4096 n).size a) (e : off = ![256 * b.val, 0])
    (x : (Sh 4096 n).Idx → α) (w : (Sh 256 n).Idx → α) :
    (Rect.unit (s := Sh 4096 n) off ![256, n] pf).overlay x w = (band n b).overlay x w := by
  subst e; rfl

theorem ld_off {n : ℕ} {Val : EltTy → Type} {e' : EltTy} (b : Fin 16) (off : Fin 2 → ℕ)
    (pf : ∀ a, off a + (![256, n] : Fin 2 → ℕ) a ≤ (Sh 4096 n).size a) (e : off = ![256 * b.val, 0])
    (x : (Sh 4096 n).Idx → Val e') :
    View.ld x (Rect.unit (s := Sh 4096 n) off ![256, n] pf) = View.ld x (band n b) := by
  subst e; rfl

theorem off_eq (t : Fin cfg0.N) : (![256 * ((grid0.coords t) 1).val, 0] : Fin 2 → ℕ) = ![256 * (bnd t).val, 0] := by
  rw [coord1 t]; rfl

/-! ## What each conditional leaves, by the point's number -/

theorem p1_eq (t : Fin cfg0.N) (x2 : Vec F S4096x16 .f32) (x4 : Vec F S16x32 .f32) (x10 : Vec F S4096x32 .bf16) :
    p1 (grid0.coords t) x2 x4 x10 = if t.val = 0 then k0_pay1 x2 x4 else x10 := by
  unfold p1
  by_cases h : c1 (grid0.coords t)
  · rw [dif_pos h, if_pos ((conds t).1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).1.mpr e))]

theorem p2a_eq (t : Fin cfg0.N) (x3 : Vec F S256x4096 .f32) (x9 : Vec F S4096x4096 .bf16) :
    p2a (grid0.coords t) x3 x9 = if t.val < 16 then (band 4096 (bnd t)).overlay x9 (k0_pay3 x3) else x9 := by
  unfold p2a
  by_cases h : c2 (grid0.coords t)
  · rw [dif_pos h, if_pos ((conds t).2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    exact overlay_off (bnd t) _ _ ((k0_off1_eq _).trans (off_eq t)) _ _
  · rw [dif_neg h, if_neg (fun e => h ((conds t).2.1.mpr e))]

theorem p2h_eq (t : Fin cfg0.N) (x3 : Vec F S256x4096 .f32) (x10 : Vec F S4096x32 .bf16) (x11 : Vec F S4096x32 .f32) :
    p2h (grid0.coords t) x3 x10 x11 = if t.val < 16 then (band 32 (bnd t)).overlay x11 (k0_pay4 x3 x10) else x11 := by
  unfold p2h
  by_cases h : c2 (grid0.coords t)
  · rw [dif_pos h, if_pos ((conds t).2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    exact overlay_off (bnd t) _ _ ((k0_off2_eq _).trans (off_eq t)) _ _
  · rw [dif_neg h, if_neg (fun e => h ((conds t).2.1.mpr e))]

theorem p3_eq (t : Fin cfg0.N) (x5 : Vec F S32x32 .f32) (x10 : Vec F S4096x32 .bf16) (x11 : Vec F S4096x32 .f32) :
    p3 (grid0.coords t) x5 x10 x11 = if t.val = 15 then k0_pay5 x11 x5 else x10 := by
  unfold p3
  by_cases h : c3 (grid0.coords t)
  · rw [dif_pos h, if_pos ((conds t).2.2.1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).2.2.1.mpr e))]

theorem p4_eq (t : Fin cfg0.N) (x9 : Vec F S4096x4096 .bf16) (x10 : Vec F S4096x32 .bf16) (x11 : Vec F S4096x32 .f32) :
    p4 (grid0.coords t) x9 x10 x11
      = if 16 ≤ t.val ∧ t.val < 32 then (band 32 (bnd t)).overlay x11 (k0_pay6 (View.ld x9 (band 4096 (bnd t))) x10) else x11 := by
  unfold p4
  by_cases h : c4 (grid0.coords t)
  · rw [dif_pos h, if_pos ((conds t).2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off3_eq _).trans (off_eq t))]
    exact overlay_off (bnd t) _ _ ((k0_off4_eq _).trans (off_eq t)) _ _
  · rw [dif_neg h, if_neg (fun e => h ((conds t).2.2.2.1.mpr e))]

theorem p5_eq (t : Fin cfg0.N) (x6 : Vec F S32x32 .f32) (x10 : Vec F S4096x32 .bf16) (x11 : Vec F S4096x32 .f32) :
    p5 (grid0.coords t) x6 x10 x11 = if t.val = 31 then k0_pay7 x11 x6 else x10 := by
  unfold p5
  by_cases h : c5 (grid0.coords t)
  · rw [dif_pos h, if_pos ((conds t).2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
  · rw [dif_neg h, if_neg (fun e => h ((conds t).2.2.2.2.1.mpr e))]

theorem p6o_eq (t : Fin cfg0.N) (x7 : Vec F S4096x16 .f32) (x9 : Vec F S4096x4096 .bf16) (x10 : Vec F S4096x32 .bf16) :
    p6o (grid0.coords t) x7 x9 x10
      = if 32 ≤ t.val ∧ t.val < 48 then (band 16 (bnd t)).overlay x7 (k0_pay8 (View.ld x9 (band 4096 (bnd t))) x10) else x7 := by
  unfold p6o
  by_cases h : c6 (grid0.coords t)
  · rw [dif_pos h, if_pos ((conds t).2.2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off5_eq _).trans (off_eq t))]
    exact overlay_off (bnd t) _ _ ((k0_off6_eq _).trans (off_eq t)) _ _
  · rw [dif_neg h, if_neg (fun e => h ((conds t).2.2.2.2.2.1.mpr e))]

theorem p6z_eq (t : Fin cfg0.N) (x9 : Vec F S4096x4096 .bf16) (x10 : Vec F S4096x32 .bf16) (x12 : Vec F S4096x16 .bf16) :
    p6z (grid0.coords t) x9 x10 x12
      = if 32 ≤ t.val ∧ t.val < 48 then (band 16 (bnd t)).overlay x12 (k0_pay9 (View.ld x9 (band 4096 (bnd t))) x10) else x12 := by
  unfold p6z
  by_cases h : c6 (grid0.coords t)
  · rw [dif_pos h, if_pos ((conds t).2.2.2.2.2.1.mp h)]
    simp only [View.ld_unit_zero (S := S4096x16) hz, View.ld_unit_zero (S := S16x32) hz, View.ld_unit_zero (S := S32x32) hz, View.ld_unit_zero (S := S4096x32) hz, View.ld_unit_zero (S := S256x4096) hz]
    rw [ld_off (bnd t) _ _ ((k0_off5_eq _).trans (off_eq t))]
    exact overlay_off (bnd t) _ _ ((k0_off6_eq _).trans (off_eq t)) _ _
  · rw [dif_neg h, if_neg (fun e => h ((conds t).2.2.2.2.2.1.mpr e))]

theorem p7_eq (t : Fin cfg0.N) (x8 : Vec F S256x4096 .f32) (x12 : Vec F S4096x16 .bf16) :
    p7 (grid0.coords t) x8 x12 = if 48 ≤ t.val then k0_pay10 (View.ld x12 (band 16 (bnd t))) x12 else x8 := by
  unfold p7
  by_cases h : c7 (grid0.coords t)
  · rw [dif_pos h, if_pos ((conds t).2.2.2.2.2.2.mp h)]
    simp only [View.ld_unit_zero (S := S4096x16) hz, View.ld_unit_zero (S := S16x32) hz, View.ld_unit_zero (S := S32x32) hz, View.ld_unit_zero (S := S4096x32) hz, View.ld_unit_zero (S := S256x4096) hz, overlay_whole (S := S4096x32) hz, overlay_whole (S := S256x4096) hz]
    rw [ld_off (bnd t) _ _ ((k0_off7_eq _).trans (off_eq t))]
  · rw [dif_neg h, if_neg (fun e => h ((conds t).2.2.2.2.2.2.mpr e))]

/-! ## The invariant -/

/-- What the four carried buffers hold before point `n`. -/
def Inv (n : ℕ) (C0 : Vec F S4096x4096 .bf16) (C1 : Vec F S4096x32 .bf16) (C2 : Vec F S4096x32 .f32)
    (C3 : Vec F S4096x16 .bf16) : Prop :=
  (∀ b : Fin 16, b.val + 0 < n → View.ld C0 (band 4096 b) = AB m c b) ∧
  (1 ≤ n → n ≤ 15 → C1 = S1 m c) ∧ (16 ≤ n → n ≤ 31 → C1 = S2 m c) ∧ (32 ≤ n → C1 = S3 m c) ∧
  (∀ b : Fin 16, b.val + 0 < n → n ≤ 16 → View.ld C2 (band 32 b) = H1B m c b) ∧
  (∀ b : Fin 16, b.val + 16 < n → n ≤ 32 → View.ld C2 (band 32 b) = H2B m c b) ∧
  (∀ b : Fin 16, b.val + 32 < n → View.ld C3 (band 16 b) = ZBB m c b)

/-- Storing band `b` extends "the bands below `b` hold their values" by one. -/
theorem band_step {Val : EltTy → Type} {e : EltTy} (n : ℕ) (b : Fin 16) (x : (Sh 4096 n).Idx → Val e) (w : (Sh 256 n).Idx → Val e)
    (B : Fin 16 → (Sh 256 n).Idx → Val e) (s k : ℕ) (hb : b.val + s = k)
    (hold : ∀ b' : Fin 16, b'.val + s < k → View.ld x (band n b') = B b') (hw : w = B b) :
    ∀ b' : Fin 16, b'.val + s < k + 1 → View.ld ((band n b).overlay x w) (band n b') = B b' := by
  intro b' h
  by_cases e' : b' = b
  · subst e'; exact (ld_overlay_same n b' x w).trans hw
  · exact (ld_overlay_other n b b' e' x w).trans (hold b' (by have := Fin.val_ne_of_ne e'; omega))

/-- A point of phase 0 is the point that streams its own band. -/
theorem ptB_bnd (t : Fin cfg0.N) (h : t.val < 16) : ptB (bnd t) = t :=
  Fin.ext (Nat.mod_eq_of_lt h)

set_option maxHeartbeats 1600000 in
/-- ONE POINT: from the invariant before point `t`, with the five inputs at their staged blocks, the contents the body leaves
    satisfy the invariant before point `t + 1`, the first result's block gets band `t mod 16` of the first result in phase 2
    and is untouched elsewhere, and the second result's block is band `t mod 16` of the second result in phase 3. -/
theorem inv_step (t : Fin cfg0.N) (x2 : Vec F S4096x16 .f32) (x3 : Vec F S256x4096 .f32) (x4 : Vec F S16x32 .f32)
    (x5 x6 : Vec F S32x32 .f32) (e2 : x2 = zAt m c t) (e3 : x3 = adjAt m c t) (e4 : x4 = w4At m c t) (e5 : x5 = w5At m c t)
    (e6 : x6 = w6At m c t) (C0 : Vec F S4096x4096 .bf16) (C1 : Vec F S4096x32 .bf16) (C2 : Vec F S4096x32 .f32)
    (C3 : Vec F S4096x16 .bf16) (hI : Inv m c t.val C0 C1 C2 C3) :
    Inv m c (t.val + 1) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2))) (p6z (grid0.coords t) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (C3))
    ∧ (∀ x7 : Vec F S4096x16 .f32, (p6o (grid0.coords t) (x7) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2))))) = if 32 ≤ t.val ∧ t.val < 48 then (band 16 (bnd t)).overlay x7 (ZHB m c (bnd t)) else x7)
    ∧ (∀ x8 : Vec F S256x4096 .f32, (p7 (grid0.coords t) (x8) (p6z (grid0.coords t) (p2a (grid0.coords t) (x3) (C0)) (p5 (grid0.coords t) (x6) (p3 (grid0.coords t) (x5) (p1 (grid0.coords t) (x2) (x4) (C1)) (p2h (grid0.coords t) (x3) (p1 (grid0.coords t) (x2) (x4) (C1)) (C2))) (p4 (grid0.coords t) (p2a (grid0.coords t) (x3) (C0)) (p3 (grid0.coords t) (x5) (p1 (grid0.coords t) (x2) (x4) (C1)) (p2h (grid0.coords t) (x3) (p1 (grid0.coords t) (x2) (x4) (C1)) (C2))) (p2h (grid0.coords t) (x3) (p1 (grid0.coords t) (x2) (x4) (C1)) (C2)))) (C3))) = if 48 ≤ t.val then OUTB m c (bnd t) else x8) := by
  subst e2 e3 e4 e5 e6
  simp only [p1_eq, p2a_eq, p2h_eq, p3_eq, p4_eq, p5_eq, p6o_eq, p6z_eq, p7_eq]
  obtain ⟨i0, i1a, i1b, i1c, i2, i3, i4⟩ := hI
  have hN : t.val < 64 := lt_of_lt_of_eq t.isLt N_0
  have hbv : (bnd t).val = t.val % 16 := rfl
  by_cases hA : t.val = 0
  · -- the first point: the first support, band 0 of the adjacency and of the first activations
    have f2 : t.val < 16 := by omega
    have f3 : ¬ t.val = 15 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_pos hA, if_pos f2, if_neg f3, if_neg f4, if_neg f5, if_neg f6, if_neg f7]
    have et : pt 0 (by decide) = t := Fin.ext hA.symm
    have eS : k0_pay1 (zAt m c t) (w4At m c t) = S1 m c := by unfold S1; rw [et]
    have eB : ptB (bnd t) = t := ptB_bnd t f2
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ _; exact eS
    · intro h; omega
    · intro h; omega
    · intro b' h _
      exact band_step 32 (bnd t) C2 _ (H1B m c) 0 t.val (by omega) (fun b'' h'' => i2 b'' h'' (by omega))
        (by unfold H1B; rw [eB, eS]) b' h
    · intro b' h; omega
    · intro b' h; omega
  by_cases hB : t.val < 15
  · -- phase 0, not its last band
    have f2 : t.val < 16 := by omega
    have f3 : ¬ t.val = 15 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_neg hA, if_pos f2, if_neg f3, if_neg f4, if_neg f5, if_neg f6, if_neg f7]
    have eC : C1 = S1 m c := i1a (by omega) (by omega)
    have eB : ptB (bnd t) = t := ptB_bnd t f2
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ _; exact eC
    · intro h; omega
    · intro h; omega
    · intro b' h _
      exact band_step 32 (bnd t) C2 _ (H1B m c) 0 t.val (by omega) (fun b'' h'' => i2 b'' h'' (by omega))
        (by unfold H1B; rw [eB, eC]) b' h
    · intro b' h; omega
    · intro b' h; omega
  by_cases hC : t.val = 15
  · -- the last band of phase 0: the activations are complete and give the second support
    have f2 : t.val < 16 := by omega
    have f4 : ¬ (16 ≤ t.val ∧ t.val < 32) := by omega
    have f5 : ¬ t.val = 31 := by omega
    have f6 : ¬ (32 ≤ t.val ∧ t.val < 48) := by omega
    have f7 : ¬ 48 ≤ t.val := by omega
    simp only [if_neg hA, if_pos f2, if_pos hC, if_neg f4, if_neg f5, if_neg f6, if_neg f7]
    have eC : C1 = S1 m c := i1a (by omega) (by omega)
    have eB : ptB (bnd t) = t := ptB_bnd t f2
    have et : pt 15 (by decide) = t := Fin.ext hC.symm
    have hH : ∀ b' : Fin 16, b'.val + 0 < t.val + 1 →
        View.ld ((band 32 (bnd t)).overlay C2 (k0_pay4 (adjAt m c t) C1)) (band 32 b') = H1B m c b' :=
      band_step 32 (bnd t) C2 _ (H1B m c) 0 t.val (by omega) (fun b'' h'' => i2 b'' h'' (by omega))
        (by unfold H1B; rw [eB, eC])
    have eH : (band 32 (bnd t)).overlay C2 (k0_pay4 (adjAt m c t) C1) = asm 32 (H1B m c) :=
      eq_asm_of_bands 32 _ _ (fun b' => hH b' (by have := b'.isLt; omega))
    refine ⟨⟨?_, ?_, ?_, ?_, ?_, ?_, ?_⟩, by first | trivial | (intro _; trivial) | (intro _; rfl), by first | trivial | (intro _; trivial) | (intro _; rfl)⟩
    · exact band_step 4096 (bnd t) C0 _ (AB m c) 0 t.val (by omega) i0 (by unfold AB; rw [eB])
    · intro _ h; omega
    · intro _ _; rw [eH]; unfold S2; rw [et]
    · intro h; omega
    · intro b' h _; exact hH b' h
    · intro b' h; omega
    · intro b' h; omega
  by_cases hD : t.val < 31
  · -- phase 1, not its last band
    have f2 : ¬ t.val < 16 := by omega
    have f4 : 16 ≤ t.val ∧ t.val < 32 := by omega
    have f5 : ¬ t.val = 31 := by omega
    have f6 : ¬ (32 ≤ t.val ∧ t.val < 48) := by omega
    have f7 : ¬ 48 ≤ t.val := by omega
    simp only [if_neg hA, if_neg f2, if_neg hC, if_pos f4, if_neg f5, if_neg f6, if_neg f7]
    have eC : C1 = S2 m c := i1b (by omega) (by omega)
    have eA : View.ld C0 (band 4096 (bnd t)) = AB m c (bnd t) := i0 _ (by omega)
    refine ⟨⟨?_, ?_, ?_, ?_, ?_, ?_, ?_⟩, by first | trivial | (intro _; trivial) | (intro _; rfl), by first | trivial | (intro _; trivial) | (intro _; rfl)⟩
    · intro b' _; exact i0 b' (by have := b'.isLt; omega)
    · intro _ h; omega
    · intro _ _; exact eC
    · intro h; omega
    · intro b' _ h; omega
    · intro b' h _
      exact band_step 32 (bnd t) C2 _ (H2B m c) 16 t.val (by omega) (fun b'' h'' => i3 b'' h'' (by omega))
        (by unfold H2B; rw [eA, eC]) b' h
    · intro b' h; omega
  by_cases hE : t.val = 31
  · -- the last band of phase 1: the second activations are complete and give the third support
    have f2 : ¬ t.val < 16 := by omega
    have f4 : 16 ≤ t.val ∧ t.val < 32 := by omega
    have f6 : ¬ (32 ≤ t.val ∧ t.val < 48) := by omega
    have f7 : ¬ 48 ≤ t.val := by omega
    simp only [if_neg hA, if_neg f2, if_neg hC, if_pos f4, if_pos hE, if_neg f6, if_neg f7]
    have eC : C1 = S2 m c := i1b (by omega) (by omega)
    have eA : View.ld C0 (band 4096 (bnd t)) = AB m c (bnd t) := i0 _ (by omega)
    have et : pt 31 (by decide) = t := Fin.ext hE.symm
    have hH : ∀ b' : Fin 16, b'.val + 16 < t.val + 1 →
        View.ld ((band 32 (bnd t)).overlay C2 (k0_pay6 (View.ld C0 (band 4096 (bnd t))) C1)) (band 32 b') = H2B m c b' :=
      band_step 32 (bnd t) C2 _ (H2B m c) 16 t.val (by omega) (fun b'' h'' => i3 b'' h'' (by omega))
        (by unfold H2B; rw [eA, eC])
    have eH : (band 32 (bnd t)).overlay C2 (k0_pay6 (View.ld C0 (band 4096 (bnd t))) C1) = asm 32 (H2B m c) :=
      eq_asm_of_bands 32 _ _ (fun b' => hH b' (by have := b'.isLt; omega))
    refine ⟨⟨?_, ?_, ?_, ?_, ?_, ?_, ?_⟩, by first | trivial | (intro _; trivial) | (intro _; rfl), by first | trivial | (intro _; trivial) | (intro _; rfl)⟩
    · intro b' _; exact i0 b' (by have := b'.isLt; omega)
    · intro _ h; omega
    · intro _ h; omega
    · intro _; rw [eH]; unfold S3; rw [et]
    · intro b' _ h; omega
    · intro b' h _; exact hH b' h
    · intro b' h; omega
  by_cases hF : t.val < 48
  · -- phase 2: one band of the first result and of its narrow copy
    have f2 : ¬ t.val < 16 := by omega
    have f4 : ¬ (16 ≤ t.val ∧ t.val < 32) := by omega
    have f6 : 32 ≤ t.val ∧ t.val < 48 := by omega
    have f7 : ¬ 48 ≤ t.val := by omega
    simp only [if_neg hA, if_neg f2, if_neg hC, if_neg f4, if_neg hE, if_pos f6, if_neg f7]
    have eC : C1 = S3 m c := i1c (by omega)
    have eA : View.ld C0 (band 4096 (bnd t)) = AB m c (bnd t) := i0 _ (by have := (bnd t).isLt; omega)
    refine ⟨⟨?_, ?_, ?_, ?_, ?_, ?_, ?_⟩, ?_, by first | trivial | (intro _; trivial) | (intro _; rfl)⟩
    · intro b' _; exact i0 b' (by have := b'.isLt; omega)
    · intro _ h; omega
    · intro _ h; omega
    · intro _; exact eC
    · intro b' _ h; omega
    · intro b' _ h; omega
    · exact band_step 16 (bnd t) C3 _ (ZBB m c) 32 t.val (by omega) i4 (by unfold ZBB; rw [eA, eC])
    · intro x7; rw [eA, eC]; rfl
  · -- phase 3: one band of the second result
    have f2 : ¬ t.val < 16 := by omega
    have f4 : ¬ (16 ≤ t.val ∧ t.val < 32) := by omega
    have f6 : ¬ (32 ≤ t.val ∧ t.val < 48) := by omega
    have f7 : 48 ≤ t.val := by omega
    simp only [if_neg hA, if_neg f2, if_neg hC, if_neg f4, if_neg hE, if_neg f6, if_pos f7]
    have eZ : C3 = asm 16 (ZBB m c) := eq_asm_of_bands 16 _ _ (fun b' => i4 b' (by have := b'.isLt; omega))
    refine ⟨⟨?_, ?_, ?_, ?_, ?_, ?_, ?_⟩, by first | trivial | (intro _; trivial) | (intro _; rfl), ?_⟩
    · intro b' _; exact i0 b' (by have := b'.isLt; omega)
    · intro _ h; omega
    · intro _ h; omega
    · intro _; exact i1c (by omega)
    · intro b' _ h; omega
    · intro b' _ h; omega
    · intro b' _; exact i4 b' (by have := b'.isLt; omega)
    · intro x8; rw [i4 (bnd t) (by have := (bnd t).isLt; omega)]; unfold OUTB; rw [← eZ]

end Cert.KernelIdeal.Inv

end
-- ==== Proof.Ideal.Run.lean ====
/-
  The proof data of the pipelined call, the body's obligation at every grid point, and the run.

  Between points the four carried buffers hold contents satisfying the invariant; the five inputs' staging buffers hold
  their blocks and are left as found; the first result's staging buffer gets one row band per point of phase 2 and is
  otherwise left as found; the second result's gets its whole block at every point of phase 3 and is otherwise left as
  found. From these the launch theorem gives the run, and with it what each array may hold at the end.
-/
import proofs.«136274_g82781199663863_cont_9to1_m_1005_4_alg».proof.Proof.Ideal.Inv
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Body Cert.KernelIdeal.Traj Cert.KernelIdeal.Inv Cert.Bands
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four carried buffers, whole. -/
abbrev scM0 : Memref sig .tc .vmem S4096x4096 .bf16 := Memref.whole cc0_scratch0
abbrev scM1 : Memref sig .tc .vmem S4096x32 .bf16 := Memref.whole cc0_scratch1
abbrev scM2 : Memref sig .tc .vmem S4096x32 .f32 := Memref.whole cc0_scratch2
abbrev scM3 : Memref sig .tc .vmem S4096x16 .bf16 := Memref.whole cc0_scratch3

/-- What the launch hands the region besides the windows: the four carried buffers at some contents each, and the
    generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The region invariant before point `n`: the carried buffers at contents satisfying `Inv`. -/
def Phi (c : Dev nD) (n : ℕ) : sProp 𝕄 :=
  iprop(∃ C0 : Vec F S4096x4096 .bf16, ∃ C1 : Vec F S4096x32 .bf16, ∃ C2 : Vec F S4096x32 .f32, ∃ C3 : Vec F S4096x16 .bf16,
    ⌜Inv m c n C0 C1 C2 C3⌝ ∗ owns (c : Thread nD τ) scM0 fullShare C0 ∗ owns (c : Thread nD τ) scM1 fullShare C1
      ∗ owns (c : Thread nD τ) scM2 fullShare C2 ∗ owns (c : Thread nD τ) scM3 fullShare C3 ∗ (∃ r, prngReg c r))

/-- The proof data: the arrays as the region finds them; every input left as found; the first result's buffer given band
    `t mod 16` of the first result at the points of phase 2; the second result's buffer given band `t mod 16` of the second
    result at the points of phase 3. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = (if 32 ≤ t.val ∧ t.val < 48 then (band 16 (bnd t)).overlay Y (ZHB m c (bnd t)) else Y)
    | ⟨6, _⟩ => X = (if 48 ≤ t.val then OUTB m c (bnd t) else Y)
  Φ t := Phi m c t.val
  q _ := fullShare
  owed _ := 0

theorem A_eq (c : Dev nD) (w : Fin cfg0.W) : (rdat m c).A w = V m c (Pipeline.arrRef spec0 w) := by
  dsimp only [rdat]

/-! ## The inputs' staging buffers hold their blocks -/

theorem finds0 (c : Dev nD) (t : Fin cfg0.N) (Y) (h : (rdat m c).Finds 0 t Y) : Y = zAt m c t := by
  obtain ⟨d, hd⟩ := RDat.finds_in_eq_fetched (rdat m c) 0 rfl (fun _ _ _ => rfl) (fun _ _ _ h => by dsimp only [rdat] at h; exact h) t Y h
  rw [hd]; unfold RDat.fetched RDat.blockOf zAt iblk; rw [A_eq]; try rfl
theorem finds1 (c : Dev nD) (t : Fin cfg0.N) (Y) (h : (rdat m c).Finds 1 t Y) : Y = adjAt m c t := by
  obtain ⟨d, hd⟩ := RDat.finds_in_eq_fetched (rdat m c) 1 rfl (fun _ _ _ => rfl) (fun _ _ _ h => by dsimp only [rdat] at h; exact h) t Y h
  rw [hd]; unfold RDat.fetched RDat.blockOf adjAt iblk; rw [A_eq]; try rfl
theorem finds2 (c : Dev nD) (t : Fin cfg0.N) (Y) (h : (rdat m c).Finds 2 t Y) : Y = w4At m c t := by
  obtain ⟨d, hd⟩ := RDat.finds_in_eq_fetched (rdat m c) 2 rfl (fun _ _ _ => rfl) (fun _ _ _ h => by dsimp only [rdat] at h; exact h) t Y h
  rw [hd]; unfold RDat.fetched RDat.blockOf w4At iblk; rw [A_eq]; try rfl
theorem finds3 (c : Dev nD) (t : Fin cfg0.N) (Y) (h : (rdat m c).Finds 3 t Y) : Y = w5At m c t := by
  obtain ⟨d, hd⟩ := RDat.finds_in_eq_fetched (rdat m c) 3 rfl (fun _ _ _ => rfl) (fun _ _ _ h => by dsimp only [rdat] at h; exact h) t Y h
  rw [hd]; unfold RDat.fetched RDat.blockOf w5At iblk; rw [A_eq]; try rfl
theorem finds4 (c : Dev nD) (t : Fin cfg0.N) (Y) (h : (rdat m c).Finds 4 t Y) : Y = w6At m c t := by
  obtain ⟨d, hd⟩ := RDat.finds_in_eq_fetched (rdat m c) 4 rfl (fun _ _ _ => rfl) (fun _ _ _ h => by dsimp only [rdat] at h; exact h) t Y h
  rw [hd]; unfold RDat.fetched RDat.blockOf w6At iblk; rw [A_eq]; try rfl

/-! ## The body's obligation at a point -/

set_option maxHeartbeats 4000000 in
/-- At every point: from the invariant, what the core owes and the seven staging buffers at anything they may hold, the
    body runs to the invariant at the next point, the same owed, and each staging buffer at contents in its relation to
    what it was handed. -/
theorem sound_pt (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X)
            ∗ (∃ X, ⌜(rdat m c).after 5 t (Y 5) X⌝ ∗ owns (c : Thread nD τ) (st0_5 t) fullShare X)
            ∗ (∃ X, ⌜(rdat m c).after 6 t (Y 6) X⌝ ∗ owns (c : Thread nD τ) (st0_6 t) fullShare X))) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [show (rdat m c).owesAt () t.succ = (rdat m c).owesAt () t.castSucc from rfl]
  rw [show (rdat m c).Φ t.succ = Phi m c (t.val + 1) from rfl, show (rdat m c).Φ t.castSucc = Phi m c t.val from rfl]
  unfold Phi bodyAt0
  iintro ⟨⟨%C0, %C1, %C2, %C3, %hI, HS0, HS1, HS2, HS3, Hg⟩, Ho, H0, H1, H2, H3, H4, H5, H6⟩
  obtain ⟨hInv, h5, h6⟩ := inv_step m c t (Y 0) (Y 1) (Y 2) (Y 3) (Y 4) e0 e1 e2 e3 e4 C0 C1 C2 C3 hI
  iapply (sound_body c (grid0.coords t) _ _ _ _ _ _ _ _ _ _ _ _ _ _ _ _ _ _ _ _ _ _ (Y 0) (Y 1) (Y 2) (Y 3) (Y 4) (Y 5) (Y 6) C0 C1 C2 C3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · iexists _; iexists _; iexists _; iexists _
    isplitr; · ipureintro; exact hInv
    isplitl [HS0]; · iexact HS0
    isplitl [HS1]; · iexact HS1
    isplitl [HS2]; · iexact HS2
    isplitl [HS3]; · iexact HS3
    iexact Hg
  isplitl [Ho]; · iexact Ho
  isplitl [H0]
  · iexists _; isplitr; swap; · iexact H0
    ipureintro; dsimp only [rdat]
  isplitl [H1]
  · iexists _; isplitr; swap; · iexact H1
    ipureintro; dsimp only [rdat]
  isplitl [H2]
  · iexists _; isplitr; swap; · iexact H2
    ipureintro; dsimp only [rdat]
  isplitl [H3]
  · iexists _; isplitr; swap; · iexact H3
    ipureintro; dsimp only [rdat]
  isplitl [H4]
  · iexists _; isplitr; swap; · iexact H4
    ipureintro; dsimp only [rdat]
  isplitl [H5]
  · iexists _; isplitr; swap; · iexact H5
    ipureintro; dsimp only [rdat]; exact h5 (Y 5)
  · iexists _; isplitr; swap; · iexact H6
    ipureintro; dsimp only [rdat]; exact h6 (Y 6)

/-- The library's body obligation. -/
theorem body_obligation (c : Dev nD) : (rdat m c).BodyObligation (defs₀ (F := F)) Variants.none () Set.univ := fun t Y hY => by
  rw [bigSep_W0, bigSep_W0]
  exact sound_pt m c t Y hY

/-- Before the first point the invariant asks nothing of the carried buffers. -/
theorem hin (c : Dev nD) : Pipeline.ΦA spec0 c ⊢ (rdat m c).Φ 0 := by
  rw [show (rdat m c).Φ 0 = Phi m c 0 from rfl, PhiA0_eq]
  unfold Phi
  iintro ⟨⟨⟨%d0, H0⟩, ⟨%d1, H1⟩, ⟨%d2, H2⟩, ⟨%d3, H3⟩⟩, Hg⟩
  iexists d0; iexists d1; iexists d2; iexists d3
  isplitr
  · ipureintro
    exact ⟨fun b h => by omega, fun h => by omega, fun h => by omega, fun h => by omega, fun b h => by omega,
      fun b h => by omega, fun b h => by omega⟩
  isplitl [H0]; · iexact H0
  isplitl [H1]; · iexact H1
  isplitl [H2]; · iexact H2
  isplitl [H3]; · iexact H3
  iexact Hg

/-- After the last point what the carried buffers hold is forgotten. -/
theorem hout (c : Dev nD) : (rdat m c).Φ (Fin.last cfg0.N) ⊢ Pipeline.ΦA spec0 c := by
  rw [show (rdat m c).Φ (Fin.last cfg0.N) = Phi m c (Fin.last cfg0.N).val from rfl, PhiA0_eq]
  unfold Phi
  iintro ⟨%C0, %C1, %C2, %C3, -, H0, H1, H2, H3, Hg⟩
  isplitl [H0 H1 H2 H3]
  · isplitl [H0]; · iexists _; iexact H0
    isplitl [H1]; · iexists _; iexact H1
    isplitl [H2]; · iexists _; iexact H2
    iexists _; iexact H3
  iexact Hg

-- the launch theorem's implicit arguments are found by unifying its conclusion with this one
set_option backward.isDefEq.respectTransparency.types false in
/-- THE RUN: at the compiled mesh, for any values, from any memory with zero counters, every weakly fair execution of @main
    terminates, and at the end every array of the call holds contents the proof data allow and every other unscoped
    buffer what the region found. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

end Cert.KernelIdeal.Run

end
-- ==== Proof.Ideal.Frame.lean ====
/-
  The frame: the five argument arrays end as they were. Four of them are arrays of input windows, which the pipeline never
  writes back; the fifth bypasses the region (its padded copy is what the region stages).
-/
import proofs.«136274_g82781199663863_cont_9to1_m_1005_4_alg».proof.Proof.Ideal.Run

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (RDat)

variable {F : FTy → Type} [FloatOps F]
variable (m : (ℓ : Loc nD τ sig) → Buf (Elt F) ℓ) (ρ : Dev nD → PrngReg)

/-- An input window's array ends at what the region found, which is what was launched. -/
theorem kept0 (r : PUnit × MemSt nD τ sig (Elt F)) (h : Pipeline.RDat.FramePost cfg0 (rdat m) (V m) r) (c : Dev nD) :
    r.2.mem ((c.tc : Thread nD τ).loc main_arg0) = m ((c.tc : Thread nD τ).loc main_arg0) := by
  have h0 := (h c).1 0
  rw [RDat.ArrAt_in (rdat m c) 0 rfl] at h0
  exact h0.trans ((A_eq m c 0).trans (V_main_arg0 m c))
theorem kept1 (r : PUnit × MemSt nD τ sig (Elt F)) (h : Pipeline.RDat.FramePost cfg0 (rdat m) (V m) r) (c : Dev nD) :
    r.2.mem ((c.tc : Thread nD τ).loc main_arg1) = m ((c.tc : Thread nD τ).loc main_arg1) := by
  have h0 := (h c).1 1
  rw [RDat.ArrAt_in (rdat m c) 1 rfl] at h0
  exact h0.trans ((A_eq m c 1).trans (V_main_arg1 m c))
theorem kept2 (r : PUnit × MemSt nD τ sig (Elt F)) (h : Pipeline.RDat.FramePost cfg0 (rdat m) (V m) r) (c : Dev nD) :
    r.2.mem ((c.tc : Thread nD τ).loc main_arg2) = m ((c.tc : Thread nD τ).loc main_arg2) := by
  have h0 := (h c).1 2
  rw [RDat.ArrAt_in (rdat m c) 2 rfl] at h0
  exact h0.trans ((A_eq m c 2).trans (V_main_arg2 m c))
theorem kept3 (r : PUnit × MemSt nD τ sig (Elt F)) (h : Pipeline.RDat.FramePost cfg0 (rdat m) (V m) r) (c : Dev nD) :
    r.2.mem ((c.tc : Thread nD τ).loc main_arg3) = m ((c.tc : Thread nD τ).loc main_arg3) := by
  have h0 := (h c).1 3
  rw [RDat.ArrAt_in (rdat m c) 3 rfl] at h0
  exact h0.trans ((A_eq m c 3).trans (V_main_arg3 m c))
/-- The third weight bypasses the region. -/
theorem kept4 (r : PUnit × MemSt nD τ sig (Elt F)) (h : Pipeline.RDat.FramePost cfg0 (rdat m) (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- THE FRAME at any instance: every weakly fair execution terminates, faults nowhere, and the argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨kept0 m r h c, kept1 m r h c, kept2 m r h c, kept3 m r h c, kept4 m r h c⟩)
    (run_main m ρ)

end Cert.KernelIdeal.Run

end
-- ==== Proof.Ideal.Final.lean ====
/-
  What the two result arrays hold after the run.

  The first result's array is the window's one block, written back once, after the last point; by then its staging buffer
  has received every one of the sixteen row bands in phase 2 (band `b` at point 32 + b) and nothing since, so it holds the
  assembled first result. The second result's array is written back after each point of phase 3, block `b` (rows
  256·b … 256·b + 255) after point 48 + b with band `b` of the second result; the sixteen blocks tile the array.
-/
import proofs.«136274_g82781199663863_cont_9to1_m_1005_4_alg».proof.Proof.Ideal.Run

set_option maxRecDepth 16384

noncomputable section

namespace Cert.KernelIdeal.Run

open Cert.KernelIdeal Cert.KernelIdeal.Gen Cert.KernelIdeal.Traj Cert.KernelIdeal.Inv Cert.Bands
open Idealize.ShloMosaic Idealize.ShloMosaic.TcCoe Idealize.ShloMosaic.ValueIdx
open Idealize.SL Idealize.SL.Sem
open Idealize.ShloMosaic.Pipeline (RDat)

variable {F : FTy → Type} [FloatOps F]
variable (m : (ℓ : Loc nD τ sig) → Buf (Elt F) ℓ)

theorem N64 : cfg0.N = 64 := N_0

/-! ## The schedule of the two result windows -/

/-- A result window is never fetched. -/
theorem fetch5 : ∀ t : Fin cfg0.N, (cfg0.win 5).fetch t = false :=
  (by decide +kernel : ∀ t : Fin grid0.N, win0_5.fetch t = false)
theorem fetch6 : ∀ t : Fin cfg0.N, (cfg0.win 6).fetch t = false :=
  (by decide +kernel : ∀ t : Fin grid0.N, win0_6.fetch t = false)
/-- The second result is written back after every point of phase 3 and at no other. -/
theorem flush6 : ∀ t : Fin cfg0.N, (cfg0.win 6).flush t = true ↔ 48 ≤ t.val :=
  (by decide +kernel : ∀ t : Fin grid0.N, win0_6.flush t = true ↔ 48 ≤ t.val)
/-- The first result's block index is always (0, 0); -/
theorem idx5 : ∀ t : Fin cfg0.N, win0_5.index t (0 : Fin 2) = 0 ∧ win0_5.index t (1 : Fin 2) = 0 :=
  (by decide +kernel : ∀ t : Fin grid0.N, _)
/-- the second result's is (band, 0) in phase 3. -/
theorem idx6 : ∀ t : Fin cfg0.N, 48 ≤ t.val → win0_6.index t (0 : Fin 2) = t.val - 48 ∧ win0_6.index t (1 : Fin 2) = 0 :=
  (by decide +kernel : ∀ t : Fin grid0.N, _)

/-! ## The first result -/

/-- Whatever the first result's staging buffer may hold at a point, its bands stored so far hold the first result's. -/
theorem finds5 (c : Dev nD) : ∀ (n : ℕ) (t : Fin cfg0.N), t.val = n → ∀ Y : Vec F S4096x16 .f32, (rdat m c).Finds 5 t Y →
    ∀ b : Fin 16, b.val + 32 < n → View.ld Y (band 16 b) = ZHB m c b := by
  intro n
  induction n with
  | zero => intro t _ Y _ b h; omega
  | succ k ih =>
    intro t ht Y hY b hb
    have h0 : t.val ≠ 0 := by omega
    have hN : t.val < 64 := lt_of_lt_of_eq t.isLt N_0
    rcases ((rdat m c).finds_of_pos (fetch5 t) h0 Y).mp hY with hfl | ⟨Y', hY', hR⟩
    · exfalso
      have h63 := (flush0_5 _).mp hfl
      simp only at h63
      omega
    · have hv : (⟨t.val - 1, Nat.lt_of_le_of_lt (Nat.sub_le _ _) t.isLt⟩ : Fin cfg0.N).val = k := by
        show t.val - 1 = k; omega
      have ih' := ih _ hv Y' hY'
      dsimp only [rdat] at hR
      by_cases hp : 32 ≤ t.val - 1 ∧ t.val - 1 < 48
      · rw [hR, if_pos hp]
        exact band_step 16 _ Y' _ (ZHB m c) 32 k (by show (t.val - 1) % 16 + 32 = k; omega) ih' rfl b hb
      · rw [hR, if_neg hp]
        exact ih' b (by omega)

/-- Before the last point nothing has been written back to the first result's array. -/
theorem arr5_lt (c : Dev nD) : ∀ n, n ≤ 63 → (rdat m c).ArrAt 5 n = fun G => G = (rdat m c).A 5
  | 0, _ => rfl
  | n + 1, h => by
    have hn : n < cfg0.N := by rw [N64]; omega
    have hf : (cfg0.win 5).flush ⟨n, hn⟩ = false := by
      rw [Bool.eq_false_iff]; intro hf'; have h63 := (flush0_5 _).mp hf'; simp only at h63; omega
    unfold RDat.ArrAt
    simp only [dif_pos hn, hf, Bool.false_eq_true, ↓reduceIte]
    exact arr5_lt c n (by omega)

/-- The first result's array at the end: the assembled first result. -/
theorem final5 (c : Dev nD) (G : Buf (Elt F) ((cfg0.win 5).arr.view.loc (c.tc : Thread nD τ)))
    (h : (rdat m c).ArrAt 5 cfg0.N G) : G = ZH m c := by
  have hn : 63 < cfg0.N := by rw [N64]; omega
  have h' : (rdat m c).ArrAt 5 (63 + 1) G := by
    have e : cfg0.N = 63 + 1 := N64
    rw [e] at h; exact h
  unfold RDat.ArrAt at h'
  have hf : (cfg0.win 5).flush ⟨63, hn⟩ = true := (flush0_5 _).mpr rfl
  simp only [dif_pos hn, hf, ↓reduceIte] at h'
  obtain ⟨G₀, X, -, ⟨Y, hY, hR⟩, rfl⟩ := h'
  dsimp only [rdat] at hR
  have hX : X = Y := by rw [hR]; exact if_neg (by decide)
  subst hX
  have hb : ∀ b : Fin 16, View.ld (X : Vec F S4096x16 .f32) (band 16 b) = ZHB m c b :=
    fun b => finds5 m c 63 ⟨63, hn⟩ rfl X hY b (by have := b.isLt; omega)
  have hYZ : (X : Vec F S4096x16 .f32) = ZH m c := eq_asm_of_bands 16 _ _ hb
  rw [← hYZ]
  funext y
  obtain ⟨i0, i1⟩ := idx5 ⟨63, hn⟩
  have e : ((cfg0.win 5).blk ⟨63, hn⟩).view.emb (y : S4096x16.Idx) = y := by
    funext a; apply Fin.ext
    match a with
    | ⟨0, _⟩ => show win0_5.index ⟨63, hn⟩ (0 : Fin 2) * 4096 + 1 * (y 0).val = (y 0).val; rw [i0]; omega
    | ⟨1, _⟩ => show win0_5.index ⟨63, hn⟩ (1 : Fin 2) * 16 + 1 * (y 1).val = (y 1).val; rw [i1]; omega
  conv_lhs => rw [← e]
  rw [View.write_emb_of_mem _ _ (Finset.mem_univ _)]
  rfl

/-! ## The second result -/

/-- An index of the second result's array is in point `t`'s block iff each coordinate is in the block's range. -/
theorem mem_blk6 (t : Fin cfg0.N) (i : S4096x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v1_1).slice (win0_6.rect t)).set ↔ _
  rw [View.set_slice_whole, Rect.mem_set_unit]
  exact Iff.rfl

/-- At a point of phase 3 the body leaves band `t mod 16` of the second result in the staging buffer. -/
theorem leaves6 (c : Dev nD) (t : Fin cfg0.N) (ht : 48 ≤ t.val) (X) (h : (rdat m c).Leaves 6 t X) : X = OUTB m c (bnd t) := by
  obtain ⟨Y, -, hR⟩ := h
  dsimp only [rdat] at hR
  rw [hR, if_pos ht]

/-- Before phase 3 nothing has been written back to the second result's array. -/
theorem arr6_le (c : Dev nD) : ∀ n, n ≤ 48 → (rdat m c).ArrAt 6 n = fun G => G = (rdat m c).A 6
  | 0, _ => rfl
  | n + 1, h => by
    have hn : n < cfg0.N := by rw [N64]; omega
    have hf : (cfg0.win 6).flush ⟨n, hn⟩ = false := by
      rw [Bool.eq_false_iff]; intro hf'; have h48 := (flush6 _).mp hf'; simp only at h48; omega
    unfold RDat.ArrAt
    simp only [dif_pos hn, hf, Bool.false_eq_true, ↓reduceIte]
    exact arr6_le c n (by omega)

/-- After the write-backs of the first `k` points of phase 3 the first `k` blocks of the array hold the second result's bands. -/
theorem arr6 (c : Dev nD) : ∀ k, k ≤ 16 → ∀ G : Buf (Elt F) ((cfg0.win 6).arr.view.loc (c.tc : Thread nD τ)),
    (rdat m c).ArrAt 6 (48 + k) G → ∀ b : Fin 16, b.val < k → ∀ (p : Fin 256) (q r : Fin 4096), r.val = 256 * b.val + p.val →
      (G : S4096x4096.Idx → Elt F .f32) (ix2 r q) = OUTB m c b (ix2 p q) := by
  intro k
  induction k with
  | zero => intro _ G _ b hb; omega
  | succ k ih =>
    intro hk G hG b hb p q r hr
    have hn : 48 + k < cfg0.N := by rw [N64]; omega
    have hG' : (rdat m c).ArrAt 6 ((48 + k) + 1) G := hG
    unfold RDat.ArrAt at hG'
    have hf : (cfg0.win 6).flush ⟨48 + k, hn⟩ = true := (flush6 _).mpr (by show 48 ≤ 48 + k; omega)
    simp only [dif_pos hn, hf, ↓reduceIte] at hG'
    obtain ⟨G₀, X, hG₀, hX, rfl⟩ := hG'
    have eX := leaves6 m c ⟨48 + k, hn⟩ (by show 48 ≤ 48 + k; omega) X hX
    obtain ⟨i0, i1⟩ := idx6 ⟨48 + k, hn⟩ (by show 48 ≤ 48 + k; omega)
    have i0' : win0_6.index ⟨48 + k, hn⟩ (0 : Fin 2) = k := by rw [i0]; show 48 + k - 48 = k; omega
    by_cases hbk : b.val = k
    · -- the block just written
      have eb : bnd ⟨48 + k, hn⟩ = b := Fin.ext (by show (48 + k) % 16 = b.val; omega)
      have e : ((cfg0.win 6).blk ⟨48 + k, hn⟩).view.emb (ix2 p q : S256x4096.Idx) = (ix2 r q : S4096x4096.Idx) := by
        funext a; apply Fin.ext
        match a with
        | ⟨0, _⟩ => show win0_6.index ⟨48 + k, hn⟩ (0 : Fin 2) * 256 + 1 * p.val = r.val; rw [i0']; omega
        | ⟨1, _⟩ => show win0_6.index ⟨48 + k, hn⟩ (1 : Fin 2) * 4096 + 1 * q.val = q.val; rw [i1]; omega
      rw [← e, View.write_emb_of_mem _ _ (Finset.mem_univ _), eX, eb]
      rfl
    · -- an earlier block: untouched by this write-back
      have hlt : b.val < k := by omega
      have hnm : (ix2 r q : S4096x4096.Idx) ∉ ((cfg0.win 6).blk ⟨48 + k, hn⟩).view.setOn Finset.univ := by
        rw [View.setOn_univ, mem_blk6]
        intro hall
        have h0 := hall 0
        have h0' : win0_6.index ⟨48 + k, hn⟩ (0 : Fin 2) * 256 ≤ r.val := h0.1
        rw [i0'] at h0'
        have := p.isLt
        omega
      rw [View.write_of_not_mem _ _ _ hnm]
      exact ih (by omega) G₀ hG₀ b hlt p q r hr

/-- The second result's array at the end: the assembled second result. -/
theorem final6 (c : Dev nD) (G : Buf (Elt F) ((cfg0.win 6).arr.view.loc (c.tc : Thread nD τ)))
    (h : (rdat m c).ArrAt 6 cfg0.N G) : G = OUT m c := by
  have h' : (rdat m c).ArrAt 6 (48 + 16) G := by
    have e : cfg0.N = 48 + 16 := N64
    rw [e] at h; exact h
  have key := arr6 m c 16 (le_refl _) G h'
  funext y
  obtain ⟨r, q, rfl⟩ : ∃ (r : Fin 4096) (q : Fin 4096), y = ix2 r q := ⟨y 0, y 1, eq_ix2 y⟩
  have hr := r.isLt
  exact key ⟨r.val / 256, by omega⟩ (by show r.val / 256 < 16; omega) ⟨r.val % 256, Nat.mod_lt _ (by decide)⟩ q r
    (by show r.val = 256 * (r.val / 256) + r.val % 256; omega)

end Cert.KernelIdeal.Run

end
-- ==== Proof.Payload.lean ====
/-
  The kernel body's ten pure payloads read at an index, at the ideal values (the extended reals).

  Every payload is a short chain of a matrix product into a zero accumulator, a format change, a same-shape cast, a
  rectification, a column slice, or the affine image of a hyperbolic tangent. At the ideal values a format change and a
  same-shape cast are the identity and the matrix product is the plain sum over the one contracted coordinate, so each
  payload at row `p`, column `c` is a closed expression in the operands' entries.
-/
import proofs.«136274_g82781199663863_cont_9to1_m_1005_4_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The four matrix products into a zero accumulator, at an index -/

/-- [4096,16] × [16,32], contracting the left operand's columns with the right operand's rows: the operands'
    indices at an output index and a contraction index, coordinate by coordinate. -/
theorem lhs_a_0 (i : S4096x32.Idx) (q : dot_S4096x16_S16x32_S4096x32_1_0_0_1_n_n.contr.Idx) :
    (dot_S4096x16_S16x32_S4096x32_1_0_0_1_n_n.lhsIdx i q 0).val = (i 0).val := by
  unfold DotDims.lhsIdx
  rw [dif_neg (show ¬(0 : Fin S4096x16.rank) ∈ dot_S4096x16_S16x32_S4096x32_1_0_0_1_n_n.lhsBatch by decide), dif_pos (show (0 : Fin S4096x16.rank) ∈ dot_S4096x16_S16x32_S4096x32_1_0_0_1_n_n.lhsNonContracting by decide)]
  rfl
theorem lhs_a_1 (i : S4096x32.Idx) (q : dot_S4096x16_S16x32_S4096x32_1_0_0_1_n_n.contr.Idx) :
    (dot_S4096x16_S16x32_S4096x32_1_0_0_1_n_n.lhsIdx i q 1).val = (q ⟨0, by decide⟩).val :=
  dot_S4096x16_S16x32_S4096x32_1_0_0_1_n_n.lhsIdx_val_of_single rfl i q
theorem rhs_a_0 (i : S4096x32.Idx) (q : dot_S4096x16_S16x32_S4096x32_1_0_0_1_n_n.contr.Idx) :
    (dot_S4096x16_S16x32_S4096x32_1_0_0_1_n_n.rhsIdx i q 0).val = (q ⟨0, by decide⟩).val :=
  dot_S4096x16_S16x32_S4096x32_1_0_0_1_n_n.rhsIdx_val_of_single rfl i q
theorem rhs_a_1 (i : S4096x32.Idx) (q : dot_S4096x16_S16x32_S4096x32_1_0_0_1_n_n.contr.Idx) :
    (dot_S4096x16_S16x32_S4096x32_1_0_0_1_n_n.rhsIdx i q 1).val = (i 1).val := by
  unfold DotDims.rhsIdx
  rw [dif_neg (show ¬(1 : Fin S16x32.rank) ∈ dot_S4096x16_S16x32_S4096x32_1_0_0_1_n_n.rhsBatch by decide), dif_pos (show (1 : Fin S16x32.rank) ∈ dot_S4096x16_S16x32_S4096x32_1_0_0_1_n_n.rhsNonContracting by decide)]
  rfl

/-- The product at row `p`, column `c` is the sum over the 16 contracted coordinates. -/
theorem mm_4096x16_16x32 {φ₁ φ₂ : FTy} (l : FVec Ideal S4096x16 φ₁) (r : FVec Ideal S16x32 φ₂) (p : Fin 4096) (c : Fin 32) :
    matmul (F := Ideal) dot_S4096x16_S16x32_S4096x32_1_0_0_1_n_n none l r (constant (F := Ideal) S4096x32 .f32 0x00000000#32) (ix2 p c)
      = ∑ k : Fin 16, l (ix2 p k) * r (ix2 k c) := by
  refine (Ideal.matmul_constant_zero_apply dot_S4096x16_S16x32_S4096x32_1_0_0_1_n_n none l r (ix2 p c)).trans ?_
  rw [← Equiv.sum_comp (contrEquiv1 dot_S4096x16_S16x32_S4096x32_1_0_0_1_n_n 16 rfl rfl).symm]
  refine Finset.sum_congr rfl fun k _ => ?_
  have hk := contrEquiv1_symm_val dot_S4096x16_S16x32_S4096x32_1_0_0_1_n_n 16 rfl rfl k
  have el : dot_S4096x16_S16x32_S4096x32_1_0_0_1_n_n.lhsIdx (ix2 p c) ((contrEquiv1 dot_S4096x16_S16x32_S4096x32_1_0_0_1_n_n 16 rfl rfl).symm k) = ix2 p k :=
    funext fun a => Fin.ext (by
      match a with
      | ⟨0, _⟩ => exact lhs_a_0 _ _
      | ⟨1, _⟩ => exact (lhs_a_1 _ _).trans hk)
  have er : dot_S4096x16_S16x32_S4096x32_1_0_0_1_n_n.rhsIdx (ix2 p c) ((contrEquiv1 dot_S4096x16_S16x32_S4096x32_1_0_0_1_n_n 16 rfl rfl).symm k) = ix2 k c :=
    funext fun a => Fin.ext (by
      match a with
      | ⟨0, _⟩ => exact (rhs_a_0 _ _).trans hk
      | ⟨1, _⟩ => exact rhs_a_1 _ _)
  rw [el, er]

/-- [256,4096] × [4096,32], contracting the left operand's columns with the right operand's rows. -/
theorem lhs_b_0 (i : S256x32.Idx) (q : dot_S256x4096_S4096x32_S256x32_1_0_0_1_n_n.contr.Idx) :
    (dot_S256x4096_S4096x32_S256x32_1_0_0_1_n_n.lhsIdx i q 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
theorem lhs_b_1 (i : S256x32.Idx) (q : dot_S256x4096_S4096x32_S256x32_1_0_0_1_n_n.contr.Idx) :
    (dot_S256x4096_S4096x32_S256x32_1_0_0_1_n_n.lhsIdx i q 1).val = (q ⟨0, by decide⟩).val :=
  dot_S256x4096_S4096x32_S256x32_1_0_0_1_n_n.lhsIdx_val_of_single rfl i q
theorem rhs_b_0 (i : S256x32.Idx) (q : dot_S256x4096_S4096x32_S256x32_1_0_0_1_n_n.contr.Idx) :
    (dot_S256x4096_S4096x32_S256x32_1_0_0_1_n_n.rhsIdx i q 0).val = (q ⟨0, by decide⟩).val :=
  dot_S256x4096_S4096x32_S256x32_1_0_0_1_n_n.rhsIdx_val_of_single rfl i q
theorem rhs_b_1 (i : S256x32.Idx) (q : dot_S256x4096_S4096x32_S256x32_1_0_0_1_n_n.contr.Idx) :
    (dot_S256x4096_S4096x32_S256x32_1_0_0_1_n_n.rhsIdx i q 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- The product at row `p`, column `c` is the sum over the 4096 contracted coordinates. -/
theorem mm_256x4096_4096x32 {φ₁ φ₂ : FTy} (l : FVec Ideal S256x4096 φ₁) (r : FVec Ideal S4096x32 φ₂) (p : Fin 256) (c : Fin 32) :
    matmul (F := Ideal) dot_S256x4096_S4096x32_S256x32_1_0_0_1_n_n none l r (constant (F := Ideal) S256x32 .f32 0x00000000#32) (ix2 p c)
      = ∑ k : Fin 4096, l (ix2 p k) * r (ix2 k c) := by
  refine (Ideal.matmul_constant_zero_apply dot_S256x4096_S4096x32_S256x32_1_0_0_1_n_n none l r (ix2 p c)).trans ?_
  rw [← Equiv.sum_comp (contrEquiv1 dot_S256x4096_S4096x32_S256x32_1_0_0_1_n_n 4096 rfl rfl).symm]
  refine Finset.sum_congr rfl fun k _ => ?_
  have hk := contrEquiv1_symm_val dot_S256x4096_S4096x32_S256x32_1_0_0_1_n_n 4096 rfl rfl k
  have el : dot_S256x4096_S4096x32_S256x32_1_0_0_1_n_n.lhsIdx (ix2 p c) ((contrEquiv1 dot_S256x4096_S4096x32_S256x32_1_0_0_1_n_n 4096 rfl rfl).symm k) = ix2 p k :=
    funext fun a => Fin.ext (by
      match a with
      | ⟨0, _⟩ => exact lhs_b_0 _ _
      | ⟨1, _⟩ => exact (lhs_b_1 _ _).trans hk)
  have er : dot_S256x4096_S4096x32_S256x32_1_0_0_1_n_n.rhsIdx (ix2 p c) ((contrEquiv1 dot_S256x4096_S4096x32_S256x32_1_0_0_1_n_n 4096 rfl rfl).symm k) = ix2 k c :=
    funext fun a => Fin.ext (by
      match a with
      | ⟨0, _⟩ => exact (rhs_b_0 _ _).trans hk
      | ⟨1, _⟩ => exact rhs_b_1 _ _)
  rw [el, er]

/-- [4096,32] × [32,32], contracting the left operand's columns with the right operand's rows. -/
theorem lhs_c_0 (i : S4096x32.Idx) (q : dot_S4096x32_S32x32_S4096x32_1_0_0_1_n_n.contr.Idx) :
    (dot_S4096x32_S32x32_S4096x32_1_0_0_1_n_n.lhsIdx i q 0).val = (i 0).val := by
  unfold DotDims.lhsIdx
  rw [dif_neg (show ¬(0 : Fin S4096x32.rank) ∈ dot_S4096x32_S32x32_S4096x32_1_0_0_1_n_n.lhsBatch by decide), dif_pos (show (0 : Fin S4096x32.rank) ∈ dot_S4096x32_S32x32_S4096x32_1_0_0_1_n_n.lhsNonContracting by decide)]
  rfl
theorem lhs_c_1 (i : S4096x32.Idx) (q : dot_S4096x32_S32x32_S4096x32_1_0_0_1_n_n.contr.Idx) :
    (dot_S4096x32_S32x32_S4096x32_1_0_0_1_n_n.lhsIdx i q 1).val = (q ⟨0, by decide⟩).val :=
  dot_S4096x32_S32x32_S4096x32_1_0_0_1_n_n.lhsIdx_val_of_single rfl i q
theorem rhs_c_0 (i : S4096x32.Idx) (q : dot_S4096x32_S32x32_S4096x32_1_0_0_1_n_n.contr.Idx) :
    (dot_S4096x32_S32x32_S4096x32_1_0_0_1_n_n.rhsIdx i q 0).val = (q ⟨0, by decide⟩).val :=
  dot_S4096x32_S32x32_S4096x32_1_0_0_1_n_n.rhsIdx_val_of_single rfl i q
theorem rhs_c_1 (i : S4096x32.Idx) (q : dot_S4096x32_S32x32_S4096x32_1_0_0_1_n_n.contr.Idx) :
    (dot_S4096x32_S32x32_S4096x32_1_0_0_1_n_n.rhsIdx i q 1).val = (i 1).val := by
  unfold DotDims.rhsIdx
  rw [dif_neg (show ¬(1 : Fin S32x32.rank) ∈ dot_S4096x32_S32x32_S4096x32_1_0_0_1_n_n.rhsBatch by decide), dif_pos (show (1 : Fin S32x32.rank) ∈ dot_S4096x32_S32x32_S4096x32_1_0_0_1_n_n.rhsNonContracting by decide)]
  rfl

/-- The product at row `p`, column `c` is the sum over the 32 contracted coordinates. -/
theorem mm_4096x32_32x32 {φ₁ φ₂ : FTy} (l : FVec Ideal S4096x32 φ₁) (r : FVec Ideal S32x32 φ₂) (p : Fin 4096) (c : Fin 32) :
    matmul (F := Ideal) dot_S4096x32_S32x32_S4096x32_1_0_0_1_n_n none l r (constant (F := Ideal) S4096x32 .f32 0x00000000#32) (ix2 p c)
      = ∑ k : Fin 32, l (ix2 p k) * r (ix2 k c) := by
  refine (Ideal.matmul_constant_zero_apply dot_S4096x32_S32x32_S4096x32_1_0_0_1_n_n none l r (ix2 p c)).trans ?_
  rw [← Equiv.sum_comp (contrEquiv1 dot_S4096x32_S32x32_S4096x32_1_0_0_1_n_n 32 rfl rfl).symm]
  refine Finset.sum_congr rfl fun k _ => ?_
  have hk := contrEquiv1_symm_val dot_S4096x32_S32x32_S4096x32_1_0_0_1_n_n 32 rfl rfl k
  have el : dot_S4096x32_S32x32_S4096x32_1_0_0_1_n_n.lhsIdx (ix2 p c) ((contrEquiv1 dot_S4096x32_S32x32_S4096x32_1_0_0_1_n_n 32 rfl rfl).symm k) = ix2 p k :=
    funext fun a => Fin.ext (by
      match a with
      | ⟨0, _⟩ => exact lhs_c_0 _ _
      | ⟨1, _⟩ => exact (lhs_c_1 _ _).trans hk)
  have er : dot_S4096x32_S32x32_S4096x32_1_0_0_1_n_n.rhsIdx (ix2 p c) ((contrEquiv1 dot_S4096x32_S32x32_S4096x32_1_0_0_1_n_n 32 rfl rfl).symm k) = ix2 k c :=
    funext fun a => Fin.ext (by
      match a with
      | ⟨0, _⟩ => exact (rhs_c_0 _ _).trans hk
      | ⟨1, _⟩ => exact rhs_c_1 _ _)
  rw [el, er]

/-- [256,16] × [4096,16], contracting the COLUMNS of both operands (the right operand enters transposed). -/
theorem lhs_d_0 (i : S256x4096.Idx) (q : dot_S256x16_S4096x16_S256x4096_1_1_0_0_n_n.contr.Idx) :
    (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem lhs_d_1 (i : S256x4096.Idx) (q : dot_S256x16_S4096x16_S256x4096_1_1_0_0_n_n.contr.Idx) :
    (dot_S256x16_S4096x16_S256x4096_1_1_0_0_n_n.lhsIdx i q 1).val = (q ⟨0, by decide⟩).val :=
  dot_S256x16_S4096x16_S256x4096_1_1_0_0_n_n.lhsIdx_val_of_single rfl i q
theorem rhs_d_0 (i : S256x4096.Idx) (q : dot_S256x16_S4096x16_S256x4096_1_1_0_0_n_n.contr.Idx) :
    (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
theorem rhs_d_1 (i : S256x4096.Idx) (q : dot_S256x16_S4096x16_S256x4096_1_1_0_0_n_n.contr.Idx) :
    (dot_S256x16_S4096x16_S256x4096_1_1_0_0_n_n.rhsIdx i q 1).val = (q ⟨0, by decide⟩).val :=
  dot_S256x16_S4096x16_S256x4096_1_1_0_0_n_n.rhsIdx_val_of_single rfl i q

/-- The product at row `p`, column `q` is the sum over the 16 contracted coordinates of row `p` of the left operand
    against ROW `q` of the right one. -/
theorem mm_256x16_4096x16 {φ₁ φ₂ : FTy} (l : FVec Ideal S256x16 φ₁) (r : FVec Ideal S4096x16 φ₂) (p : Fin 256) (q : Fin 4096) :
    matmul (F := Ideal) dot_S256x16_S4096x16_S256x4096_1_1_0_0_n_n none l r (constant (F := Ideal) S256x4096 .f32 0x00000000#32) (ix2 p q)
      = ∑ k : Fin 16, l (ix2 p k) * r (ix2 q k) := by
  refine (Ideal.matmul_constant_zero_apply dot_S256x16_S4096x16_S256x4096_1_1_0_0_n_n none l r (ix2 p q)).trans ?_
  rw [← Equiv.sum_comp (contrEquiv1 dot_S256x16_S4096x16_S256x4096_1_1_0_0_n_n 16 rfl rfl).symm]
  refine Finset.sum_congr rfl fun k _ => ?_
  have hk := contrEquiv1_symm_val dot_S256x16_S4096x16_S256x4096_1_1_0_0_n_n 16 rfl rfl k
  have el : dot_S256x16_S4096x16_S256x4096_1_1_0_0_n_n.lhsIdx (ix2 p q) ((contrEquiv1 dot_S256x16_S4096x16_S256x4096_1_1_0_0_n_n 16 rfl rfl).symm k) = ix2 p k :=
    funext fun a => Fin.ext (by
      match a with
      | ⟨0, _⟩ => exact lhs_d_0 _ _
      | ⟨1, _⟩ => exact (lhs_d_1 _ _).trans hk)
  have er : dot_S256x16_S4096x16_S256x4096_1_1_0_0_n_n.rhsIdx (ix2 p q) ((contrEquiv1 dot_S256x16_S4096x16_S256x4096_1_1_0_0_n_n 16 rfl rfl).symm k) = ix2 q k :=
    funext fun a => Fin.ext (by
      match a with
      | ⟨0, _⟩ => exact rhs_d_0 _ _
      | ⟨1, _⟩ => exact (rhs_d_1 _ _).trans hk)
  rw [el, er]

/-! ## The payloads -/

/-- The adjacency block kept in the narrow format: a format change and a same-shape cast, both the identity. -/
theorem k0_pay3_apply (x : Vec Ideal S256x4096 .f32) (p : Fin 256) (q : Fin 4096) :
    k0_pay3 (F := Ideal) x (ix2 p q) = x (ix2 p q) := by
  unfold k0_pay3 k0_pay2
  rw [shapeCast_self]
  rfl

/-- The first layer's support: the features times the first weight. -/
theorem k0_pay1_apply (z : Vec Ideal S4096x16 .f32) (w : Vec Ideal S16x32 .f32) (r : Fin 4096) (c : Fin 32) :
    k0_pay1 (F := Ideal) z w (ix2 r c) = ∑ j : Fin 16, z (ix2 r j) * w (ix2 j c) := by
  unfold k0_pay1
  rw [shapeCast_self]
  exact mm_4096x16_16x32 (φ₁ := .f32) (φ₂ := .f32) z w r c

/-- The first aggregation: the block of the adjacency times the support, rectified. -/
theorem k0_pay4_apply (x : Vec Ideal S256x4096 .f32) (s : Vec Ideal S4096x32 .bf16) (p : Fin 256) (c : Fin 32) :
    k0_pay4 (F := Ideal) x s (ix2 p c) = max (∑ k : Fin 4096, x (ix2 p k) * s (ix2 k c)) 0 := by
  unfold k0_pay4 k0_pay2
  rw [shapeCast_self]
  refine (congrArg (fun t : EReal => max t (Ideal.ofBits .f32 0x00000000#32))
    (mm_256x4096_4096x32 (φ₁ := .bf16) (φ₂ := .bf16) (truncf .bf16 x bitsLt_bf16_f32) s p c)).trans ?_
  rw [Ideal.ofBits_zero_f32]
  rfl

/-- The second layer's support: the activations times the second weight. -/
theorem k0_pay5_apply (h : Vec Ideal S4096x32 .f32) (w : Vec Ideal S32x32 .f32) (r : Fin 4096) (c : Fin 32) :
    k0_pay5 (F := Ideal) h w (ix2 r c) = ∑ j : Fin 32, h (ix2 r j) * w (ix2 j c) := by
  unfold k0_pay5
  rw [shapeCast_self]
  exact mm_4096x32_32x32 (φ₁ := .f32) (φ₂ := .f32) h w r c

/-- The second aggregation: a block of the adjacency times the support, rectified. -/
theorem k0_pay6_apply (a : Vec Ideal S256x4096 .bf16) (s : Vec Ideal S4096x32 .bf16) (p : Fin 256) (c : Fin 32) :
    k0_pay6 (F := Ideal) a s (ix2 p c) = max (∑ k : Fin 4096, a (ix2 p k) * s (ix2 k c)) 0 := by
  unfold k0_pay6
  rw [shapeCast_self]
  refine (congrArg (fun t : EReal => max t (Ideal.ofBits .f32 0x00000000#32))
    (mm_256x4096_4096x32 (φ₁ := .bf16) (φ₂ := .bf16) a s p c)).trans ?_
  rw [Ideal.ofBits_zero_f32]

/-- The third layer's support: the activations times the third weight, held as a 32 × 32 array. -/
theorem k0_pay7_apply (h : Vec Ideal S4096x32 .f32) (w : Vec Ideal S32x32 .f32) (r : Fin 4096) (c : Fin 32) :
    k0_pay7 (F := Ideal) h w (ix2 r c) = ∑ j : Fin 32, h (ix2 r j) * w (ix2 j c) := by
  unfold k0_pay7
  rw [shapeCast_self, shapeCast_self]
  exact mm_4096x32_32x32 (φ₁ := .f32) (φ₂ := .f32) h w r c

/-- The column slice: columns 0 to 15 of a 256 × 32 array. -/
theorem slice_cols_apply (y : FVec Ideal S256x32 .f32) (p : Fin 256) (c : Fin 16) :
    extractStridedSlice S256x16 ![0, 0] y slices_S256x32_o0_0_S256x16 (ix2 p c) = y (ix2 p (Fin.castLE (by decide) c : Fin 32)) := by
  refine extractStridedSlice_apply ![0, 0] y slices_S256x32_o0_0_S256x16 (ix2 p c) (ix2 p (Fin.castLE (by decide) c : Fin 32)) ?_
  intro b
  fin_cases b <;> simp [ix2]

/-- The third aggregation: columns 0 to 15 of a block of the adjacency times the support, rectified. -/
theorem k0_pay8_apply (a : Vec Ideal S256x4096 .bf16) (s : Vec Ideal S4096x32 .bf16) (p : Fin 256) (c : Fin 16) :
    k0_pay8 (F := Ideal) a s (ix2 p c) = max (∑ k : Fin 4096, a (ix2 p k) * s (ix2 k (Fin.castLE (by decide) c : Fin 32))) 0 := by
  unfold k0_pay8
  refine (congrArg (fun t : EReal => max t (Ideal.ofBits .f32 0x00000000#32))
    ((slice_cols_apply (matmul (F := Ideal) dot_S256x4096_S4096x32_S256x32_1_0_0_1_n_n none a s (constant (F := Ideal) S256x32 .f32 0x00000000#32)) p c).trans
      (mm_256x4096_4096x32 (φ₁ := .bf16) (φ₂ := .bf16) a s p (Fin.castLE (by decide) c : Fin 32)))).trans ?_
  rw [Ideal.ofBits_zero_f32]

/-- The narrow copy of the third aggregation: a format change and a same-shape cast, both the identity. -/
theorem k0_pay9_apply (a : Vec Ideal S256x4096 .bf16) (s : Vec Ideal S4096x32 .bf16) (p : Fin 256) (c : Fin 16) :
    k0_pay9 (F := Ideal) a s (ix2 p c) = k0_pay8 (F := Ideal) a s (ix2 p c) := by
  unfold k0_pay9
  rw [shapeCast_self]
  rfl

/-- One half, as the kernel's constant word reads at the ideal values. -/
abbrev half : EReal := Ideal.ofBits .f32 0x3F000000#32

/-- The decoder: one half plus one half of the hyperbolic tangent of one half of the inner product of row `p` of the
    block with row `q` of the whole array. -/
theorem k0_pay10_apply (zr : Vec Ideal S256x16 .bf16) (za : Vec Ideal S4096x16 .bf16) (p : Fin 256) (q : Fin 4096) :
    k0_pay10 (F := Ideal) zr za (ix2 p q) = half + half * Ideal.tanh (half * ∑ k : Fin 16, zr (ix2 p k) * za (ix2 q k)) := by
  unfold k0_pay10
  exact congrArg (fun t : EReal => half + half * Ideal.tanh (half * t))
    (mm_256x16_4096x16 (φ₁ := .bf16) (φ₂ := .bf16) zr za p q)

end Cert.KernelIdeal.Pay

end
-- ==== Proof.Spec.lean ====
/-
  The graph-convolution decoder as ONE function of its five argument arrays, index by index, over the extended reals.

  Three layers, each "aggregate then rectify": for a support array `s` the layer's output at row `r`, column `c` is
  `max (∑ k, adj[r,k] · s[k,c]) 0`, the support being the previous activations times the layer's weight
  (`∑ j, h[r,j] · w[j,c]`). The first result is the third layer's output `ẑ` (4096 × 16); the second is the
  logistic function of the Gram matrix of `ẑ`'s rows, `1 / (1 + exp (−∑ k, ẑ[r,k] · ẑ[q,k]))` (4096 × 4096).
-/
import Idealize.ShloMosaic.PureOps.Ideal
import Idealize.ShloMosaic.Lib.ValueIdx

noncomputable section

namespace Cert.Gcn

open Idealize.ShloMosaic Idealize.ShloMosaic.ValueIdx
open scoped BigOperators

/-- A matrix of extended reals of `a` rows and `b` columns, as a function of its rank-2 index. -/
abbrev Mat (a b : Nat) : Type := (⟨2, ![a, b]⟩ : Shape).Idx → EReal

/-- The first layer's support: `z · W4`, one sum over the 16 input features. -/
def sup1 (z : Mat 4096 16) (w : Mat 16 32) : Mat 4096 32 :=
  fun i => ∑ j : Fin 16, z (ix2 (i 0) j) * w (ix2 j (i 1))

/-- A middle layer's support: `h · W`, one sum over the 32 hidden features. -/
def sup2 (h : Mat 4096 32) (w : Mat 32 32) : Mat 4096 32 :=
  fun i => ∑ j : Fin 32, h (ix2 (i 0) j) * w (ix2 j (i 1))

/-- The last layer's support: `h · W6`, 32 hidden features to 16 outputs. -/
def sup3 (h : Mat 4096 32) (w : Mat 32 16) : Mat 4096 16 :=
  fun i => ∑ j : Fin 32, h (ix2 (i 0) j) * w (ix2 j (i 1))

/-- Aggregate over the 4096 neighbours and rectify, 32 columns. -/
def agg32 (adj : Mat 4096 4096) (s : Mat 4096 32) : Mat 4096 32 :=
  fun i => max (∑ k : Fin 4096, adj (ix2 (i 0) k) * s (ix2 k (i 1))) 0

/-- Aggregate over the 4096 neighbours and rectify, 16 columns. -/
def agg16 (adj : Mat 4096 4096) (s : Mat 4096 16) : Mat 4096 16 :=
  fun i => max (∑ k : Fin 4096, adj (ix2 (i 0) k) * s (ix2 k (i 1))) 0

/-- The decoder's first result: the third layer's activations. -/
def zhat (z : Mat 4096 16) (adj : Mat 4096 4096) (w4 : Mat 16 32) (w5 : Mat 32 32) (w6 : Mat 32 16) : Mat 4096 16 :=
  agg16 adj (sup3 (agg32 adj (sup2 (agg32 adj (sup1 z w4)) w5)) w6)

/-- The Gram matrix of the rows of a 4096 × 16 array. -/
def gram (zh : Mat 4096 16) : Mat 4096 4096 :=
  fun i => ∑ k : Fin 16, zh (ix2 (i 0) k) * zh (ix2 (i 1) k)

/-- The logistic function on the extended reals, as a quotient: `1 / (1 + exp (−x))`. -/
def logistic (x : EReal) : EReal := Ideal.div 1 (1 + Ideal.exp (-x))

/-- The decoder's second result: the logistic function of the Gram matrix of the first. -/
def recon (zh : Mat 4096 16) : Mat 4096 4096 := fun i => logistic (gram zh i)

end Cert.Gcn

end
-- ==== Proof.Logistic.lean ====
/-
  The logistic function as a shifted hyperbolic tangent, on every extended real:
  `1/2 + 1/2 · tanh (x/2) = 1 / (1 + exp (−x))`, with `tanh (±∞) = ±1`, `exp (−∞) = 0`, `exp (+∞) = +∞`
  and `1 / +∞ = 0`, so that both sides are `0` at `−∞` and `1` at `+∞`.
-/
import proofs.«136274_g82781199663863_cont_9to1_m_1005_4_alg».proof.Proof.Spec
import Idealize.ShloMosaic.PureOps.Ideal.Laws
import Mathlib.Analysis.SpecialFunctions.Trigonometric.DerivHyp

noncomputable section

namespace Cert.Gcn

open Idealize.ShloMosaic

/-- The single-precision pattern `0x3F000000` denotes one half. -/
theorem ofBits_half : Ideal.ofBits .f32 0x3F000000#32 = ((1 / 2 : ℝ) : EReal) := by
  simp [Ideal.ofBits, Ideal.ieee, -EReal.coe_mul]; norm_num

/-- The specification's logistic function is the library's. -/
theorem logistic_eq (x : EReal) : logistic x = Ideal.logistic x := rfl

/-- The real identity: `1/2 + 1/2 · tanh (r/2) = 1 / (1 + exp (−r))`. -/
theorem half_tanh_real (r : ℝ) : 1 / 2 + 1 / 2 * Real.tanh (1 / 2 * r) = (1 + Real.exp (-r))⁻¹ := by
  have ha : 0 < Real.exp (1 / 2 * r) := Real.exp_pos _
  have hb : 0 < Real.exp (-(1 / 2 * r)) := Real.exp_pos _
  have hab : Real.exp (1 / 2 * r) * Real.exp (-(1 / 2 * r)) = 1 := by
    rw [← Real.exp_add, add_neg_cancel, Real.exp_zero]
  have hr : Real.exp (-r) = Real.exp (-(1 / 2 * r)) * Real.exp (-(1 / 2 * r)) := by
    rw [← Real.exp_add]; congr 1; ring
  rw [Real.tanh_eq_sinh_div_cosh, Real.sinh_eq, Real.cosh_eq, hr]
  generalize Real.exp (1 / 2 * r) = a at ha hab
  generalize Real.exp (-(1 / 2 * r)) = b at hb hab
  have h1 : a + b ≠ 0 := by positivity
  have h2 : 1 + b * b ≠ 0 := by positivity
  field_simp
  linear_combination (2 * b) * hab

/-- One half plus one half of the hyperbolic tangent of half the argument is the logistic function, at every
    extended real. At `−∞`: `1/2 · (−∞) = −∞`, `tanh (−∞) = −1`, and `1/2 − 1/2 = 0 = 1 / (1 + exp (+∞))`. At `+∞`:
    `tanh (+∞) = 1`, and `1/2 + 1/2 = 1 = 1 / (1 + exp (−∞))`. On a real it is the real identity above. -/
theorem half_tanh (x : EReal) :
    (Ideal.ofBits .f32 0x3F000000#32 : EReal) + Ideal.ofBits .f32 0x3F000000#32 * Ideal.tanh (Ideal.ofBits .f32 0x3F000000#32 * x)
      = logistic x := by
  rw [ofBits_half, logistic_eq]
  have hpos : (0 : ℝ) < 1 / 2 := by norm_num
  induction x using EReal.rec with
  | bot =>
    rw [EReal.coe_mul_bot_of_pos hpos, Ideal.tanh_bot, Ideal.logistic_bot, ← EReal.coe_one, ← EReal.coe_neg,
      ← EReal.coe_mul, ← EReal.coe_add, ← EReal.coe_zero]
    congr 1; norm_num
  | top =>
    rw [EReal.coe_mul_top_of_pos hpos, Ideal.tanh_top, Ideal.logistic_top, ← EReal.coe_one,
      ← EReal.coe_mul, ← EReal.coe_add]
    congr 1; norm_num
  | coe r =>
    rw [← EReal.coe_mul, Ideal.tanh_coe, ← EReal.coe_mul, ← EReal.coe_add, Ideal.logistic_coe, half_tanh_real]

/-- The same over a whole array: one half plus one half of the hyperbolic tangent of half of each entry is the logistic
    function of that entry. -/
theorem half_tanh_vec {s : Shape} (v : FVec Ideal s .f32) :
    addf (broadcast s (Scalar.ofBits .f32 0x3F000000#32))
        (mulf (broadcast s (Scalar.ofBits .f32 0x3F000000#32)) (tanh (mulf (broadcast s (Scalar.ofBits .f32 0x3F000000#32)) v)))
      = fun i => logistic (v i) :=
  funext fun i => half_tanh (v i)

end Cert.Gcn

end
-- ==== Proof.KernelSpec.lean ====
/-
  What the kernel's carried buffers and results hold is the specification, as functions of the five argument arrays.

  The features and the first two weights are staged whole at every grid point, so the staged block is the argument array;
  the adjacency is staged in sixteen bands of 256 rows, and row `p` of the band staged at point `b` of the first phase is
  row `256·b + p` of the argument; the third weight reaches the kernel padded from sixteen to thirty-two columns, and its
  first sixteen columns are the argument's. Reading each payload at an index then gives, layer by layer, the supports
  `z · W4`, `h₁ · W5`, `h₂ · W6` (on the first sixteen columns, the only ones the last layer keeps) and the rectified
  aggregations over the neighbours, band by band: row `r` of the assembled array is row `r mod 256` of band `r div 256`.
  The second result is one half plus one half of the hyperbolic tangent of half the inner product of two rows of `ẑ`,
  which is the logistic function of that inner product.
-/
import proofs.«136274_g82781199663863_cont_9to1_m_1005_4_alg».proof.Proof.Ideal.Traj
import proofs.«136274_g82781199663863_cont_9to1_m_1005_4_alg».proof.Proof.Payload
import proofs.«136274_g82781199663863_cont_9to1_m_1005_4_alg».proof.Proof.Spec
import proofs.«136274_g82781199663863_cont_9to1_m_1005_4_alg».proof.Proof.Logistic
import Idealize.ShloMosaic.Lib.KernelVsHost

set_option maxRecDepth 16384

noncomputable section

namespace Cert.KernelIdeal.KSpec

open Cert.KernelIdeal Cert.KernelIdeal.Gen Cert.KernelIdeal.Traj Cert.Bands Cert.Gcn
open Idealize.ShloMosaic Idealize.ShloMosaic.TcCoe Idealize.ShloMosaic.ValueIdx
open Idealize.SL Idealize.SL.Sem
open scoped BigOperators

variable {F : FTy → Type} [FloatOps F]
variable (m : (ℓ : Loc nD τ sig) → Buf (Elt F) ℓ) (c : Dev nD)

/-! ## The staged blocks are the argument arrays -/

/-- The block index maps, decided over the 64 grid points: the features and the three weights are staged whole at every
    point; the adjacency is staged in 256-row bands, band `t` at point `t` of the first phase. -/
theorem idx_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_1.index t (1 : Fin 2) = 0 ∧ (t.val < 16 → win0_1.index t (0 : Fin 2) = t.val) :=
  (by decide +kernel : ∀ t : Fin grid0.N, _)

/-- The staged features are the first argument. -/
theorem zAt_eq (t : Fin cfg0.N) : zAt m c t = m ((c.tc : Thread nD τ).loc main_arg0) := by
  funext j
  show V m c main_arg0 (((cfg0.win 0).blk t).view.emb j) = _
  rw [V_main_arg0]
  obtain ⟨e0, e1, -⟩ := idx_facts t
  refine congrArg _ (funext fun a => Fin.ext ?_)
  match a with
  | ⟨0, _⟩ => show win0_0.index t (0 : Fin 2) * 4096 + 1 * (j 0).val = (j 0).val; omega
  | ⟨1, _⟩ => show win0_0.index t (1 : Fin 2) * 16 + 1 * (j 1).val = (j 1).val; omega

/-- The staged first weight is the third argument. -/
theorem w4At_eq (t : Fin cfg0.N) : w4At m c t = m ((c.tc : Thread nD τ).loc main_arg2) := by
  funext j
  show V m c main_arg2 (((cfg0.win 2).blk t).view.emb j) = _
  rw [V_main_arg2]
  obtain ⟨-, -, e0, e1, -⟩ := idx_facts t
  refine congrArg _ (funext fun a => Fin.ext ?_)
  match a with
  | ⟨0, _⟩ => show win0_2.index t (0 : Fin 2) * 16 + 1 * (j 0).val = (j 0).val; omega
  | ⟨1, _⟩ => show win0_2.index t (1 : Fin 2) * 32 + 1 * (j 1).val = (j 1).val; omega

/-- The staged second weight is the fourth argument. -/
theorem w5At_eq (t : Fin cfg0.N) : w5At m c t = m ((c.tc : Thread nD τ).loc main_arg3) := by
  funext j
  show V m c main_arg3 (((cfg0.win 3).blk t).view.emb j) = _
  rw [V_main_arg3]
  obtain ⟨-, -, -, -, e0, e1, -⟩ := idx_facts t
  refine congrArg _ (funext fun a => Fin.ext ?_)
  match a with
  | ⟨0, _⟩ => show win0_3.index t (0 : Fin 2) * 32 + 1 * (j 0).val = (j 0).val; omega
  | ⟨1, _⟩ => show win0_3.index t (1 : Fin 2) * 32 + 1 * (j 1).val = (j 1).val; omega

/-- Row `p` of the adjacency band staged at point `b` of the first phase is row `256·b + p` of the second argument. -/
theorem adjAt_apply (b : Fin 16) (p : Fin 256) (k : Fin 4096) (r : Fin 4096) (hr : r.val = 256 * b.val + p.val) :
    adjAt m c (ptB b) (ix2 p k) = m ((c.tc : Thread nD τ).loc main_arg1) (ix2 r k) := by
  show V m c main_arg1 (((cfg0.win 1).blk (ptB b)).view.emb (ix2 p k)) = _
  rw [V_main_arg1]
  obtain ⟨-, -, -, -, -, -, -, -, e1, e0⟩ := idx_facts (ptB b)
  have e0' : win0_1.index (ptB b) (0 : Fin 2) = b.val := e0 b.isLt
  refine congrArg _ (funext fun a => Fin.ext ?_)
  match a with
  | ⟨0, _⟩ => show win0_1.index (ptB b) (0 : Fin 2) * 256 + 1 * p.val = r.val; omega
  | ⟨1, _⟩ => show win0_1.index (ptB b) (1 : Fin 2) * 4096 + 1 * k.val = k.val; omega

/-! ## The padded third weight -/

/-- The array the fifth window stages was written before the region: the third weight padded with sixteen columns of the
    padding value. -/
theorem V_main_v0 : (V m c main_v0 : S32x32.Idx → Elt F .f32)
    = pad S32x32 ![0, 0] ![0, 16] ![0, 0] (m ((c.tc : Thread nD τ).loc main_arg4))
        (sitofp (F := F) .f32 (constantI S_ 32 0#32)) pads_S32x16_S32x32_000_0160 h_S_ := by
  dsimp only [Gen.V]
  simp only [Gen.hostOps0, Gen.hostOps0_1, List.flatten_cons, List.flatten_nil, List.append_nil, List.cons_append, List.nil_append]
  after_results
  rfl

/-- The first sixteen columns of the staged padded weight are the fifth argument. -/
theorem w6At_apply (t : Fin cfg0.N) (l : Fin 32) (j : Fin 16) :
    w6At m c t (ix2 l (Fin.castLE (by decide) j : Fin 32)) = m ((c.tc : Thread nD τ).loc main_arg4) (ix2 l j) := by
  show V m c main_v0 (((cfg0.win 4).blk t).view.emb (ix2 l (Fin.castLE (by decide) j : Fin 32))) = _
  rw [V_main_v0]
  obtain ⟨-, -, -, -, -, -, e0, e1, -⟩ := idx_facts t
  refine pad_apply_of_inside _ _ _ _ _ _ _ _ (ix2 l j) (fun a => ?_)
  match a with
  | ⟨0, _⟩ => show win0_4.index t (0 : Fin 2) * 32 + 1 * l.val = 0 + l.val * (0 + 1); omega
  | ⟨1, _⟩ => show win0_4.index t (1 : Fin 2) * 32 + 1 * j.val = 0 + j.val * (0 + 1); omega

end Cert.KernelIdeal.KSpec

/-! ## The layers -/

namespace Cert.KernelIdeal.KSpec

open Cert.KernelIdeal Cert.KernelIdeal.Gen Cert.KernelIdeal.Traj Cert.Bands Cert.Gcn
open Idealize.ShloMosaic Idealize.ShloMosaic.TcCoe Idealize.ShloMosaic.ValueIdx
open Idealize.SL Idealize.SL.Sem
open scoped BigOperators

/-- An array assembled from sixteen blocks is the array `G` as soon as row `p` of block `b` is row `256·b + p` of `G`:
    row `r` is row `r mod 256` of block `r div 256`. -/
theorem asm_eq_of_rows {α : Type} (n : ℕ) (B : Fin 16 → (Sh 256 n).Idx → α) (G : (Sh 4096 n).Idx → α)
    (h : ∀ (b : Fin 16) (p : Fin 256) (q : Fin n) (r : Fin 4096), r.val = 256 * b.val + p.val → B b (ix2 p q) = G (ix2 r q)) :
    asm n B = G := by
  funext i
  obtain ⟨r, q, rfl⟩ : ∃ (r : Fin 4096) (q : Fin n), i = ix2 r q := ⟨i 0, i 1, eq_ix2 i⟩
  exact h ⟨r.val / 256, by have := r.isLt; omega⟩ ⟨r.val % 256, Nat.mod_lt _ (by decide)⟩ q r
    (by show r.val = 256 * (r.val / 256) + r.val % 256; omega)

variable (m : (ℓ : Loc nD τ sig) → Buf (Elt Ideal) ℓ) (c : Dev nD)

/-- The first support is `z · W4`. -/
theorem S1_eq : (S1 (F := Ideal) m c : Mat 4096 32) = sup1 (m ((c.tc : Thread nD τ).loc main_arg0)) (m ((c.tc : Thread nD τ).loc main_arg2)) := by
  funext i
  obtain ⟨r, q, rfl⟩ : ∃ (r : Fin 4096) (q : Fin 32), i = ix2 r q := ⟨i 0, i 1, eq_ix2 i⟩
  unfold S1
  rw [Pay.k0_pay1_apply, zAt_eq, w4At_eq]
  rfl

/-- The first activations: the adjacency times the first support, rectified, band by band. -/
theorem H1_eq : (asm 32 (H1B (F := Ideal) m c) : Mat 4096 32)
    = agg32 (m ((c.tc : Thread nD τ).loc main_arg1)) (sup1 (m ((c.tc : Thread nD τ).loc main_arg0)) (m ((c.tc : Thread nD τ).loc main_arg2))) := by
  refine asm_eq_of_rows 32 _ _ fun b p q r hr => ?_
  unfold H1B
  rw [Pay.k0_pay4_apply, S1_eq]
  show max (∑ k : Fin 4096, _) 0 = max (∑ k : Fin 4096, _) 0
  exact congrArg (max · 0) (Finset.sum_congr rfl fun k _ => by rw [adjAt_apply m c b p k r hr])

/-- The second support is `h₁ · W5`. -/
theorem S2_eq : (S2 (F := Ideal) m c : Mat 4096 32) = sup2 (agg32 (m ((c.tc : Thread nD τ).loc main_arg1)) (sup1 (m ((c.tc : Thread nD τ).loc main_arg0)) (m ((c.tc : Thread nD τ).loc main_arg2)))) (m ((c.tc : Thread nD τ).loc main_arg3)) := by
  funext i
  obtain ⟨r, q, rfl⟩ : ∃ (r : Fin 4096) (q : Fin 32), i = ix2 r q := ⟨i 0, i 1, eq_ix2 i⟩
  unfold S2
  rw [Pay.k0_pay5_apply, H1_eq, w5At_eq]
  rfl

/-- Row `p` of the narrow copy of band `b` of the adjacency is row `256·b + p` of the adjacency. -/
theorem AB_apply (b : Fin 16) (p : Fin 256) (k : Fin 4096) (r : Fin 4096) (hr : r.val = 256 * b.val + p.val) :
    AB (F := Ideal) m c b (ix2 p k) = (m ((c.tc : Thread nD τ).loc main_arg1)) (ix2 r k) := by
  unfold AB
  rw [Pay.k0_pay3_apply, adjAt_apply m c b p k r hr]

/-- The second activations. -/
theorem H2_eq : (asm 32 (H2B (F := Ideal) m c) : Mat 4096 32) = agg32 (m ((c.tc : Thread nD τ).loc main_arg1)) (sup2 (agg32 (m ((c.tc : Thread nD τ).loc main_arg1)) (sup1 (m ((c.tc : Thread nD τ).loc main_arg0)) (m ((c.tc : Thread nD τ).loc main_arg2)))) (m ((c.tc : Thread nD τ).loc main_arg3))) := by
  refine asm_eq_of_rows 32 _ _ fun b p q r hr => ?_
  unfold H2B
  rw [Pay.k0_pay6_apply, S2_eq]
  show max (∑ k : Fin 4096, _) 0 = max (∑ k : Fin 4096, _) 0
  exact congrArg (max · 0) (Finset.sum_congr rfl fun k _ => by rw [AB_apply m c b p k r hr])

/-- The first sixteen columns of the third support are `h₂ · W6`: the padded weight's first sixteen columns are `W6`. -/
theorem S3_apply (r : Fin 4096) (q : Fin 16) :
    S3 (F := Ideal) m c (ix2 r (Fin.castLE (by decide) q : Fin 32)) = sup3 (agg32 (m ((c.tc : Thread nD τ).loc main_arg1)) (sup2 (agg32 (m ((c.tc : Thread nD τ).loc main_arg1)) (sup1 (m ((c.tc : Thread nD τ).loc main_arg0)) (m ((c.tc : Thread nD τ).loc main_arg2)))) (m ((c.tc : Thread nD τ).loc main_arg3)))) (m ((c.tc : Thread nD τ).loc main_arg4)) (ix2 r q) := by
  unfold S3
  rw [Pay.k0_pay7_apply, H2_eq]
  show (∑ j : Fin 32, _) = ∑ j : Fin 32, _
  exact Finset.sum_congr rfl fun j _ => by rw [w6At_apply]

/-- Band `b` of the first result, row by row. -/
theorem ZHB_apply (b : Fin 16) (p : Fin 256) (q : Fin 16) (r : Fin 4096) (hr : r.val = 256 * b.val + p.val) :
    ZHB (F := Ideal) m c b (ix2 p q) = (zhat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (ix2 r q) := by
  unfold ZHB
  rw [Pay.k0_pay8_apply]
  show max (∑ k : Fin 4096, _) 0 = max (∑ k : Fin 4096, _) 0
  exact congrArg (max · 0) (Finset.sum_congr rfl fun k _ => by rw [AB_apply m c b p k r hr, S3_apply])

/-- The kernel's first result is the decoder's `ẑ`. -/
theorem zh_spec : Traj.ZH (F := Ideal) m c = (zhat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Traj.ZH
  exact asm_eq_of_rows 16 _ _ fun b p q r hr => ZHB_apply m c b p q r hr

/-- Band `b` of the narrow copy of the first result, row by row: the format change is the identity on the extended reals. -/
theorem ZBB_apply (b : Fin 16) (p : Fin 256) (q : Fin 16) (r : Fin 4096) (hr : r.val = 256 * b.val + p.val) :
    ZBB (F := Ideal) m c b (ix2 p q) = (zhat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (ix2 r q) := by
  unfold ZBB
  rw [Pay.k0_pay9_apply]
  exact ZHB_apply m c b p q r hr

/-- The narrow copy of the first result is `ẑ` too. -/
theorem ZB_eq : (asm 16 (ZBB (F := Ideal) m c) : Mat 4096 16) = (zhat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  asm_eq_of_rows 16 _ _ fun b p q r hr => ZBB_apply m c b p q r hr

/-- The kernel's second result is the logistic function of the Gram matrix of `ẑ`. -/
theorem out_spec : Traj.OUT (F := Ideal) m c = recon (zhat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Traj.OUT
  refine asm_eq_of_rows 4096 _ _ fun b p q r hr => ?_
  unfold OUTB
  rw [Pay.k0_pay10_apply, ZB_eq]
  refine (half_tanh _).trans ?_
  show logistic (∑ k : Fin 16, _) = logistic (∑ k : Fin 16, _)
  refine congrArg logistic (Finset.sum_congr rfl fun k _ => ?_)
  rw [ZBB_apply m c b p k r hr]

end Cert.KernelIdeal.KSpec
end
-- ==== Proof.RefSpec.lean ====
/-
  The reference program computes the specification: its first result is the three-layer decoder `ẑ` and its second
  the logistic function of the Gram matrix of `ẑ`'s rows, index by index over the extended reals.
  Each product of the program is a sum over one contracted coordinate of its operands read at (row, k) and (k, column);
  each rectification is a maximum against the zero constant; the transposed copy read at (k, q) is `ẑ` at (q, k), so
  the last product is the Gram matrix; negation, exponential, the sum with one and the quotient of one by it are the
  logistic function's own definition.
-/
import proofs.«136274_g82781199663863_cont_9to1_m_1005_4_alg».proof.Proof.Spec
import proofs.«136274_g82781199663863_cont_9to1_m_1005_4_alg».proof.Proof.Gen.ReferenceIdeal.Read

noncomputable section

namespace Cert.ReferenceIdeal.RefSpec

open Cert.ReferenceIdeal Cert.ReferenceIdeal.Gen Idealize.ShloMosaic Idealize.ShloMosaic.ValueIdx Idealize.ShloMosaic.TcCoe Idealize.SL.Sem Idealize.ShloMosaic.StableHlo
open Cert.Gcn
open scoped BigOperators

/-! ## The operand indices of each product, and the transposed index, as coordinate pairs -/

theorem l_v0 (i : S4096x32.Idx) (k : Fin 16) : Read.lidx_main_v0 i k = ix2 (i 0) k :=
  funext fun a => Fin.ext (by match a with | ⟨0, _⟩ => rfl | ⟨1, _⟩ => rfl)
theorem r_v0 (i : S4096x32.Idx) (k : Fin 16) : Read.ridx_main_v0 i k = ix2 k (i 1) :=
  funext fun a => Fin.ext (by match a with | ⟨0, _⟩ => rfl | ⟨1, _⟩ => rfl)
theorem l_v1 (i : S4096x32.Idx) (k : Fin 4096) : Read.lidx_main_v1 i k = ix2 (i 0) k :=
  funext fun a => Fin.ext (by match a with | ⟨0, _⟩ => rfl | ⟨1, _⟩ => rfl)
theorem r_v1 (i : S4096x32.Idx) (k : Fin 4096) : Read.ridx_main_v1 i k = ix2 k (i 1) :=
  funext fun a => Fin.ext (by match a with | ⟨0, _⟩ => rfl | ⟨1, _⟩ => rfl)
theorem l_v3 (i : S4096x32.Idx) (k : Fin 32) : Read.lidx_main_v3 i k = ix2 (i 0) k :=
  funext fun a => Fin.ext (by match a with | ⟨0, _⟩ => rfl | ⟨1, _⟩ => rfl)
theorem r_v3 (i : S4096x32.Idx) (k : Fin 32) : Read.ridx_main_v3 i k = ix2 k (i 1) :=
  funext fun a => Fin.ext (by match a with | ⟨0, _⟩ => rfl | ⟨1, _⟩ => rfl)
theorem l_v4 (i : S4096x32.Idx) (k : Fin 4096) : Read.lidx_main_v4 i k = ix2 (i 0) k :=
  funext fun a => Fin.ext (by match a with | ⟨0, _⟩ => rfl | ⟨1, _⟩ => rfl)
theorem r_v4 (i : S4096x32.Idx) (k : Fin 4096) : Read.ridx_main_v4 i k = ix2 k (i 1) :=
  funext fun a => Fin.ext (by match a with | ⟨0, _⟩ => rfl | ⟨1, _⟩ => rfl)
theorem l_v6 (i : S4096x16.Idx) (k : Fin 32) : Read.lidx_main_v6 i k = ix2 (i 0) k :=
  funext fun a => Fin.ext (by match a with | ⟨0, _⟩ => rfl | ⟨1, _⟩ => rfl)
theorem r_v6 (i : S4096x16.Idx) (k : Fin 32) : Read.ridx_main_v6 i k = ix2 k (i 1) :=
  funext fun a => Fin.ext (by match a with | ⟨0, _⟩ => rfl | ⟨1, _⟩ => rfl)
theorem l_v7 (i : S4096x16.Idx) (k : Fin 4096) : Read.lidx_main_v7 i k = ix2 (i 0) k :=
  funext fun a => Fin.ext (by match a with | ⟨0, _⟩ => rfl | ⟨1, _⟩ => rfl)
theorem r_v7 (i : S4096x16.Idx) (k : Fin 4096) : Read.ridx_main_v7 i k = ix2 k (i 1) :=
  funext fun a => Fin.ext (by match a with | ⟨0, _⟩ => rfl | ⟨1, _⟩ => rfl)
theorem l_v10 (i : S4096x4096.Idx) (k : Fin 16) : Read.lidx_main_v10 i k = ix2 (i 0) k :=
  funext fun a => Fin.ext (by match a with | ⟨0, _⟩ => rfl | ⟨1, _⟩ => rfl)
theorem r_v10 (i : S4096x4096.Idx) (k : Fin 16) : Read.ridx_main_v10 i k = ix2 k (i 1) :=
  funext fun a => Fin.ext (by match a with | ⟨0, _⟩ => rfl | ⟨1, _⟩ => rfl)
theorem t_v9 (i : S4096x4096.Idx) (k : Fin 16) : Read.idx_main_v9 (Read.ridx_main_v10 i k) = ix2 (i 1) k :=
  funext fun a => Fin.ext (by match a with | ⟨0, _⟩ => rfl | ⟨1, _⟩ => rfl)

/-! ## The constants -/

/-- The single-precision pattern `0x3F800000` denotes one. -/
theorem ofBits_one_f32 : Ideal.ofBits .f32 0x3F800000#32 = 1 := by
  simp [Ideal.ofBits, Ideal.ieee, -EReal.coe_mul]; norm_num

/-! ## The three layers -/

/-- The first product is the first layer's support `z · W4`. -/
theorem v0_eq (x0 : (⟨S4096x16, .f32⟩ : BufTy).Contents (Elt Ideal)) (x2 : (⟨S16x32, .f32⟩ : BufTy).Contents (Elt Ideal)) :
    Read.val_main_v0 (F := Ideal) x0 x2 = sup1 x0 x2 := by
  funext i
  rw [Read.val_main_v0_apply]
  exact Finset.sum_congr rfl fun k _ => by rw [l_v0, r_v0]; rfl

/-- Aggregating the first support over the neighbours and rectifying it gives the first layer's activations. -/
theorem v2_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) :
    Read.val_main_v2 (F := Ideal) x0 x1 x2 = agg32 x1 (sup1 x0 x2) := by
  funext i
  rw [Read.val_main_v2_apply, Read.val_main_v1_apply, Read.val_main_call0_v0_apply, Read.val_main_call0_cst_apply, v0_eq,
    Ideal.maximumf_def, Ideal.ofBits_def, Ideal.ofBits_zero_f32]
  show max (∑ k : Fin 4096, _) 0 = max (∑ k : Fin 4096, _) 0
  exact congrArg (max · 0) (Finset.sum_congr rfl fun k _ => by rw [l_v1, r_v1]; rfl)

/-- The second layer's support `h₁ · W5`. -/
theorem v3_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) :
    Read.val_main_v3 (F := Ideal) x0 x1 x2 x3 = sup2 (agg32 x1 (sup1 x0 x2)) x3 := by
  funext i
  rw [Read.val_main_v3_apply, v2_eq]
  exact Finset.sum_congr rfl fun k _ => by rw [l_v3, r_v3]; rfl

/-- The second layer's activations. -/
theorem v5_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) :
    Read.val_main_v5 (F := Ideal) x0 x1 x2 x3 = agg32 x1 (sup2 (agg32 x1 (sup1 x0 x2)) x3) := by
  funext i
  rw [Read.val_main_v5_apply, Read.val_main_v4_apply, Read.val_main_call1_v0_apply, Read.val_main_call1_cst_apply, v3_eq,
    Ideal.maximumf_def, Ideal.ofBits_def, Ideal.ofBits_zero_f32]
  show max (∑ k : Fin 4096, _) 0 = max (∑ k : Fin 4096, _) 0
  exact congrArg (max · 0) (Finset.sum_congr rfl fun k _ => by rw [l_v4, r_v4]; rfl)

/-- The third layer's support `h₂ · W6`. -/
theorem v6_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) (x4 : (⟨S32x16, .f32⟩ : BufTy).Contents (Elt Ideal)) :
    Read.val_main_v6 (F := Ideal) x0 x1 x2 x3 x4 = sup3 (agg32 x1 (sup2 (agg32 x1 (sup1 x0 x2)) x3)) x4 := by
  funext i
  rw [Read.val_main_v6_apply, v5_eq]
  exact Finset.sum_congr rfl fun k _ => by rw [l_v6, r_v6]; rfl

/-- The reference program's first result is the decoder's `ẑ`. -/
theorem ref_zhat (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) (x4 : (⟨S32x16, .f32⟩ : BufTy).Contents (Elt Ideal)) :
    Read.val_main_v8 (F := Ideal) x0 x1 x2 x3 x4 = zhat x0 x1 x2 x3 x4 := by
  funext i
  rw [Read.val_main_v8_apply, Read.val_main_v7_apply, Read.val_main_call2_v0_apply, Read.val_main_call2_cst_apply, v6_eq,
    Ideal.maximumf_def, Ideal.ofBits_def, Ideal.ofBits_zero_f32]
  show max (∑ k : Fin 4096, _) 0 = max (∑ k : Fin 4096, _) 0
  exact congrArg (max · 0) (Finset.sum_congr rfl fun k _ => by rw [l_v7, r_v7]; rfl)

/-! ## The Gram matrix and the logistic function -/

/-- The product of `ẑ` with its transposed copy is the Gram matrix of `ẑ`'s rows: the copy at (k, q) is `ẑ` at (q, k). -/
theorem v10_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) (x4 : (⟨S32x16, .f32⟩ : BufTy).Contents (Elt Ideal)) :
    Read.val_main_v10 (F := Ideal) x0 x1 x2 x3 x4 = gram (Read.val_main_v8 (F := Ideal) x0 x1 x2 x3 x4) := by
  funext i
  rw [Read.val_main_v10_apply]
  refine Finset.sum_congr rfl fun k _ => ?_
  rw [Read.val_main_v9_apply, t_v9, l_v10]
  rfl

/-- Negation, exponential, the sum with one and the quotient of one by it: the logistic function of the Gram matrix. -/
theorem v16_eq (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) (x4 : (⟨S32x16, .f32⟩ : BufTy).Contents (Elt Ideal)) :
    Read.val_main_v16 (F := Ideal) x0 x1 x2 x3 x4 = recon (Read.val_main_v8 (F := Ideal) x0 x1 x2 x3 x4) := by
  funext i
  rw [Read.val_main_v16_apply, Read.val_main_v15_apply, Read.val_main_cst_0_apply, Read.val_main_v14_apply,
    Read.val_main_v13_apply, Read.val_main_cst_apply, Read.val_main_v12_apply, Read.val_main_v11_apply, v10_eq]
  simp only [Ideal.hostDivf_def, Ideal.addf_def, Ideal.hostUnary_exp_def, Ideal.hostNegf_def, Ideal.negf_def, Ideal.ofBits_def,
    ofBits_one_f32]
  rfl

/-- The reference program's second result is the logistic function of the Gram matrix of `ẑ`. -/
theorem ref_recon (x0 : (⟨S4096x16, .f32⟩ : BufTy).Contents (Elt Ideal)) (x1 : (⟨S4096x4096, .f32⟩ : BufTy).Contents (Elt Ideal)) (x2 : (⟨S16x32, .f32⟩ : BufTy).Contents (Elt Ideal)) (x3 : (⟨S32x32, .f32⟩ : BufTy).Contents (Elt Ideal)) (x4 : (⟨S32x16, .f32⟩ : BufTy).Contents (Elt Ideal)) :
    Read.val_main_v16 (F := Ideal) x0 x1 x2 x3 x4 = recon (zhat x0 x1 x2 x3 x4) := by
  rw [v16_eq, ref_zhat]

/-! ## The same two statements on the terms the reference's run states -/

/-- The first result's term, as the composition of the program's operations, is `ẑ`. -/
theorem run_zhat (x0 : FVec Ideal S4096x16 .f32) (x1 : FVec Ideal S4096x4096 .f32) (x2 : FVec Ideal S16x32 .f32) (x3 : FVec Ideal S32x32 .f32) (x4 : FVec Ideal S32x16 .f32) :
    maximumf (F := Ideal) (Host.dotGeneral dot_S4096x4096_S4096x16_S4096x16_1_0_0_1_n_n none (x1) (Host.dotGeneral dot_S4096x32_S32x16_S4096x16_1_0_0_1_n_n none (maximumf (Host.dotGeneral dot_S4096x4096_S4096x32_S4096x32_1_0_0_1_n_n none (x1) (Host.dotGeneral dot_S4096x32_S32x32_S4096x32_1_0_0_1_n_n none (maximumf (Host.dotGeneral dot_S4096x4096_S4096x32_S4096x32_1_0_0_1_n_n none (x1) (Host.dotGeneral dot_S4096x16_S16x32_S4096x32_1_0_0_1_n_n none (x0) (x2))) (broadcastInDim S4096x32 ![] bcast_S_S4096x32 (constant S_ .f32 0x00000000#32))) (x3))) (broadcastInDim S4096x32 ![] bcast_S_S4096x32 (constant S_ .f32 0x00000000#32))) (x4))) (broadcastInDim S4096x16 ![] bcast_S_S4096x16 (constant S_ .f32 0x00000000#32))
      = zhat x0 x1 x2 x3 x4 :=
  (Read.val_main_v8_eq (F := Ideal) x0 x1 x2 x3 x4).trans (ref_zhat x0 x1 x2 x3 x4)

/-- The second result's term, as the composition of the program's operations, is the logistic function of the Gram matrix of `ẑ`. -/
theorem run_recon (x0 : FVec Ideal S4096x16 .f32) (x1 : FVec Ideal S4096x4096 .f32) (x2 : FVec Ideal S16x32 .f32) (x3 : FVec Ideal S32x32 .f32) (x4 : FVec Ideal S32x16 .f32) :
    Host.divf (F := Ideal) (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x16_S16x4096_S4096x4096_1_0_0_1_n_n none (maximumf (Host.dotGeneral dot_S4096x4096_S4096x16_S4096x16_1_0_0_1_n_n none (x1) (Host.dotGeneral dot_S4096x32_S32x16_S4096x16_1_0_0_1_n_n none (maximumf (Host.dotGeneral dot_S4096x4096_S4096x32_S4096x32_1_0_0_1_n_n none (x1) (Host.dotGeneral dot_S4096x32_S32x32_S4096x32_1_0_0_1_n_n none (maximumf (Host.dotGeneral dot_S4096x4096_S4096x32_S4096x32_1_0_0_1_n_n none (x1) (Host.dotGeneral dot_S4096x16_S16x32_S4096x32_1_0_0_1_n_n none (x0) (x2))) (broadcastInDim S4096x32 ![] bcast_S_S4096x32 (constant S_ .f32 0x00000000#32))) (x3))) (broadcastInDim S4096x32 ![] bcast_S_S4096x32 (constant S_ .f32 0x00000000#32))) (x4))) (broadcastInDim S4096x16 ![] bcast_S_S4096x16 (constant S_ .f32 0x00000000#32))) (transpose S16x4096 [1, 0] (maximumf (Host.dotGeneral dot_S4096x4096_S4096x16_S4096x16_1_0_0_1_n_n none (x1) (Host.dotGeneral dot_S4096x32_S32x16_S4096x16_1_0_0_1_n_n none (maximumf (Host.dotGeneral dot_S4096x4096_S4096x32_S4096x32_1_0_0_1_n_n none (x1) (Host.dotGeneral dot_S4096x32_S32x32_S4096x32_1_0_0_1_n_n none (maximumf (Host.dotGeneral dot_S4096x4096_S4096x32_S4096x32_1_0_0_1_n_n none (x1) (Host.dotGeneral dot_S4096x16_S16x32_S4096x32_1_0_0_1_n_n none (x0) (x2))) (broadcastInDim S4096x32 ![] bcast_S_S4096x32 (constant S_ .f32 0x00000000#32))) (x3))) (broadcastInDim S4096x32 ![] bcast_S_S4096x32 (constant S_ .f32 0x00000000#32))) (x4))) (broadcastInDim S4096x16 ![] bcast_S_S4096x16 (constant S_ .f32 0x00000000#32))) transposes_S4096x16_S16x4096_1_0)))))
      = recon (zhat x0 x1 x2 x3 x4) :=
  (Read.val_main_v16_eq (F := Ideal) x0 x1 x2 x3 x4).trans (ref_recon x0 x1 x2 x3 x4)

/-! ## The reference's run, stated with the specification -/

/-- Every weakly fair execution of the reference program ends with its first result at `ẑ` of the argument arrays, its
    second at the logistic function of the Gram matrix of `ẑ`, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
          = zhat (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v16)
          = recon (zhat (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by rw [(h c).1, run_zhat], by rw [(h c).2.1, run_recon], (h c).2.2⟩)
    (Cert.ReferenceIdeal.Value.run (F := Ideal) m ρ)

end Cert.ReferenceIdeal.RefSpec

end
-- ==== Proof.lean ====
/-
  A three-layer graph-convolution decoder, fused into one pipelined call over a 4 × 16 grid, against its plain reference.

  The reference computes h₁ = relu (adj · (z · W4)), h₂ = relu (adj · (h₁ · W5)), ẑ = relu (adj · (h₂ · W6)) and the logistic
  function of the Gram matrix ẑ · ẑᵀ. The kernel streams the adjacency once, in sixteen bands of 256 rows (phase 0), keeps a
  narrow-format copy of it resident, and computes the three layers band by band in phases 0, 1 and 2 from supports it forms
  at the first point and at the last band of phases 0 and 1; phase 3 forms the Gram matrix band by band from a narrow copy of
  ẑ and applies ½ + ½ · tanh (½ · x). The third weight is padded with sixteen zero columns on the host and only the first
  sixteen columns of the last product are kept.

  Over the extended reals a change of float format is the identity, so the resident copies are the arrays themselves; each
  kernel matrix product is the same finite sum as the reference's; the zero columns never enter the kept columns; and
  ½ + ½ · tanh (x / 2) = 1 / (1 + e⁻ˣ) holds at every extended real (both sides are 0 at −∞ and 1 at +∞). No law used
  needs finiteness, so the precondition is not opened.

  The frames of the kernel (at words and at extended reals) come from one proof of the body, generic in the float
  instance: the body is cut into its seven conditionals; an invariant says which bands of the four carried buffers hold
  their final values before each point; the pipeline's launch theorem gives the run, from which the argument arrays are
  read back unchanged and, at the extended reals, the two result arrays as the assembled bands.
-/
import proofs.«136274_g82781199663863_cont_9to1_m_1005_4_alg».proof.Defs
import proofs.«136274_g82781199663863_cont_9to1_m_1005_4_alg».proof.Proof.Gen.Kernel
import proofs.«136274_g82781199663863_cont_9to1_m_1005_4_alg».proof.Proof.Gen.KernelIdeal
import proofs.«136274_g82781199663863_cont_9to1_m_1005_4_alg».proof.Proof.Gen.ReferenceIdeal
import proofs.«136274_g82781199663863_cont_9to1_m_1005_4_alg».proof.Proof.Gen.Pre_finite_inputs
import proofs.«136274_g82781199663863_cont_9to1_m_1005_4_alg».proof.Proof.Gen.ReferenceIdeal.Run
import proofs.«136274_g82781199663863_cont_9to1_m_1005_4_alg».proof.Proof.Gen.ReferenceIdeal.Read
import proofs.«136274_g82781199663863_cont_9to1_m_1005_4_alg».proof.Proof.Bits.Frame
import proofs.«136274_g82781199663863_cont_9to1_m_1005_4_alg».proof.Proof.Ideal.Frame
import proofs.«136274_g82781199663863_cont_9to1_m_1005_4_alg».proof.Proof.Ideal.Final
import proofs.«136274_g82781199663863_cont_9to1_m_1005_4_alg».proof.Proof.KernelSpec
import proofs.«136274_g82781199663863_cont_9to1_m_1005_4_alg».proof.Proof.RefSpec
import Idealize.ShloMosaic.Adequacy
import Idealize.ShloMosaic.Init

set_option maxRecDepth 16384

noncomputable section

namespace Cert.Proof

open Idealize.ShloMosaic Idealize.SL.Sem

/-- The kernel at words: it runs and its arguments end unchanged. -/
theorem frame_k : Cert.frame_Kernel := fun m ρ _ => Cert.Kernel.Run.frame (F := Bits) m ρ

/-- The kernel at extended reals: the same. -/
theorem frame_ki : Cert.frame_KernelIdeal := fun m ρ _ => Cert.KernelIdeal.Run.frame (F := Ideal) m ρ

/-- The reference: its run, the results dropped. -/
theorem frame_ri : Cert.frame_ReferenceIdeal := fun m ρ _ =>
  (θ_run Cert.ReferenceIdeal.defs _ _).mono (fun _ h c => (h c).2.2) (Cert.ReferenceIdeal.RefSpec.run_spec m ρ)

/-- Both programs end at the decoder's two results as functions of the (agreeing) arguments. -/
theorem algebraic : Cert.algebraic_KernelIdeal_ReferenceIdeal := by
  intro m ρ m' ρ' _ hagree
  refine ⟨fun c => Cert.KernelIdeal.Traj.ZH (F := Ideal) m c, fun c => Cert.KernelIdeal.Traj.OUT (F := Ideal) m c, ?_, ?_⟩
  · exact (θ_run Cert.KernelIdeal.defs _ _).mono
      (fun r h c => ⟨Cert.KernelIdeal.Run.final5 m c _ ((h c).1 5), Cert.KernelIdeal.Run.final6 m c _ ((h c).1 6),
        Cert.KernelIdeal.Run.kept0 m r h c, Cert.KernelIdeal.Run.kept1 m r h c, Cert.KernelIdeal.Run.kept2 m r h c,
        Cert.KernelIdeal.Run.kept3 m r h c, Cert.KernelIdeal.Run.kept4 m r h c⟩)
      (Cert.KernelIdeal.Run.run_main (F := Ideal) m ρ)
  · refine (θ_run Cert.ReferenceIdeal.defs _ _).mono (fun r h c => ⟨?_, ?_, (h c).2.2⟩)
      (Cert.ReferenceIdeal.RefSpec.run_spec m' ρ')
    · rw [(h c).1, (hagree c).1, (hagree c).2.1, (hagree c).2.2.1, (hagree c).2.2.2.1, (hagree c).2.2.2.2]
      exact (Cert.KernelIdeal.KSpec.zh_spec m c).symm
    · rw [(h c).2.1, (hagree c).1, (hagree c).2.1, (hagree c).2.2.1, (hagree c).2.2.2.1, (hagree c).2.2.2.2]
      exact (Cert.KernelIdeal.KSpec.out_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
